-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x32 : Shape := ⟨2, ![800000, 32]⟩
abbrev S96x160 : Shape := ⟨2, ![96, 160]⟩
abbrev S96 : Shape := ⟨1, ![96]⟩
abbrev S64x128 : Shape := ⟨2, ![64, 128]⟩
abbrev S64 : Shape := ⟨1, ![64]⟩
abbrev S32x32 : Shape := ⟨2, ![32, 32]⟩
abbrev S32 : Shape := ⟨1, ![32]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S96x160 : S_.BroadcastsInDim S96x160 (![] : Fin 0 → Fin S96x160.rank)
  reducesTo_S96x160_S_d0_1 : S96x160.ReducesTo [0, 1] S_
  bcast_S_S96 : S_.BroadcastsInDim S96 (![] : Fin 0 → Fin S96.rank)
  reducesTo_S96_S_d0 : S96.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg4 : FVec F S64x128 .f32) (main_arg5 : FVec F S64 .f32) (main_arg6 : FVec F S32x32 .f32) (main_arg7 : FVec F S32 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_v33

def fn {F : FTy → Type} [FloatOps F] (main_arg0 : FVec F S50000x128 .f32) (main_arg1 : FVec F S800000x32 .f32) (main_arg2 : FVec F S96x160 .f32) (main_arg3 : FVec F S96 .f32) (main_arg4 : FVec F S64x128 .f32) (main_arg5 : FVec F S64 .f32) (main_arg6 : FVec F S32x32 .f32) (main_arg7 : FVec F S32 .f32) (main_arg8 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x32 .f32 := Host.absf main_arg1
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S96x160 .f32 := Host.absf main_arg2
  let main_cst_2 : FVec F S_ .f32 := constant S_ .f32 0x7F800000#32
  let main_v10 : FVec F S96x160 .f32 := broadcastInDim S96x160 ![] bcast_S_S96x160 main_cst_2
  let main_v11 : IVec S96x160 1 := cmpf .olt main_v9 main_v10
  let main_c_3 : IVec S_ 1 := constantI S_ 1 1#1
  let main_v12 : IVec S_ 1 := (fun x v => Host.reduce IntOp.andi x v reducesTo_S96x160_S_d0_1 h_S_) main_v11 main_c_3
  let main_v13 : IVec S_ 1 := andi main_v8 main_v12
  let main_v14 : FVec F S96 .f32 := Host.absf main_arg3
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg4 main_arg5 main_arg6 main_arg7 main_v13 main_v16
-- ==== Kernel.lean ====
abbrev S50000x128 : Shape := ⟨2, ![50000, 128]⟩
abbrev S800000x32 : Shape := ⟨2, ![800000, 32]⟩
abbrev S96x160 : Shape := ⟨2, ![96, 160]⟩
abbrev S96 : Shape := ⟨1, ![96]⟩
abbrev S64x128 : Shape := ⟨2, ![64, 128]⟩
abbrev S64 : Shape := ⟨1, ![64]⟩
abbrev S32x32 : Shape := ⟨2, ![32, 32]⟩
abbrev S32 : Shape := ⟨1, ![32]⟩
abbrev S2x800000 : Shape := ⟨2, ![2, 800000]⟩
abbrev S1x800000 : Shape := ⟨2, ![1, 800000]⟩
abbrev S800000 : Shape := ⟨1, ![800000]⟩
abbrev S96x128 : Shape := ⟨2, ![96, 128]⟩
abbrev S96x32 : Shape := ⟨2, ![96, 32]⟩
abbrev S1x64 : Shape := ⟨2, ![1, 64]⟩
abbrev S50000x64 : Shape := ⟨2, ![50000, 64]⟩
abbrev S50000x96 : Shape := ⟨2, ![50000, 96]⟩
abbrev S5000x128 : Shape := ⟨2, ![5000, 128]⟩
abbrev S5000x64 : Shape := ⟨2, ![5000, 64]⟩
abbrev S5000x96 : Shape := ⟨2, ![5000, 96]⟩
abbrev S128x64 : Shape := ⟨2, ![128, 64]⟩
abbrev S128x96 : Shape := ⟨2, ![128, 96]⟩
abbrev S_ : Shape := ⟨0, ![]⟩
abbrev S50000 : Shape := ⟨1, ![50000]⟩
abbrev S800000x1 : Shape := ⟨2, ![800000, 1]⟩
abbrev S800000x96 : Shape := ⟨2, ![800000, 96]⟩
abbrev S1x96 : Shape := ⟨2, ![1, 96]⟩
abbrev S1x32 : Shape := ⟨2, ![1, 32]⟩
abbrev S800000x128 : Shape := ⟨2, ![800000, 128]⟩
abbrev S4000x96 : Shape := ⟨2, ![4000, 96]⟩
abbrev S4000x32 : Shape := ⟨2, ![4000, 32]⟩
abbrev S4000x1 : Shape := ⟨2, ![4000, 1]⟩
abbrev S4000x128 : Shape := ⟨2, ![4000, 128]⟩
abbrev S32x96 : Shape := ⟨2, ![32, 96]⟩
abbrev S50000x32 : Shape := ⟨2, ![50000, 32]⟩
abbrev S50000x224 : Shape := ⟨2, ![50000, 224]⟩

abbrev nBuf : Space → Nat
  | .hbm => 88
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S800000x32, .f32⟩
  | .hbm, ⟨2, _⟩ => ⟨S96x160, .f32⟩
  | .hbm, ⟨3, _⟩ => ⟨S96, .f32⟩
  | .hbm, ⟨4, _⟩ => ⟨S64x128, .f32⟩
  | .hbm, ⟨5, _⟩ => ⟨S64, .f32⟩
  | .hbm, ⟨6, _⟩ => ⟨S32x32, .f32⟩
  | .hbm, ⟨7, _⟩ => ⟨S32, .f32⟩
  | .hbm, ⟨8, _⟩ => ⟨S2x800000, .i32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S96x128, .f32⟩
  | .hbm, ⟨14, _⟩ => ⟨S96x32, .f32⟩
  | .hbm, ⟨15, _⟩ => ⟨S1x64, .f32⟩
  | .hbm, ⟨16, _⟩ => ⟨S50000x64, .f32⟩
  | .hbm, ⟨17, _⟩ => ⟨S50000x96, .f32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x96, .f32⟩
  | .hbm, ⟨53, _⟩ => ⟨S800000x1, .f32⟩
  | .hbm, ⟨54, _⟩ => ⟨S1x96, .f32⟩
  | .hbm, ⟨55, _⟩ => ⟨S1x32, .f32⟩
  | .hbm, ⟨56, _⟩ => ⟨S800000x128, .f32⟩
  | .hbm, ⟨57, _⟩ => ⟨S800000x96, .f32⟩
  | .hbm, ⟨58, _⟩ => ⟨S800000x32, .f32⟩
  | .hbm, ⟨59, _⟩ => ⟨S_, .f32⟩
  | .hbm, ⟨60, _⟩ => ⟨S50000x32, .f32⟩
  | .hbm, ⟨61, _⟩ => ⟨S800000x1, .i32⟩
  | .hbm, ⟨62, _⟩ => ⟨S50000x32, .f32⟩
  | .hbm, ⟨63, _⟩ => ⟨S800000x1, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x32, .f32⟩
  | .hbm, ⟨73, _⟩ => ⟨S800000x32, .f32⟩
  | .hbm, ⟨74, _⟩ => ⟨S800000x32, .f32⟩
  | .hbm, ⟨75, _⟩ => ⟨S_, .f32⟩
  | .hbm, ⟨76, _⟩ => ⟨S50000x32, .f32⟩
  | .hbm, ⟨77, _⟩ => ⟨S800000x1, .i32⟩
  | .hbm, ⟨78, _⟩ => ⟨S50000x32, .f32⟩
  | .hbm, ⟨79, _⟩ => ⟨S50000x64, .f32⟩
  | .hbm, ⟨80, _⟩ => ⟨S_, .f32⟩
  | .hbm, ⟨81, _⟩ => ⟨S50000x96, .f32⟩
  | .hbm, ⟨82, _⟩ => ⟨S800000x1, .i32⟩
  | .hbm, ⟨83, _⟩ => ⟨S50000x96, .f32⟩
  | .hbm, ⟨84, _⟩ => ⟨S_, .f32⟩
  | .hbm, ⟨85, _⟩ => ⟨S50000x96, .f32⟩
  | .hbm, ⟨86, _⟩ => ⟨S50000x96, .f32⟩
  | .hbm, ⟨87, _⟩ => ⟨S50000x224, .f32⟩
  | .local _ .vmem, ⟨0, _⟩ => ⟨S5000x128, .f32⟩
  | .local _ .vmem, ⟨1, _⟩ => ⟨S5000x128, .f32⟩
  | .local _ .vmem, ⟨2, _⟩ => ⟨S64x128, .f32⟩
  | .local _ .vmem, ⟨3, _⟩ => ⟨S1x64, .f32⟩
  | .local _ .vmem, ⟨4, _⟩ => ⟨S96x128, .f32⟩
  | .local _ .vmem, ⟨5, _⟩ => ⟨S5000x64, .f32⟩
  | .local _ .vmem, ⟨6, _⟩ => ⟨S5000x64, .f32⟩
  | .local _ .vmem, ⟨7, _⟩ => ⟨S5000x96, .f32⟩
  | .local _ .vmem, ⟨8, _⟩ => ⟨S5000x96, .f32⟩
  | .local _ .vmem, ⟨9, _⟩ => ⟨S4000x96, .f32⟩
  | .local _ .vmem, ⟨10, _⟩ => ⟨S4000x96, .f32⟩
  | .local _ .vmem, ⟨11, _⟩ => ⟨S4000x32, .f32⟩
  | .local _ .vmem, ⟨12, _⟩ => ⟨S4000x32, .f32⟩
  | .local _ .vmem, ⟨13, _⟩ => ⟨S4000x1, .f32⟩
  | .local _ .vmem, ⟨14, _⟩ => ⟨S4000x1, .f32⟩
  | .local _ .vmem, ⟨15, _⟩ => ⟨S96x32, .f32⟩
  | .local _ .vmem, ⟨16, _⟩ => ⟨S1x96, .f32⟩
  | .local _ .vmem, ⟨17, _⟩ => ⟨S32x32, .f32⟩
  | .local _ .vmem, ⟨18, _⟩ => ⟨S1x32, .f32⟩
  | .local _ .vmem, ⟨19, _⟩ => ⟨S4000x128, .f32⟩
  | .local _ .vmem, ⟨20, _⟩ => ⟨S4000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_8 : Ref sig .tc := ⟨.hbm, 64, rfl⟩
abbrev main_v42 : Ref sig .tc := ⟨.hbm, 65, rfl⟩
abbrev main_v43 : Ref sig .tc := ⟨.hbm, 66, rfl⟩
abbrev main_c_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_call1_cst : Ref sig .tc := ⟨.hbm, 84, rfl⟩
abbrev main_call1_v0 : Ref sig .tc := ⟨.hbm, 85, rfl⟩
abbrev main_v58 : Ref sig .tc := ⟨.hbm, 86, rfl⟩
abbrev main_v59 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S96x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_1_0 : S2x800000.Slices ![1, 0] S1x800000
  shapeCasts_S1x800000_S800000 : S1x800000.ShapeCasts S800000
  slices_S2x800000_S1x800000_0_0 : S2x800000.Slices ![0, 0] S1x800000
  slices_S96x160_S96x128_0_0 : S96x160.Slices ![0, 0] S96x128
  slices_S96x160_S96x32_0_128 : S96x160.Slices ![0, 128] S96x32
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  inb_S96x128_S96x128_0_0 : ∀ a, (![0, 0] : Fin 2 → Nat) a + S96x128.size a ≤ S96x128.size a
  h_S96x128 : 0 < S96x128.numel
  shapeCasts_S96x128_S96x128 : S96x128.ShapeCasts S96x128
  transposes_S96x128_p1_0_S128x96 : S96x128.Transposes [1, 0] S128x96
  inb_S5000x96_S5000x96_0_0 : ∀ a, (![0, 0] : Fin 2 → Nat) a + S5000x96.size a ≤ S5000x96.size a
  h_S5000x96 : 0 < S5000x96.numel
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S800000_S800000x1 : S800000.ShapeCasts S800000x1
  shapeCasts_S96_S1x96 : S96.ShapeCasts S1x96
  shapeCasts_S32_S1x32 : S32.ShapeCasts S1x32
  inb_S4000x32_S4000x32_0_0 : ∀ a, (![0, 0] : Fin 2 → Nat) a + S4000x32.size a ≤ S4000x32.size a
  h_S4000x32 : 0 < S4000x32.numel
  inb_S96x32_S96x32_0_0 : ∀ a, (![0, 0] : Fin 2 → Nat) a + S96x32.size a ≤ S96x32.size a
  h_S96x32 : 0 < S96x32.numel
  shapeCasts_S96x32_S96x32 : S96x32.ShapeCasts S96x32
  transposes_S96x32_p1_0_S32x96 : S96x32.Transposes [1, 0] S32x96
  inb_S4000x96_S4000x96_0_0 : ∀ a, (![0, 0] : Fin 2 → Nat) a + S4000x96.size a ≤ S4000x96.size a
  h_S4000x96 : 0 < S4000x96.numel
  shapeCasts_S4000x96_S4000x96 : S4000x96.ShapeCasts S4000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S4000x96 : S1x96.Broadcasts S4000x96
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x96 : S4000x1.Broadcasts S4000x96
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S4000x128_S4000x96_0_0 : ∀ a, (![0, 0] : Fin 2 → Nat) a + S4000x96.size a ≤ S4000x128.size a
  inb_S4000x128_S4000x32_0_96 : ∀ a, (![0, 96] : Fin 2 → Nat) a + S4000x32.size a ≤ S4000x128.size a
  slices_S800000x128_S800000x96_0_0 : S800000x128.Slices ![0, 0] S800000x96
  slices_S800000x128_S800000x32_0_96 : S800000x128.Slices ![0, 96] S800000x32
  bcast_S_S50000x32 : S_.BroadcastsInDim S50000x32 (![] : Fin 0 → Fin S50000x32.rank)
  bcast_S800000x1_S800000x32_0_1 : S800000x1.BroadcastsInDim S800000x32 (![0, 1] : Fin 2 → Fin S800000x32.rank)
  concatenates_S50000x32_S50000x32_S50000x64_d1 : Shape.Concatenates [S50000x32, S50000x32] S50000x64 1
  bcast_S_S50000x96 : S_.BroadcastsInDim S50000x96 (![] : Fin 0 → Fin S50000x96.rank)
  concatenates_S50000x64_S50000x64_S50000x96_S50000x224_d1 : Shape.Concatenates [S50000x64, S50000x64, S50000x96] S50000x224 1
  dot_S5000x128_S128x64_S5000x64_1_0_0_1_n_n_wf : DotDims.WF S5000x128 S128x64 S5000x64 [1] [0] [0] [1] [] []
  dot_S5000x128_S128x96_S5000x96_1_0_0_1_n_n_wf : DotDims.WF S5000x128 S128x96 S5000x96 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x96_S800000x1_S800000x96_1_0_n_n_0_1_196_wf : GatherDims.WF S50000x96 S800000x1 S800000x96 [1] [0] [] [0] [] 1 ![1, 96]
  dot_S4000x32_S32x96_S4000x96_1_0_0_1_n_n_wf : DotDims.WF S4000x32 S32x96 S4000x96 [1] [0] [0] [1] [] []
  dot_S4000x32_S32x32_S4000x32_1_0_0_1_n_n_wf : DotDims.WF S4000x32 S32x32 S4000x32 [1] [0] [0] [1] [] []
  scatter_S50000x32_S800000x1_S800000x32_1_0_0_1_wf : ScatterDims.WF S50000x32 S800000x1 S800000x32 [1] [0] [0] 1
  gather_S50000x32_S800000x1_S800000x32_1_0_n_n_0_1_132_wf : GatherDims.WF S50000x32 S800000x1 S800000x32 [1] [0] [] [0] [] 1 ![1, 32]
  scatter_S50000x96_S800000x1_S800000x96_1_0_0_1_wf : ScatterDims.WF S50000x96 S800000x1 S800000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x128.size a ≤ S96x128.size a
  hwx0_3 : ∀ i : grid0.Coords, EltTy.bits .f32 = 32 ∨ (Rect.block (s := S96x128) S96x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x96.size a ≤ S50000x96.size a
  hwx0_5 : ∀ i : grid0.Coords, EltTy.bits .f32 = 32 ∨ (Rect.block (s := S50000x96) S5000x96.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x96.size a ≤ S800000x96.size a
  hwx1_0 : ∀ i : grid1.Coords, EltTy.bits .f32 = 32 ∨ (Rect.block (s := S800000x96) S4000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x32.size a ≤ S800000x32.size a
  hwx1_1 : ∀ i : grid1.Coords, EltTy.bits .f32 = 32 ∨ (Rect.block (s := S800000x32) S4000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S800000x1.size a
  hwx1_2 : ∀ i : grid1.Coords, EltTy.bits .f32 = 32 ∨ (Rect.block (s := S800000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96x32.size a ≤ S96x32.size a
  hwx1_3 : ∀ i : grid1.Coords, EltTy.bits .f32 = 32 ∨ (Rect.block (s := S96x32) S96x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x96.size a ≤ S1x96.size a
  hwx1_4 : ∀ i : grid1.Coords, EltTy.bits .f32 = 32 ∨ (Rect.block (s := S1x96) S1x96.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x32.size a ≤ S32x32.size a
  hwx1_5 : ∀ i : grid1.Coords, EltTy.bits .f32 = 32 ∨ (Rect.block (s := S32x32) S32x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S800000x128.size a
  hwx1_7 : ∀ i : grid1.Coords, EltTy.bits .f32 = 32 ∨ (Rect.block (s := S800000x128) S4000x128.size (cc1_transform_7 i) (hinb1_7 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x128_S128x96_S5000x96_1_0_0_1_n_n : DotDims S5000x128 S128x96 S5000x96 where
  lhsContracting := [1]
  rhsContracting := [0]
  lhsNonContracting := [0]
  rhsNonContracting := [1]
  lhsBatch := []
  rhsBatch := []
  wf := dot_S5000x128_S128x96_S5000x96_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S4000x32_S32x96_S4000x96_1_0_0_1_n_n : DotDims S4000x32 S32x96 S4000x96 where
  lhsContracting := [1]
  rhsContracting := [0]
  lhsNonContracting := [0]
  rhsNonContracting := [1]
  lhsBatch := []
  rhsBatch := []
  wf := dot_S4000x32_S32x96_S4000x96_1_0_0_1_n_n_wf
def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S96x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S5000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S5000x96.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S4000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S4000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S96x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S32x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v35) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x32 : Shape := ⟨2, ![800000, 32]⟩
abbrev S96x160 : Shape := ⟨2, ![96, 160]⟩
abbrev S96 : Shape := ⟨1, ![96]⟩
abbrev S64x128 : Shape := ⟨2, ![64, 128]⟩
abbrev S64 : Shape := ⟨1, ![64]⟩
abbrev S32x32 : Shape := ⟨2, ![32, 32]⟩
abbrev S32 : Shape := ⟨1, ![32]⟩
abbrev S2x800000 : Shape := ⟨2, ![2, 800000]⟩
abbrev S1x800000 : Shape := ⟨2, ![1, 800000]⟩
abbrev S800000 : Shape := ⟨1, ![800000]⟩
abbrev S128x64 : Shape := ⟨2, ![128, 64]⟩
abbrev S50000x64 : Shape := ⟨2, ![50000, 64]⟩
abbrev S1x64 : Shape := ⟨2, ![1, 64]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S800000x160 : Shape := ⟨2, ![800000, 160]⟩
abbrev S160x96 : Shape := ⟨2, ![160, 96]⟩
abbrev S800000x96 : Shape := ⟨2, ![800000, 96]⟩
abbrev S1x96 : Shape := ⟨2, ![1, 96]⟩
abbrev S50000x96 : Shape := ⟨2, ![50000, 96]⟩
abbrev S1x32 : Shape := ⟨2, ![1, 32]⟩
abbrev S50000x32 : Shape := ⟨2, ![50000, 32]⟩
abbrev S50000x224 : Shape := ⟨2, ![50000, 224]⟩

abbrev nBuf : Space → Nat
  | .hbm => 117
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x32, .f32⟩
  | .hbm, ⟨2, _⟩ => ⟨S96x160, .f32⟩
  | .hbm, ⟨3, _⟩ => ⟨S96, .f32⟩
  | .hbm, ⟨4, _⟩ => ⟨S64x128, .f32⟩
  | .hbm, ⟨5, _⟩ => ⟨S64, .f32⟩
  | .hbm, ⟨6, _⟩ => ⟨S32x32, .f32⟩
  | .hbm, ⟨7, _⟩ => ⟨S32, .f32⟩
  | .hbm, ⟨8, _⟩ => ⟨S2x800000, .i32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S128x64, .f32⟩
  | .hbm, ⟨14, _⟩ => ⟨S50000x64, .f32⟩
  | .hbm, ⟨15, _⟩ => ⟨S1x64, .f32⟩
  | .hbm, ⟨16, _⟩ => ⟨S50000x64, .f32⟩
  | .hbm, ⟨17, _⟩ => ⟨S50000x64, .f32⟩
  | .hbm, ⟨18, _⟩ => ⟨S_, .f32⟩
  | .hbm, ⟨19, _⟩ => ⟨S50000x64, .f32⟩
  | .hbm, ⟨20, _⟩ => ⟨S50000x64, .f32⟩
  | .hbm, ⟨21, _⟩ => ⟨S_, .f32⟩
  | .hbm, ⟨22, _⟩ => ⟨S800000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .i1⟩
  | .hbm, ⟨37, _⟩ => ⟨S50000, .f32⟩
  | .hbm, ⟨38, _⟩ => ⟨S50000, .f32⟩
  | .hbm, ⟨39, _⟩ => ⟨S_, .f32⟩
  | .hbm, ⟨40, _⟩ => ⟨S_, .f32⟩
  | .hbm, ⟨41, _⟩ => ⟨S50000, .f32⟩
  | .hbm, ⟨42, _⟩ => ⟨S50000, .f32⟩
  | .hbm, ⟨43, _⟩ => ⟨S_, .f32⟩
  | .hbm, ⟨44, _⟩ => ⟨S50000, .f32⟩
  | .hbm, ⟨45, _⟩ => ⟨S50000, .i1⟩
  | .hbm, ⟨46, _⟩ => ⟨S_, .f32⟩
  | .hbm, ⟨47, _⟩ => ⟨S50000, .f32⟩
  | .hbm, ⟨48, _⟩ => ⟨S50000, .f32⟩
  | .hbm, ⟨49, _⟩ => ⟨S_, .f32⟩
  | .hbm, ⟨50, _⟩ => ⟨S_, .f32⟩
  | .hbm, ⟨51, _⟩ => ⟨S50000, .f32⟩
  | .hbm, ⟨52, _⟩ => ⟨S50000, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x128, .f32⟩
  | .hbm, ⟨71, _⟩ => ⟨S800000x160, .f32⟩
  | .hbm, ⟨72, _⟩ => ⟨S800000x1, .f32⟩
  | .hbm, ⟨73, _⟩ => ⟨S160x96, .f32⟩
  | .hbm, ⟨74, _⟩ => ⟨S800000x96, .f32⟩
  | .hbm, ⟨75, _⟩ => ⟨S1x96, .f32⟩
  | .hbm, ⟨76, _⟩ => ⟨S800000x96, .f32⟩
  | .hbm, ⟨77, _⟩ => ⟨S800000x96, .f32⟩
  | .hbm, ⟨78, _⟩ => ⟨S800000x96, .f32⟩
  | .hbm, ⟨79, _⟩ => ⟨S800000x96, .f32⟩
  | .hbm, ⟨80, _⟩ => ⟨S_, .f32⟩
  | .hbm, ⟨81, _⟩ => ⟨S50000x96, .f32⟩
  | .hbm, ⟨82, _⟩ => ⟨S800000x1, .i32⟩
  | .hbm, ⟨83, _⟩ => ⟨S50000x96, .f32⟩
  | .hbm, ⟨84, _⟩ => ⟨S_, .f32⟩
  | .hbm, ⟨85, _⟩ => ⟨S50000x96, .f32⟩
  | .hbm, ⟨86, _⟩ => ⟨S50000x96, .f32⟩
  | .hbm, ⟨87, _⟩ => ⟨S32x32, .f32⟩
  | .hbm, ⟨88, _⟩ => ⟨S800000x32, .f32⟩
  | .hbm, ⟨89, _⟩ => ⟨S1x32, .f32⟩
  | .hbm, ⟨90, _⟩ => ⟨S800000x32, .f32⟩
  | .hbm, ⟨91, _⟩ => ⟨S800000x32, .f32⟩
  | .hbm, ⟨92, _⟩ => ⟨S_, .f32⟩
  | .hbm, ⟨93, _⟩ => ⟨S800000x32, .f32⟩
  | .hbm, ⟨94, _⟩ => ⟨S800000x32, .f32⟩
  | .hbm, ⟨95, _⟩ => ⟨S_, .f32⟩
  | .hbm, ⟨96, _⟩ => ⟨S50000x32, .f32⟩
  | .hbm, ⟨97, _⟩ => ⟨S800000x1, .i32⟩
  | .hbm, ⟨98, _⟩ => ⟨S50000x32, .f32⟩
  | .hbm, ⟨99, _⟩ => ⟨S800000x1, .f32⟩
  | .hbm, ⟨100, _⟩ => ⟨S_, .i32⟩
  | .hbm, ⟨101, _⟩ => ⟨S800000, .i32⟩
  | .hbm, ⟨102, _⟩ => ⟨S800000, .i1⟩
  | .hbm, ⟨103, _⟩ => ⟨S_, .i32⟩
  | .hbm, ⟨104, _⟩ => ⟨S800000, .i32⟩
  | .hbm, ⟨105, _⟩ => ⟨S800000, .i32⟩
  | .hbm, ⟨106, _⟩ => ⟨S800000, .i32⟩
  | .hbm, ⟨107, _⟩ => ⟨S800000x1, .i32⟩
  | .hbm, ⟨108, _⟩ => ⟨S800000x32, .f32⟩
  | .hbm, ⟨109, _⟩ => ⟨S800000x32, .f32⟩
  | .hbm, ⟨110, _⟩ => ⟨S800000x32, .f32⟩
  | .hbm, ⟨111, _⟩ => ⟨S_, .f32⟩
  | .hbm, ⟨112, _⟩ => ⟨S50000x32, .f32⟩
  | .hbm, ⟨113, _⟩ => ⟨S800000x1, .i32⟩
  | .hbm, ⟨114, _⟩ => ⟨S50000x32, .f32⟩
  | .hbm, ⟨115, _⟩ => ⟨S50000x64, .f32⟩
  | .hbm, ⟨116, _⟩ => ⟨S50000x224, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_cst : Ref sig .tc := ⟨.hbm, 18, rfl⟩
abbrev main_call0_v0 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_call1_v0 : Ref sig .tc := ⟨.hbm, 40, rfl⟩
abbrev main_call1_v1 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_call2_v0 : Ref sig .tc := ⟨.hbm, 50, rfl⟩
abbrev main_call2_v1 : Ref sig .tc := ⟨.hbm, 51, rfl⟩
abbrev main_v28 : Ref sig .tc := ⟨.hbm, 52, rfl⟩
abbrev main_c : Ref sig .tc := ⟨.hbm, 53, rfl⟩
abbrev main_v29 : Ref sig .tc := ⟨.hbm, 54, rfl⟩
abbrev main_v30 : Ref sig .tc := ⟨.hbm, 55, rfl⟩
abbrev main_c_8 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_9 : Ref sig .tc := ⟨.hbm, 62, rfl⟩
abbrev main_v36 : Ref sig .tc := ⟨.hbm, 63, rfl⟩
abbrev main_v37 : Ref sig .tc := ⟨.hbm, 64, rfl⟩
abbrev main_c_10 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_11 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call3_cst : Ref sig .tc := ⟨.hbm, 84, rfl⟩
abbrev main_call3_v0 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_call4_cst : Ref sig .tc := ⟨.hbm, 92, rfl⟩
abbrev main_call4_v0 : Ref sig .tc := ⟨.hbm, 93, rfl⟩
abbrev main_v61 : Ref sig .tc := ⟨.hbm, 94, rfl⟩
abbrev main_cst_12 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_c_13 : Ref sig .tc := ⟨.hbm, 100, rfl⟩
abbrev main_v66 : Ref sig .tc := ⟨.hbm, 101, rfl⟩
abbrev main_v67 : Ref sig .tc := ⟨.hbm, 102, rfl⟩
abbrev main_c_14 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_15 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩

abbrev nD : Nat := 1
abbrev τ : Topo := Topo.v7x

variable {F : FTy → Type} [FloatOps F]

class Facts₀ : Prop where
  slices_S2x800000_S1x800000_1_0 : S2x800000.Slices ![1, 0] S1x800000
  shapeCasts_S1x800000_S800000 : S1x800000.ShapeCasts S800000
  slices_S2x800000_S1x800000_0_0 : S2x800000.Slices ![0, 0] S1x800000
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  concatenates_S800000x128_S800000x32_S800000x160_d1 : Shape.Concatenates [S800000x128, S800000x32] S800000x160 1
  transposes_S96x160_S160x96_1_0 : S96x160.Transposes [1, 0] S160x96
  bcast_S96_S1x96_1 : S96.BroadcastsInDim S1x96 (![1] : Fin 1 → Fin S1x96.rank)
  bcast_S1x96_S800000x96_0_1 : S1x96.BroadcastsInDim S800000x96 (![0, 1] : Fin 2 → Fin S800000x96.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  transposes_S32x32_S32x32_1_0 : S32x32.Transposes [1, 0] S32x32
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S_S800000x32 : S_.BroadcastsInDim S800000x32 (![] : Fin 0 → Fin S800000x32.rank)
  bcast_S_S50000x32 : S_.BroadcastsInDim S50000x32 (![] : Fin 0 → Fin S50000x32.rank)
  bcast_S800000x1_S800000x32_0_1 : S800000x1.BroadcastsInDim S800000x32 (![0, 1] : Fin 2 → Fin S800000x32.rank)
  concatenates_S50000x32_S50000x32_S50000x64_d1 : Shape.Concatenates [S50000x32, S50000x32] S50000x64 1
  concatenates_S50000x64_S50000x64_S50000x96_S50000x224_d1 : Shape.Concatenates [S50000x64, S50000x64, S50000x96] S50000x224 1
  dot_S50000x128_S128x64_S50000x64_1_0_0_1_n_n_wf : DotDims.WF S50000x128 S128x64 S50000x64 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  dot_S800000x160_S160x96_S800000x96_1_0_0_1_n_n_wf : DotDims.WF S800000x160 S160x96 S800000x96 [1] [0] [0] [1] [] []
  scatter_S50000x96_S800000x1_S800000x96_1_0_0_1_wf : ScatterDims.WF S50000x96 S800000x1 S800000x96 [1] [0] [0] 1
  dot_S800000x32_S32x32_S800000x32_1_0_0_1_n_n_wf : DotDims.WF S800000x32 S32x32 S800000x32 [1] [0] [0] [1] [] []
  scatter_S50000x32_S800000x1_S800000x32_1_0_0_1_wf : ScatterDims.WF S50000x32 S800000x1 S800000x32 [1] [0] [0] 1
  gather_S50000x32_S800000x1_S800000x32_1_0_n_n_0_1_132_wf : GatherDims.WF S50000x32 S800000x1 S800000x32 [1] [0] [] [0] [] 1 ![1, 32]

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x160_S160x96_S800000x96_1_0_0_1_n_n : DotDims S800000x160 S160x96 S800000x96 where
  lhsContracting := [1]
  rhsContracting := [0]
  lhsNonContracting := [0]
  rhsNonContracting := [1]
  lhsBatch := []
  rhsBatch := []
  wf := dot_S800000x160_S160x96_S800000x96_1_0_0_1_n_n_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S800000x32_S32x32_S800000x32_1_0_0_1_n_n : DotDims S800000x32 S32x32 S800000x32 where
  lhsContracting := [1]
  rhsContracting := [0]
  lhsNonContracting := [0]
  rhsNonContracting := [1]
  lhsBatch := []
  rhsBatch := []
  wf := dot_S800000x32_S32x32_S800000x32_1_0_0_1_n_n_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf

class Facts : Prop extends Facts₀ where

variable [Facts]
-- ==== Proof.KFrameDefs.lean ====
/- The frames of the two kernel regions, DEFINITIONS: per region, at the TensorCore's buffer contents V
   when the region is entered, each window's block at a grid point, what the body leaves in each output
   window's buffer as a function of the input blocks, and the pipeline's proof data; then the buffer
   contents at every boundary between the items of @main, folded from the launch memory. -/
import proofs.«128638_j40037685133334_2_alg».proof.Proof.Gen.Kernel.Launch
import proofs.«128638_j40037685133334_2_alg».proof.Proof.Gen.Kernel.Skeleton
import proofs.«128638_j40037685133334_2_alg».proof.Proof.Gen.Kernel.Points
import proofs.«128638_j40037685133334_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions
-- the TensorCore's buffer contents when a region is entered
variable (V : (c : Dev nD) → (b : Ref sig .tc) → Buf (Elt F) ((c : Thread nD τ).loc b))

/-! # Region 0 (the first pallas_call), at the entry contents V -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev r0_0 : Rect S5000x128 := Rect.unit (s := S5000x128) ![0, 0] S5000x128.size inb_S5000x128_S5000x128_0_0
abbrev r0_1 : Rect S64x128 := Rect.unit (s := S64x128) ![0, 0] S64x128.size inb_S64x128_S64x128_0_0
abbrev r0_2 : Rect S1x64 := Rect.unit (s := S1x64) ![0, 0] S1x64.size inb_S1x64_S1x64_0_0
abbrev r0_3 : Rect S96x128 := Rect.unit (s := S96x128) ![0, 0] S96x128.size inb_S96x128_S96x128_0_0
abbrev r0_4 : Rect S5000x64 := Rect.unit (s := S5000x64) ![0, 0] S5000x64.size inb_S5000x64_S5000x64_0_0
abbrev r0_5 : Rect S5000x96 := Rect.unit (s := S5000x96) ![0, 0] S5000x96.size inb_S5000x96_S5000x96_0_0

/-- Output window 4's buffer after the body, from the input windows' blocks: its one store. -/
def out0_4 (x0 : Vec F S5000x128 .f32) (x1 : Vec F S64x128 .f32) (x2 : Vec F S1x64 .f32) : Vec F S5000x64 .f32 :=
  View.canon [⟨r0_4, k0_pay2 (View.ld x0 r0_0) (View.ld x1 r0_1) (View.ld x2 r0_2)⟩]

/-- Output window 5's buffer after the body: its one store. -/
def out0_5 (x0 : Vec F S5000x128 .f32) (x3 : Vec F S96x128 .f32) : Vec F S5000x96 .f32 :=
  View.canon [⟨r0_5, k0_pay3 (View.ld x0 r0_0) (View.ld x3 r0_3)⟩]

/-- The proof data of pipeline 0 on core c: the arrays as the region finds them; after the body at a point each
    input's buffer at its block and each output's at what the stores leave; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t)
    | ⟨5, _⟩ => out0_5 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 3 t) := by dsimp only [dat0]

/-! # Region 1 (the second pallas_call), at the entry contents V -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S4000x96 := Rect.unit (s := S4000x96) ![0, 0] S4000x96.size inb_S4000x96_S4000x96_0_0
abbrev r1_1 : Rect S4000x32 := Rect.unit (s := S4000x32) ![0, 0] S4000x32.size inb_S4000x32_S4000x32_0_0
abbrev r1_2 : Rect S4000x1 := Rect.unit (s := S4000x1) ![0, 0] S4000x1.size inb_S4000x1_S4000x1_0_0
abbrev r1_3 : Rect S96x32 := Rect.unit (s := S96x32) ![0, 0] S96x32.size inb_S96x32_S96x32_0_0
abbrev r1_4 : Rect S1x96 := Rect.unit (s := S1x96) ![0, 0] S1x96.size inb_S1x96_S1x96_0_0
abbrev r1_5 : Rect S32x32 := Rect.unit (s := S32x32) ![0, 0] S32x32.size inb_S32x32_S32x32_0_0
abbrev r1_6 : Rect S1x32 := Rect.unit (s := S1x32) ![0, 0] S1x32.size inb_S1x32_S1x32_0_0
/-- The two rectangles of the output block the body stores through: columns 0:96 and columns 96:128. -/
abbrev r1_7a : Rect S4000x128 := Rect.unit (s := S4000x128) ![0, 0] S4000x96.size inb_S4000x128_S4000x96_0_0
abbrev r1_7b : Rect S4000x128 := Rect.unit (s := S4000x128) ![0, 96] S4000x32.size inb_S4000x128_S4000x32_0_96

/-- Output window 7's buffer after the body, from the input windows' blocks (x_w the block of window w): its two
    stores, the last first; they tile the block. -/
def out1_7 (x0 : Vec F S4000x96 .f32) (x1 : Vec F S4000x32 .f32) (x2 : Vec F S4000x1 .f32) (x3 : Vec F S96x32 .f32)
    (x4 : Vec F S1x96 .f32) (x5 : Vec F S32x32 .f32) (x6 : Vec F S1x32 .f32) : Vec F S4000x128 .f32 :=
  View.canon [⟨r1_7b, k1_pay3 (View.ld x1 r1_1) (View.ld x5 r1_5) (View.ld x6 r1_6)⟩,
    ⟨r1_7a, k1_pay2 (View.ld x1 r1_1) (View.ld x3 r1_3) (View.ld x0 r1_0) (View.ld x4 r1_4) (View.ld x2 r1_2)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (iblk1 V c 0 t) (iblk1 V c 1 t) (iblk1 V c 2 t) (iblk1 V c 3 t) (iblk1 V c 4 t) (iblk1 V c 5 t) (iblk1 V c 6 t) := by
  dsimp only [dat1]

end Regions

/-! # The buffer contents at each boundary between @main's items: a fold from the launch memory m -/

variable (m : (ℓ : Loc nD τ sig) → Buf (Elt F) ℓ)

/-- Core c's buffers at launch, and after the first host stretch (region 0's entry). -/
abbrev W0 (c : Dev nD) : Valuation τ sig (Elt F) := Gen.V0 m c
abbrev W1 (c : Dev nD) : Valuation τ sig (Elt F) := Gen.V1 m c
/-- The same read at the TensorCore's references: what region 0's proof data take. -/
abbrev E1 : (c : Dev nD) → (b : Ref sig .tc) → Buf (Elt F) ((c : Thread nD τ).loc b) := fun c b => Gen.V1 m c b

/-- Core c's buffers as region 0 leaves them: its two output arrays at what the write-backs of all points leave. -/
def WA2 (c : Dev nD) : Valuation τ sig (Elt F) :=
  Function.update (Function.update (Gen.V1 m c) main_v7_0 ((dat0 (E1 m) c).arrAt 4 cfg0.N)) main_v7_1 ((dat0 (E1 m) c).arrAt 5 cfg0.N)
theorem WA2_v7_0 (c : Dev nD) : WA2 m c (Proc.devRef .tc main_v7_0) = (dat0 (E1 m) c).arrAt 4 cfg0.N := by
  unfold WA2; rw [Function.update_of_ne (StableHlo.devRef_ne_of_ne (by decide)), Function.update_self]
theorem WA2_v7_1 (c : Dev nD) : WA2 m c (Proc.devRef .tc main_v7_1) = (dat0 (E1 m) c).arrAt 5 cfg0.N := by
  unfold WA2; rw [Function.update_self]
/-- The same as a table of what the regions leave (read after region 0 only). -/
def outsA : Gen.Outs (F := F) := fun _ r c => WA2 m c (Proc.devRef .tc r)

/-- Region 1's entry contents at the TensorCore's references: what region 1's proof data take. -/
abbrev E5 : (c : Dev nD) → (b : Ref sig .tc) → Buf (Elt F) ((c : Thread nD τ).loc b) := fun c b => Gen.V5 m (outsA m) c b

/-- What the regions leave in the buffers they write: after region 0 (read at item 2) its two output arrays, after
    region 1 (read at item 6) its output array. -/
def WA6 (c : Dev nD) : Valuation τ sig (Elt F) :=
  Function.update (Gen.V5 m (outsA m) c) main_v35 ((dat1 (E5 m) c).arrAt 7 cfg1.N)
theorem WA6_v35 (c : Dev nD) : WA6 m c (Proc.devRef .tc main_v35) = (dat1 (E5 m) c).arrAt 7 cfg1.N := by
  unfold WA6; rw [Function.update_self]
def outs : Gen.Outs (F := F)
  | 6 => fun (r : Ref sig .tc) (c : Dev nD) => WA6 m c (Proc.devRef .tc r)
  | _ => outsA m 2

theorem outs_2 : outs m 2 = outsA m 2 := rfl
theorem outs_6 : outs m 6 = fun (r : Ref sig .tc) (c : Dev nD) => WA6 m c (Proc.devRef .tc r) := rfl

abbrev W2 (c : Dev nD) : Valuation τ sig (Elt F) := Gen.V2 m (outs m) c
abbrev W3 (c : Dev nD) : Valuation τ sig (Elt F) := Gen.V3 m (outs m) c
abbrev W4 (c : Dev nD) : Valuation τ sig (Elt F) := Gen.V4 m (outs m) c
abbrev W5 (c : Dev nD) : Valuation τ sig (Elt F) := Gen.V5 m (outs m) c
abbrev W6 (c : Dev nD) : Valuation τ sig (Elt F) := Gen.V6 m (outs m) c
abbrev W7 (c : Dev nD) : Valuation τ sig (Elt F) := Gen.V7 m (outs m) c
abbrev W8 (c : Dev nD) : Valuation τ sig (Elt F) := Gen.V8 m (outs m) c
abbrev W9 (c : Dev nD) : Valuation τ sig (Elt F) := Gen.V9 m (outs m) c

/-- Region 1 is entered from the same contents whichever of the two tables of unknowns they are written over:
    they are read after region 0 only. -/
theorem W5_eq (c : Dev nD) : W5 m c = Gen.V5 m (outsA m) c := rfl

/-- After region 0 its output arrays hold what the write-backs leave, -/
theorem W2_v7_0 (c : Dev nD) : W2 m c (Proc.devRef .tc main_v7_0) = (dat0 (E1 m) c).arrAt 4 cfg0.N := by
  show Function.update (Function.update (Gen.V1 m c) main_v7_0 (outs m 2 main_v7_0 c)) main_v7_1 (outs m 2 main_v7_1 c) main_v7_0 = _
  rw [Function.update_of_ne (StableHlo.devRef_ne_of_ne (by decide)), Function.update_self]
  exact WA2_v7_0 m c
theorem W2_v7_1 (c : Dev nD) : W2 m c (Proc.devRef .tc main_v7_1) = (dat0 (E1 m) c).arrAt 5 cfg0.N := by
  show Function.update (Function.update (Gen.V1 m c) main_v7_0 (outs m 2 main_v7_0 c)) main_v7_1 (outs m 2 main_v7_1 c) main_v7_1 = _
  rw [Function.update_self]
  exact WA2_v7_1 m c
/-- and every other buffer what it held. -/
theorem W2_of_ne (c : Dev nD) (r : Ref sig .tc) (h : r ∉ ([main_v7_0, main_v7_1] : List (Ref sig .tc))) :
    W2 m c (Proc.devRef .tc r) = W1 m c (Proc.devRef .tc r) := Gen.V2_of m (outs m) c r h

/-- After region 1 its output array holds what the write-backs leave, -/
theorem W6_v35 (c : Dev nD) : W6 m c (Proc.devRef .tc main_v35) = (dat1 (E5 m) c).arrAt 7 cfg1.N := by
  show Function.update (Gen.V5 m (outs m) c) main_v35 (outs m 6 main_v35 c) main_v35 = _
  rw [Function.update_self]
  exact WA6_v35 m c
/-- and every other buffer what it held. -/
theorem W6_of_ne (c : Dev nD) (r : Ref sig .tc) (h : r ∉ ([main_v35] : List (Ref sig .tc))) :
    W6 m c (Proc.devRef .tc r) = W5 m c (Proc.devRef .tc r) := Gen.V6_of m (outs m) c r h

end Cert.Kernel.Fr

end
-- ==== Proof.KFrameBody0.lean ====
/- Region 0's body: on whole staging memrefs, the inputs' at their read contents and the outputs' at anything, it runs
   to the inputs' as they were and each output's at what its store leaves. -/
import proofs.«128638_j40037685133334_2_alg».proof.Proof.KFrameDefs

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one store into window 4's buffer covers it. -/
theorem cover0_4 (p0 : Vec F S5000x64 .f32) (y : S5000x64.Idx) :
    ∃ pc ∈ ([⟨r0_4, p0⟩] : List (View.Piece (Elt F) S5000x64 .f32)), y ∈ pc.1.set :=
  View.cover_of_tiled [⟨r0_4, p0⟩] S5000x64.size (by rfl) y

/-- The one store into window 5's buffer covers it. -/
theorem cover0_5 (p0 : Vec F S5000x96 .f32) (y : S5000x96.Idx) :
    ∃ pc ∈ ([⟨r0_5, p0⟩] : List (View.Piece (Elt F) S5000x96 .f32)), y ∈ pc.1.set :=
  View.cover_of_tiled [⟨r0_5, p0⟩] S5000x96.size (by rfl) y

set_option maxHeartbeats 1000000 in
theorem sound_kernel0 (c : Dev nD) (E : Set ℕ) (i : grid0.Coords)
    (arg1 : Memref sig .tc .vmem S5000x128 .f32) (harg1 : arg1.IsWhole) (arg2 : Memref sig .tc .vmem S64x128 .f32) (harg2 : arg2.IsWhole)
    (arg3 : Memref sig .tc .vmem S1x64 .f32) (harg3 : arg3.IsWhole) (arg4 : Memref sig .tc .vmem S96x128 .f32) (harg4 : arg4.IsWhole)
    (arg5 : Memref sig .tc .vmem S5000x64 .f32) (harg5 : arg5.IsWhole) (arg6 : Memref sig .tc .vmem S5000x96 .f32) (harg6 : arg6.IsWhole)
    (x0 : Vec F S5000x128 .f32) (x1 : Vec F S64x128 .f32) (x2 : Vec F S1x64 .f32) (x3 : Vec F S96x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2)
            ∗ owns (c : Thread nD τ) arg6 fullShare (out0_5 x0 x3)) -∗ K ⟨⟩))
      ⊢ wp frame (wpE (defs₀ (F := F)) Variants.none c none) E
          (cc0__ego_kernel i arg1 harg1 arg2 harg2 arg3 harg3 arg4 harg4 arg5 harg5 arg6 harg6) K := by
  simp only [cc0__ego_kernel_eq_skeleton]; unfold cc0__ego_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

end Cert.Kernel.Fr

end
-- ==== Proof.KFrameBody1.lean ====
/- Region 1's body: on whole staging memrefs, the inputs' at their read contents and the output's at anything, it runs
   to the inputs' as they were and the output's at what its two stores leave. -/
import proofs.«128638_j40037685133334_2_alg».proof.Proof.KFrameDefs

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two stores into window 7's buffer (columns 96:128, columns 0:96), cut into blocks of 4000 x 32, tile it; so
    they cover it. -/
theorem cover1_7 (p0 : Vec F S4000x32 .f32) (p1 : Vec F S4000x96 .f32) (y : S4000x128.Idx) :
    ∃ pc ∈ ([⟨r1_7b, p0⟩, ⟨r1_7a, p1⟩] : List (View.Piece (Elt F) S4000x128 .f32)), y ∈ pc.1.set :=
  View.cover_of_tiledBy [⟨r1_7b, p0⟩, ⟨r1_7a, p1⟩] ![4000, 32] (by sl_kernel_rfl) y

set_option maxHeartbeats 1000000 in
theorem sound_kernel1 (c : Dev nD) (E : Set ℕ) (i : grid1.Coords)
    (arg1 : Memref sig .tc .vmem S4000x96 .f32) (harg1 : arg1.IsWhole) (arg2 : Memref sig .tc .vmem S4000x32 .f32) (harg2 : arg2.IsWhole)
    (arg3 : Memref sig .tc .vmem S4000x1 .f32) (harg3 : arg3.IsWhole) (arg4 : Memref sig .tc .vmem S96x32 .f32) (harg4 : arg4.IsWhole)
    (arg5 : Memref sig .tc .vmem S1x96 .f32) (harg5 : arg5.IsWhole) (arg6 : Memref sig .tc .vmem S32x32 .f32) (harg6 : arg6.IsWhole)
    (arg7 : Memref sig .tc .vmem S1x32 .f32) (harg7 : arg7.IsWhole) (arg8 : Memref sig .tc .vmem S4000x128 .f32) (harg8 : arg8.IsWhole)
    (x0 : Vec F S4000x96 .f32) (x1 : Vec F S4000x32 .f32) (x2 : Vec F S4000x1 .f32) (x3 : Vec F S96x32 .f32)
    (x4 : Vec F S1x96 .f32) (x5 : Vec F S32x32 .f32) (x6 : Vec F S1x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E
          (cc1__peer_edge_kernel i arg1 harg1 arg2 harg2 arg3 harg3 arg4 harg4 arg5 harg5 arg6 harg6 arg7 harg7 arg8 harg8) K := by
  simp only [cc1__peer_edge_kernel_eq_skeleton]; unfold cc1__peer_edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _ _)

end Cert.Kernel.Fr

end
-- ==== Proof.KFrameObl.lean ====
/- The body obligations of the two regions, at any entry contents V: at every grid point the body, called on the
   current staging buffers, finds each input window's block there (fetched at this point or left from an earlier one) and
   leaves each output window's buffer at what its stores write. -/
import proofs.«128638_j40037685133334_2_alg».proof.Proof.KFrameBody0
import proofs.«128638_j40037685133334_2_alg».proof.Proof.KFrameBody1

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 -/

/-- Each input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation at every point: the conjunction over the windows, written out window by window, is what the
    body is run from and what it returns. -/
theorem body_obligation0 (c : Dev nD) : BodyObligation (dat0 (F := F) V c) (defs₀ (F := F)) Variants.none () Set.univ := fun t => by
  rw [bigSep_W0, bigSep_W0]
  exact sound_body0 V c t

/-! # Region 1 -/

/-- Each input window's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body's obligation at every point: the conjunction over the windows, written out window by window, is what the
    body is run from and what it returns. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KFrame.lean ====
/- The run of @main through its two kernel regions and the host operations around them, from the launch to the return:
   the regions as segments over the thread state "every unscoped buffer at the boundary's contents, the generator
   register at some state, nothing owed", the run with the result buffer and the arguments read off the last contents,
   and the frame as its consequence. -/
import proofs.«128638_j40037685133334_2_alg».proof.Proof.KFrameObl

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Every pipeline's proof data, each at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-- After region 0 every one of its arrays holds what the pipeline leaves (an input its entry contents, an output its
    write-backs folded), -/
theorem hF0 (c : Dev nD) : ∀ w : Fin cfg0.W, (dat0 (E1 m) c).arrAt w cfg0.N = W2 m c (Proc.devRef .tc (Pipeline.arrRef spec0 w))
  | ⟨0, _⟩ => ((((dat0 (E1 m) c).arrAt_in 0 rfl _).trans (A_eq0 (E1 m) c 0)).trans (W2_of_ne m c (Pipeline.arrRef spec0 0) (by decide)).symm)
  | ⟨1, _⟩ => ((((dat0 (E1 m) c).arrAt_in 1 rfl _).trans (A_eq0 (E1 m) c 1)).trans (W2_of_ne m c (Pipeline.arrRef spec0 1) (by decide)).symm)
  | ⟨2, _⟩ => ((((dat0 (E1 m) c).arrAt_in 2 rfl _).trans (A_eq0 (E1 m) c 2)).trans (W2_of_ne m c (Pipeline.arrRef spec0 2) (by decide)).symm)
  | ⟨3, _⟩ => ((((dat0 (E1 m) c).arrAt_in 3 rfl _).trans (A_eq0 (E1 m) c 3)).trans (W2_of_ne m c (Pipeline.arrRef spec0 3) (by decide)).symm)
  | ⟨4, _⟩ => (W2_v7_0 m c).symm
  | ⟨5, _⟩ => (W2_v7_1 m c).symm
/-- and every other buffer what it held at entry. -/
theorem hrest0 (c : Dev nD) (b : Ref sig .tc) (hb : b ∉ Finset.univ.image (Pipeline.arrRef spec0)) :
    W2 m c (Proc.devRef .tc b) = W1 m c (Proc.devRef .tc b) :=
  W2_of_ne m c b fun hmem => by
    rcases List.mem_cons.mp hmem with rfl | hmem
    · exact hb (Finset.mem_image.mpr ⟨4, Finset.mem_univ _, rfl⟩)
    rcases List.mem_cons.mp hmem with rfl | hmem
    · exact hb (Finset.mem_image.mpr ⟨5, Finset.mem_univ _, rfl⟩)
    exact absurd hmem (List.not_mem_nil)

set_option backward.isDefEq.respectTransparency.types false in
/-- Region 0 over the thread state: entered from every unscoped buffer at W1, left at W2. Its arrays split out of the
    unscoped buffers and put back at the exit contents; the generator register into the invariant and out; nothing owed;
    no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => W2 m c (Proc.devRef .tc b)) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1 is entered from the contents written over region 0's table alone (they are read after region 0 only). -/
abbrev W5' (c : Dev nD) : Valuation τ sig (Elt F) := Gen.V5 m (outsA m) c
theorem W6_of_ne' (c : Dev nD) (r : Ref sig .tc) (h : r ∉ ([main_v35] : List (Ref sig .tc))) :
    W6 m c (Proc.devRef .tc r) = W5' m c (Proc.devRef .tc r) :=
  (W6_of_ne m c r h).trans (congrFun (W5_eq m c) _)
theorem hlink5 (c : Dev nD) :
    iprop(StableHlo.held (c : Thread nD τ) (Pipeline.ucRefs τ sig) (W5 m c) ∗ R c)
      ⊢ (iprop(StableHlo.held (c : Thread nD τ) (Pipeline.ucRefs τ sig) (W5' m c) ∗ R c) : sProp 𝕄) := by
  rw [show W5 m c = W5' m c from W5_eq m c]
theorem hlast (c : Dev nD) :
    iprop(StableHlo.held (c : Thread nD τ) (Pipeline.ucRefs τ sig) (W9 m c) ∗ R c)
      ⊢ (iprop((StableHlo.held (c : Thread nD τ) (Pipeline.ucRefs τ sig) (W9 m c) ∗ ∃ r, prngReg c r)
          ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-- After region 1 every one of its arrays holds what the pipeline leaves (an input its entry contents, the output its
    write-backs folded), -/
theorem hF1_0 (c : Dev nD) : (dat1 (E5 m) c).arrAt 0 cfg1.N = W6 m c (Proc.devRef .tc (Pipeline.arrRef spec1 0)) :=
  ((((dat1 (E5 m) c).arrAt_in 0 rfl _).trans (A_eq1 (E5 m) c 0)).trans (W6_of_ne' m c (Pipeline.arrRef spec1 0) (by decide)).symm)
theorem hF1_1 (c : Dev nD) : (dat1 (E5 m) c).arrAt 1 cfg1.N = W6 m c (Proc.devRef .tc (Pipeline.arrRef spec1 1)) :=
  ((((dat1 (E5 m) c).arrAt_in 1 rfl _).trans (A_eq1 (E5 m) c 1)).trans (W6_of_ne' m c (Pipeline.arrRef spec1 1) (by decide)).symm)
theorem hF1_2 (c : Dev nD) : (dat1 (E5 m) c).arrAt 2 cfg1.N = W6 m c (Proc.devRef .tc (Pipeline.arrRef spec1 2)) :=
  ((((dat1 (E5 m) c).arrAt_in 2 rfl _).trans (A_eq1 (E5 m) c 2)).trans (W6_of_ne' m c (Pipeline.arrRef spec1 2) (by decide)).symm)
theorem hF1_3 (c : Dev nD) : (dat1 (E5 m) c).arrAt 3 cfg1.N = W6 m c (Proc.devRef .tc (Pipeline.arrRef spec1 3)) :=
  ((((dat1 (E5 m) c).arrAt_in 3 rfl _).trans (A_eq1 (E5 m) c 3)).trans (W6_of_ne' m c (Pipeline.arrRef spec1 3) (by decide)).symm)
theorem hF1_4 (c : Dev nD) : (dat1 (E5 m) c).arrAt 4 cfg1.N = W6 m c (Proc.devRef .tc (Pipeline.arrRef spec1 4)) :=
  ((((dat1 (E5 m) c).arrAt_in 4 rfl _).trans (A_eq1 (E5 m) c 4)).trans (W6_of_ne' m c (Pipeline.arrRef spec1 4) (by decide)).symm)
theorem hF1_5 (c : Dev nD) : (dat1 (E5 m) c).arrAt 5 cfg1.N = W6 m c (Proc.devRef .tc (Pipeline.arrRef spec1 5)) :=
  ((((dat1 (E5 m) c).arrAt_in 5 rfl _).trans (A_eq1 (E5 m) c 5)).trans (W6_of_ne' m c (Pipeline.arrRef spec1 5) (by decide)).symm)
theorem hF1_6 (c : Dev nD) : (dat1 (E5 m) c).arrAt 6 cfg1.N = W6 m c (Proc.devRef .tc (Pipeline.arrRef spec1 6)) :=
  ((((dat1 (E5 m) c).arrAt_in 6 rfl _).trans (A_eq1 (E5 m) c 6)).trans (W6_of_ne' m c (Pipeline.arrRef spec1 6) (by decide)).symm)
theorem hF1 (c : Dev nD) : ∀ w : Fin cfg1.W, (dat1 (E5 m) c).arrAt w cfg1.N = W6 m c (Proc.devRef .tc (Pipeline.arrRef spec1 w))
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
  | ⟨6, _⟩ => hF1_6 m c
  | ⟨7, _⟩ => (W6_v35 m c).symm
/-- and every other buffer what it held at entry. -/
theorem hrest1 (c : Dev nD) (b : Ref sig .tc) (hb : b ∉ Finset.univ.image (Pipeline.arrRef spec1)) :
    W6 m c (Proc.devRef .tc b) = W5' m c (Proc.devRef .tc b) :=
  W6_of_ne' m c b fun hmem => by
    rcases List.mem_cons.mp hmem with rfl | hmem
    · exact hb (Finset.mem_image.mpr ⟨7, Finset.mem_univ _, rfl⟩)
    exact absurd hmem (List.not_mem_nil)

set_option backward.isDefEq.respectTransparency.types false in
/-- Region 1 over the thread state: entered from every unscoped buffer at W5, left at W6. Its arrays split out of the
    unscoped buffers and put back at the exit contents; the generator register into the invariant and out; nothing owed;
    no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (W5' m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (fun b => W6 m c (Proc.devRef .tc b)) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters, every weakly fair execution of @main on the TensorCores terminates, nothing
    faulting, and every final memory holds the result buffer at the last boundary's contents and each argument as
    launched: no host operation writes an argument's buffer, and no region's output array is an argument, so the
    contents of an argument's buffer are the same at every boundary. -/
theorem run_main (ρ : Dev nD → PrngReg) :
    θ_run defs (onTc (τ := τ) (main (F := F))) ⟨m, fun _ => 0, ρ⟩ (fun r => ∀ c : Dev nD,
      r.2.mem ((c.tc : Thread nD τ).loc main_v59) = W9 m c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm (pdats m) () cellOf_inj emb₁ defs₀ 𝒱₀ L lv m ρ main
    (Gen.segs m (outs m) 𝒱₀ L lv (fun _ => R) () (pdats m) (reg0 m) (reg1 m))
    (fun c Q => by
      rewrite [main_chain c, Seg.run_eq_chain,
        show (Gen.segs m (outs m) 𝒱₀ L lv (fun _ => R) () (pdats m) (reg0 m) (reg1 m) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W9 m c) ∗ ∃ r, prngReg c r))
    (hch := fun c => ⟨.rfl, .rfl, .rfl, .rfl, .rfl, hlink5 m c, .rfl, .rfl, .rfl, hlast m c⟩)
    (hinit := ?_)
    (QY := fun c s => s.mem ((c.tc : Thread nD τ).loc main_v59) = W9 m c (Proc.devRef .tc main_v59)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8))
    (hfin := fun c s' => ?_) (hQ := fun _ h => h)
  · -- the launch: every unscoped buffer at the launch memory, the register, nothing owed
    refine Pipeline.initEach L lv fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hh, -, HO, -, Hp, -⟩, -⟩
    imodintro
    isplitl [Hh]; · iexact Hh
    isplitl [Hp]; · iexists _; iexact Hp
    iexists ∅; iexact HO
  · -- the end: the result's and each argument's buffer read off the last contents
    unfold StableHlo.held
    iintro ⟨⟨Hh, -⟩, HSI⟩
    ihave Hr := (pointsTo_read_all (Pipeline.ucRefs τ sig) (fun b => ((c : Thread nD τ).1, b)) (W9 m c) s') $$ [Hh HSI]
    · isplitl [Hh] <;> iassumption
    icases Hr with ⟨%h, HSI⟩
    imodintro
    isplitr
    · ipureintro
      exact ⟨h (Proc.devRef .tc main_v59) (Finset.mem_filter.mpr ⟨StableHlo.devRef_mem_tcRefs main_v59, by decide⟩),
        (h (Proc.devRef .tc main_arg0) (Finset.mem_filter.mpr ⟨StableHlo.devRef_mem_tcRefs main_arg0, by decide⟩)).trans (Gen.V9_main_arg0 m (outs m) c),
        (h (Proc.devRef .tc main_arg1) (Finset.mem_filter.mpr ⟨StableHlo.devRef_mem_tcRefs main_arg1, by decide⟩)).trans (Gen.V9_main_arg1 m (outs m) c),
        (h (Proc.devRef .tc main_arg2) (Finset.mem_filter.mpr ⟨StableHlo.devRef_mem_tcRefs main_arg2, by decide⟩)).trans (Gen.V9_main_arg2 m (outs m) c),
        (h (Proc.devRef .tc main_arg3) (Finset.mem_filter.mpr ⟨StableHlo.devRef_mem_tcRefs main_arg3, by decide⟩)).trans (Gen.V9_main_arg3 m (outs m) c),
        (h (Proc.devRef .tc main_arg4) (Finset.mem_filter.mpr ⟨StableHlo.devRef_mem_tcRefs main_arg4, by decide⟩)).trans (Gen.V9_main_arg4 m (outs m) c),
        (h (Proc.devRef .tc main_arg5) (Finset.mem_filter.mpr ⟨StableHlo.devRef_mem_tcRefs main_arg5, by decide⟩)).trans (Gen.V9_main_arg5 m (outs m) c),
        (h (Proc.devRef .tc main_arg6) (Finset.mem_filter.mpr ⟨StableHlo.devRef_mem_tcRefs main_arg6, by decide⟩)).trans (Gen.V9_main_arg6 m (outs m) c),
        (h (Proc.devRef .tc main_arg7) (Finset.mem_filter.mpr ⟨StableHlo.devRef_mem_tcRefs main_arg7, by decide⟩)).trans (Gen.V9_main_arg7 m (outs m) c),
        (h (Proc.devRef .tc main_arg8) (Finset.mem_filter.mpr ⟨StableHlo.devRef_mem_tcRefs main_arg8, by decide⟩)).trans (Gen.V9_main_arg8 m (outs m) c)⟩
    · iexact HSI

/-- The frame: from any memory with zero counters every weakly fair execution of @main terminates, nothing faulting, and
    every final memory holds each argument as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_main m ρ)

end Cert.Kernel.Fr

end
-- ==== Proof.KIFrameDefs.lean ====
/- The frames of the two kernel regions, DEFINITIONS: per region, at the TensorCore's buffer contents V
   when the region is entered, each window's block at a grid point, what the body leaves in each output
   window's buffer as a function of the input blocks, and the pipeline's proof data; then the buffer
   contents at every boundary between the items of @main, folded from the launch memory. -/
import proofs.«128638_j40037685133334_2_alg».proof.Proof.Gen.KernelIdeal.Launch
import proofs.«128638_j40037685133334_2_alg».proof.Proof.Gen.KernelIdeal.Skeleton
import proofs.«128638_j40037685133334_2_alg».proof.Proof.Gen.KernelIdeal.Points
import proofs.«128638_j40037685133334_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions
-- the TensorCore's buffer contents when a region is entered
variable (V : (c : Dev nD) → (b : Ref sig .tc) → Buf (Elt F) ((c : Thread nD τ).loc b))

/-! # Region 0 (the first pallas_call), at the entry contents V -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev r0_0 : Rect S5000x128 := Rect.unit (s := S5000x128) ![0, 0] S5000x128.size inb_S5000x128_S5000x128_0_0
abbrev r0_1 : Rect S64x128 := Rect.unit (s := S64x128) ![0, 0] S64x128.size inb_S64x128_S64x128_0_0
abbrev r0_2 : Rect S1x64 := Rect.unit (s := S1x64) ![0, 0] S1x64.size inb_S1x64_S1x64_0_0
abbrev r0_3 : Rect S96x128 := Rect.unit (s := S96x128) ![0, 0] S96x128.size inb_S96x128_S96x128_0_0
abbrev r0_4 : Rect S5000x64 := Rect.unit (s := S5000x64) ![0, 0] S5000x64.size inb_S5000x64_S5000x64_0_0
abbrev r0_5 : Rect S5000x96 := Rect.unit (s := S5000x96) ![0, 0] S5000x96.size inb_S5000x96_S5000x96_0_0

/-- Output window 4's buffer after the body, from the input windows' blocks: its one store. -/
def out0_4 (x0 : Vec F S5000x128 .f32) (x1 : Vec F S64x128 .f32) (x2 : Vec F S1x64 .f32) : Vec F S5000x64 .f32 :=
  View.canon [⟨r0_4, k0_pay2 (View.ld x0 r0_0) (View.ld x1 r0_1) (View.ld x2 r0_2)⟩]

/-- Output window 5's buffer after the body: its one store. -/
def out0_5 (x0 : Vec F S5000x128 .f32) (x3 : Vec F S96x128 .f32) : Vec F S5000x96 .f32 :=
  View.canon [⟨r0_5, k0_pay3 (View.ld x0 r0_0) (View.ld x3 r0_3)⟩]

/-- The proof data of pipeline 0 on core c: the arrays as the region finds them; after the body at a point each
    input's buffer at its block and each output's at what the stores leave; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t)
    | ⟨5, _⟩ => out0_5 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 3 t) := by dsimp only [dat0]

/-! # Region 1 (the second pallas_call), at the entry contents V -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S4000x96 := Rect.unit (s := S4000x96) ![0, 0] S4000x96.size inb_S4000x96_S4000x96_0_0
abbrev r1_1 : Rect S4000x32 := Rect.unit (s := S4000x32) ![0, 0] S4000x32.size inb_S4000x32_S4000x32_0_0
abbrev r1_2 : Rect S4000x1 := Rect.unit (s := S4000x1) ![0, 0] S4000x1.size inb_S4000x1_S4000x1_0_0
abbrev r1_3 : Rect S96x32 := Rect.unit (s := S96x32) ![0, 0] S96x32.size inb_S96x32_S96x32_0_0
abbrev r1_4 : Rect S1x96 := Rect.unit (s := S1x96) ![0, 0] S1x96.size inb_S1x96_S1x96_0_0
abbrev r1_5 : Rect S32x32 := Rect.unit (s := S32x32) ![0, 0] S32x32.size inb_S32x32_S32x32_0_0
abbrev r1_6 : Rect S1x32 := Rect.unit (s := S1x32) ![0, 0] S1x32.size inb_S1x32_S1x32_0_0
/-- The two rectangles of the output block the body stores through: columns 0:96 and columns 96:128. -/
abbrev r1_7a : Rect S4000x128 := Rect.unit (s := S4000x128) ![0, 0] S4000x96.size inb_S4000x128_S4000x96_0_0
abbrev r1_7b : Rect S4000x128 := Rect.unit (s := S4000x128) ![0, 96] S4000x32.size inb_S4000x128_S4000x32_0_96

/-- Output window 7's buffer after the body, from the input windows' blocks (x_w the block of window w): its two
    stores, the last first; they tile the block. -/
def out1_7 (x0 : Vec F S4000x96 .f32) (x1 : Vec F S4000x32 .f32) (x2 : Vec F S4000x1 .f32) (x3 : Vec F S96x32 .f32)
    (x4 : Vec F S1x96 .f32) (x5 : Vec F S32x32 .f32) (x6 : Vec F S1x32 .f32) : Vec F S4000x128 .f32 :=
  View.canon [⟨r1_7b, k1_pay3 (View.ld x1 r1_1) (View.ld x5 r1_5) (View.ld x6 r1_6)⟩,
    ⟨r1_7a, k1_pay2 (View.ld x1 r1_1) (View.ld x3 r1_3) (View.ld x0 r1_0) (View.ld x4 r1_4) (View.ld x2 r1_2)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (iblk1 V c 0 t) (iblk1 V c 1 t) (iblk1 V c 2 t) (iblk1 V c 3 t) (iblk1 V c 4 t) (iblk1 V c 5 t) (iblk1 V c 6 t) := by
  dsimp only [dat1]

end Regions

/-! # The buffer contents at each boundary between @main's items: a fold from the launch memory m -/

variable (m : (ℓ : Loc nD τ sig) → Buf (Elt F) ℓ)

/-- Core c's buffers at launch, and after the first host stretch (region 0's entry). -/
abbrev W0 (c : Dev nD) : Valuation τ sig (Elt F) := Gen.V0 m c
abbrev W1 (c : Dev nD) : Valuation τ sig (Elt F) := Gen.V1 m c
/-- The same read at the TensorCore's references: what region 0's proof data take. -/
abbrev E1 : (c : Dev nD) → (b : Ref sig .tc) → Buf (Elt F) ((c : Thread nD τ).loc b) := fun c b => Gen.V1 m c b

/-- Core c's buffers as region 0 leaves them: its two output arrays at what the write-backs of all points leave. -/
def WA2 (c : Dev nD) : Valuation τ sig (Elt F) :=
  Function.update (Function.update (Gen.V1 m c) main_v7_0 ((dat0 (E1 m) c).arrAt 4 cfg0.N)) main_v7_1 ((dat0 (E1 m) c).arrAt 5 cfg0.N)
theorem WA2_v7_0 (c : Dev nD) : WA2 m c (Proc.devRef .tc main_v7_0) = (dat0 (E1 m) c).arrAt 4 cfg0.N := by
  unfold WA2; rw [Function.update_of_ne (StableHlo.devRef_ne_of_ne (by decide)), Function.update_self]
theorem WA2_v7_1 (c : Dev nD) : WA2 m c (Proc.devRef .tc main_v7_1) = (dat0 (E1 m) c).arrAt 5 cfg0.N := by
  unfold WA2; rw [Function.update_self]
/-- The same as a table of what the regions leave (read after region 0 only). -/
def outsA : Gen.Outs (F := F) := fun _ r c => WA2 m c (Proc.devRef .tc r)

/-- Region 1's entry contents at the TensorCore's references: what region 1's proof data take. -/
abbrev E5 : (c : Dev nD) → (b : Ref sig .tc) → Buf (Elt F) ((c : Thread nD τ).loc b) := fun c b => Gen.V5 m (outsA m) c b

/-- What the regions leave in the buffers they write: after region 0 (read at item 2) its two output arrays, after
    region 1 (read at item 6) its output array. -/
def WA6 (c : Dev nD) : Valuation τ sig (Elt F) :=
  Function.update (Gen.V5 m (outsA m) c) main_v35 ((dat1 (E5 m) c).arrAt 7 cfg1.N)
theorem WA6_v35 (c : Dev nD) : WA6 m c (Proc.devRef .tc main_v35) = (dat1 (E5 m) c).arrAt 7 cfg1.N := by
  unfold WA6; rw [Function.update_self]
def outs : Gen.Outs (F := F)
  | 6 => fun (r : Ref sig .tc) (c : Dev nD) => WA6 m c (Proc.devRef .tc r)
  | _ => outsA m 2

theorem outs_2 : outs m 2 = outsA m 2 := rfl
theorem outs_6 : outs m 6 = fun (r : Ref sig .tc) (c : Dev nD) => WA6 m c (Proc.devRef .tc r) := rfl

abbrev W2 (c : Dev nD) : Valuation τ sig (Elt F) := Gen.V2 m (outs m) c
abbrev W3 (c : Dev nD) : Valuation τ sig (Elt F) := Gen.V3 m (outs m) c
abbrev W4 (c : Dev nD) : Valuation τ sig (Elt F) := Gen.V4 m (outs m) c
abbrev W5 (c : Dev nD) : Valuation τ sig (Elt F) := Gen.V5 m (outs m) c
abbrev W6 (c : Dev nD) : Valuation τ sig (Elt F) := Gen.V6 m (outs m) c
abbrev W7 (c : Dev nD) : Valuation τ sig (Elt F) := Gen.V7 m (outs m) c
abbrev W8 (c : Dev nD) : Valuation τ sig (Elt F) := Gen.V8 m (outs m) c
abbrev W9 (c : Dev nD) : Valuation τ sig (Elt F) := Gen.V9 m (outs m) c

/-- Region 1 is entered from the same contents whichever of the two tables of unknowns they are written over:
    they are read after region 0 only. -/
theorem W5_eq (c : Dev nD) : W5 m c = Gen.V5 m (outsA m) c := rfl

/-- After region 0 its output arrays hold what the write-backs leave, -/
theorem W2_v7_0 (c : Dev nD) : W2 m c (Proc.devRef .tc main_v7_0) = (dat0 (E1 m) c).arrAt 4 cfg0.N := by
  show Function.update (Function.update (Gen.V1 m c) main_v7_0 (outs m 2 main_v7_0 c)) main_v7_1 (outs m 2 main_v7_1 c) main_v7_0 = _
  rw [Function.update_of_ne (StableHlo.devRef_ne_of_ne (by decide)), Function.update_self]
  exact WA2_v7_0 m c
theorem W2_v7_1 (c : Dev nD) : W2 m c (Proc.devRef .tc main_v7_1) = (dat0 (E1 m) c).arrAt 5 cfg0.N := by
  show Function.update (Function.update (Gen.V1 m c) main_v7_0 (outs m 2 main_v7_0 c)) main_v7_1 (outs m 2 main_v7_1 c) main_v7_1 = _
  rw [Function.update_self]
  exact WA2_v7_1 m c
/-- and every other buffer what it held. -/
theorem W2_of_ne (c : Dev nD) (r : Ref sig .tc) (h : r ∉ ([main_v7_0, main_v7_1] : List (Ref sig .tc))) :
    W2 m c (Proc.devRef .tc r) = W1 m c (Proc.devRef .tc r) := Gen.V2_of m (outs m) c r h

/-- After region 1 its output array holds what the write-backs leave, -/
theorem W6_v35 (c : Dev nD) : W6 m c (Proc.devRef .tc main_v35) = (dat1 (E5 m) c).arrAt 7 cfg1.N := by
  show Function.update (Gen.V5 m (outs m) c) main_v35 (outs m 6 main_v35 c) main_v35 = _
  rw [Function.update_self]
  exact WA6_v35 m c
/-- and every other buffer what it held. -/
theorem W6_of_ne (c : Dev nD) (r : Ref sig .tc) (h : r ∉ ([main_v35] : List (Ref sig .tc))) :
    W6 m c (Proc.devRef .tc r) = W5 m c (Proc.devRef .tc r) := Gen.V6_of m (outs m) c r h

end Cert.KernelIdeal.Fr

end
-- ==== Proof.KIFrameBody0.lean ====
/- Region 0's body: on whole staging memrefs, the inputs' at their read contents and the outputs' at anything, it runs
   to the inputs' as they were and each output's at what its store leaves. -/
import proofs.«128638_j40037685133334_2_alg».proof.Proof.KIFrameDefs

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one store into window 4's buffer covers it. -/
theorem cover0_4 (p0 : Vec F S5000x64 .f32) (y : S5000x64.Idx) :
    ∃ pc ∈ ([⟨r0_4, p0⟩] : List (View.Piece (Elt F) S5000x64 .f32)), y ∈ pc.1.set :=
  View.cover_of_tiled [⟨r0_4, p0⟩] S5000x64.size (by rfl) y

/-- The one store into window 5's buffer covers it. -/
theorem cover0_5 (p0 : Vec F S5000x96 .f32) (y : S5000x96.Idx) :
    ∃ pc ∈ ([⟨r0_5, p0⟩] : List (View.Piece (Elt F) S5000x96 .f32)), y ∈ pc.1.set :=
  View.cover_of_tiled [⟨r0_5, p0⟩] S5000x96.size (by rfl) y

set_option maxHeartbeats 1000000 in
theorem sound_kernel0 (c : Dev nD) (E : Set ℕ) (i : grid0.Coords)
    (arg1 : Memref sig .tc .vmem S5000x128 .f32) (harg1 : arg1.IsWhole) (arg2 : Memref sig .tc .vmem S64x128 .f32) (harg2 : arg2.IsWhole)
    (arg3 : Memref sig .tc .vmem S1x64 .f32) (harg3 : arg3.IsWhole) (arg4 : Memref sig .tc .vmem S96x128 .f32) (harg4 : arg4.IsWhole)
    (arg5 : Memref sig .tc .vmem S5000x64 .f32) (harg5 : arg5.IsWhole) (arg6 : Memref sig .tc .vmem S5000x96 .f32) (harg6 : arg6.IsWhole)
    (x0 : Vec F S5000x128 .f32) (x1 : Vec F S64x128 .f32) (x2 : Vec F S1x64 .f32) (x3 : Vec F S96x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2)
            ∗ owns (c : Thread nD τ) arg6 fullShare (out0_5 x0 x3)) -∗ K ⟨⟩))
      ⊢ wp frame (wpE (defs₀ (F := F)) Variants.none c none) E
          (cc0__ego_kernel i arg1 harg1 arg2 harg2 arg3 harg3 arg4 harg4 arg5 harg5 arg6 harg6) K := by
  simp only [cc0__ego_kernel_eq_skeleton]; unfold cc0__ego_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

end Cert.KernelIdeal.Fr

end
-- ==== Proof.KIFrameBody1.lean ====
/- Region 1's body: on whole staging memrefs, the inputs' at their read contents and the output's at anything, it runs
   to the inputs' as they were and the output's at what its two stores leave. -/
import proofs.«128638_j40037685133334_2_alg».proof.Proof.KIFrameDefs

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two stores into window 7's buffer (columns 96:128, columns 0:96), cut into blocks of 4000 x 32, tile it; so
    they cover it. -/
theorem cover1_7 (p0 : Vec F S4000x32 .f32) (p1 : Vec F S4000x96 .f32) (y : S4000x128.Idx) :
    ∃ pc ∈ ([⟨r1_7b, p0⟩, ⟨r1_7a, p1⟩] : List (View.Piece (Elt F) S4000x128 .f32)), y ∈ pc.1.set :=
  View.cover_of_tiledBy [⟨r1_7b, p0⟩, ⟨r1_7a, p1⟩] ![4000, 32] (by sl_kernel_rfl) y

set_option maxHeartbeats 1000000 in
theorem sound_kernel1 (c : Dev nD) (E : Set ℕ) (i : grid1.Coords)
    (arg1 : Memref sig .tc .vmem S4000x96 .f32) (harg1 : arg1.IsWhole) (arg2 : Memref sig .tc .vmem S4000x32 .f32) (harg2 : arg2.IsWhole)
    (arg3 : Memref sig .tc .vmem S4000x1 .f32) (harg3 : arg3.IsWhole) (arg4 : Memref sig .tc .vmem S96x32 .f32) (harg4 : arg4.IsWhole)
    (arg5 : Memref sig .tc .vmem S1x96 .f32) (harg5 : arg5.IsWhole) (arg6 : Memref sig .tc .vmem S32x32 .f32) (harg6 : arg6.IsWhole)
    (arg7 : Memref sig .tc .vmem S1x32 .f32) (harg7 : arg7.IsWhole) (arg8 : Memref sig .tc .vmem S4000x128 .f32) (harg8 : arg8.IsWhole)
    (x0 : Vec F S4000x96 .f32) (x1 : Vec F S4000x32 .f32) (x2 : Vec F S4000x1 .f32) (x3 : Vec F S96x32 .f32)
    (x4 : Vec F S1x96 .f32) (x5 : Vec F S32x32 .f32) (x6 : Vec F S1x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E
          (cc1__peer_edge_kernel i arg1 harg1 arg2 harg2 arg3 harg3 arg4 harg4 arg5 harg5 arg6 harg6 arg7 harg7 arg8 harg8) K := by
  simp only [cc1__peer_edge_kernel_eq_skeleton]; unfold cc1__peer_edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _ _)

end Cert.KernelIdeal.Fr

end
-- ==== Proof.KIFrameObl.lean ====
/- The body obligations of the two regions, at any entry contents V: at every grid point the body, called on the
   current staging buffers, finds each input window's block there (fetched at this point or left from an earlier one) and
   leaves each output window's buffer at what its stores write. -/
import proofs.«128638_j40037685133334_2_alg».proof.Proof.KIFrameBody0
import proofs.«128638_j40037685133334_2_alg».proof.Proof.KIFrameBody1

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 -/

/-- Each input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation at every point: the conjunction over the windows, written out window by window, is what the
    body is run from and what it returns. -/
theorem body_obligation0 (c : Dev nD) : BodyObligation (dat0 (F := F) V c) (defs₀ (F := F)) Variants.none () Set.univ := fun t => by
  rw [bigSep_W0, bigSep_W0]
  exact sound_body0 V c t

/-! # Region 1 -/

/-- Each input window's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body's obligation at every point: the conjunction over the windows, written out window by window, is what the
    body is run from and what it returns. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KIFrame.lean ====
/- The run of @main through its two kernel regions and the host operations around them, from the launch to the return:
   the regions as segments over the thread state "every unscoped buffer at the boundary's contents, the generator
   register at some state, nothing owed", the run with the result buffer and the arguments read off the last contents,
   and the frame as its consequence. -/
import proofs.«128638_j40037685133334_2_alg».proof.Proof.KIFrameObl

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Every pipeline's proof data, each at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-- After region 0 every one of its arrays holds what the pipeline leaves (an input its entry contents, an output its
    write-backs folded), -/
theorem hF0 (c : Dev nD) : ∀ w : Fin cfg0.W, (dat0 (E1 m) c).arrAt w cfg0.N = W2 m c (Proc.devRef .tc (Pipeline.arrRef spec0 w))
  | ⟨0, _⟩ => ((((dat0 (E1 m) c).arrAt_in 0 rfl _).trans (A_eq0 (E1 m) c 0)).trans (W2_of_ne m c (Pipeline.arrRef spec0 0) (by decide)).symm)
  | ⟨1, _⟩ => ((((dat0 (E1 m) c).arrAt_in 1 rfl _).trans (A_eq0 (E1 m) c 1)).trans (W2_of_ne m c (Pipeline.arrRef spec0 1) (by decide)).symm)
  | ⟨2, _⟩ => ((((dat0 (E1 m) c).arrAt_in 2 rfl _).trans (A_eq0 (E1 m) c 2)).trans (W2_of_ne m c (Pipeline.arrRef spec0 2) (by decide)).symm)
  | ⟨3, _⟩ => ((((dat0 (E1 m) c).arrAt_in 3 rfl _).trans (A_eq0 (E1 m) c 3)).trans (W2_of_ne m c (Pipeline.arrRef spec0 3) (by decide)).symm)
  | ⟨4, _⟩ => (W2_v7_0 m c).symm
  | ⟨5, _⟩ => (W2_v7_1 m c).symm
/-- and every other buffer what it held at entry. -/
theorem hrest0 (c : Dev nD) (b : Ref sig .tc) (hb : b ∉ Finset.univ.image (Pipeline.arrRef spec0)) :
    W2 m c (Proc.devRef .tc b) = W1 m c (Proc.devRef .tc b) :=
  W2_of_ne m c b fun hmem => by
    rcases List.mem_cons.mp hmem with rfl | hmem
    · exact hb (Finset.mem_image.mpr ⟨4, Finset.mem_univ _, rfl⟩)
    rcases List.mem_cons.mp hmem with rfl | hmem
    · exact hb (Finset.mem_image.mpr ⟨5, Finset.mem_univ _, rfl⟩)
    exact absurd hmem (List.not_mem_nil)

set_option backward.isDefEq.respectTransparency.types false in
/-- Region 0 over the thread state: entered from every unscoped buffer at W1, left at W2. Its arrays split out of the
    unscoped buffers and put back at the exit contents; the generator register into the invariant and out; nothing owed;
    no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => W2 m c (Proc.devRef .tc b)) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1 is entered from the contents written over region 0's table alone (they are read after region 0 only). -/
abbrev W5' (c : Dev nD) : Valuation τ sig (Elt F) := Gen.V5 m (outsA m) c
theorem W6_of_ne' (c : Dev nD) (r : Ref sig .tc) (h : r ∉ ([main_v35] : List (Ref sig .tc))) :
    W6 m c (Proc.devRef .tc r) = W5' m c (Proc.devRef .tc r) :=
  (W6_of_ne m c r h).trans (congrFun (W5_eq m c) _)
theorem hlink5 (c : Dev nD) :
    iprop(StableHlo.held (c : Thread nD τ) (Pipeline.ucRefs τ sig) (W5 m c) ∗ R c)
      ⊢ (iprop(StableHlo.held (c : Thread nD τ) (Pipeline.ucRefs τ sig) (W5' m c) ∗ R c) : sProp 𝕄) := by
  rw [show W5 m c = W5' m c from W5_eq m c]
theorem hlast (c : Dev nD) :
    iprop(StableHlo.held (c : Thread nD τ) (Pipeline.ucRefs τ sig) (W9 m c) ∗ R c)
      ⊢ (iprop((StableHlo.held (c : Thread nD τ) (Pipeline.ucRefs τ sig) (W9 m c) ∗ ∃ r, prngReg c r)
          ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-- After region 1 every one of its arrays holds what the pipeline leaves (an input its entry contents, the output its
    write-backs folded), -/
theorem hF1_0 (c : Dev nD) : (dat1 (E5 m) c).arrAt 0 cfg1.N = W6 m c (Proc.devRef .tc (Pipeline.arrRef spec1 0)) :=
  ((((dat1 (E5 m) c).arrAt_in 0 rfl _).trans (A_eq1 (E5 m) c 0)).trans (W6_of_ne' m c (Pipeline.arrRef spec1 0) (by decide)).symm)
theorem hF1_1 (c : Dev nD) : (dat1 (E5 m) c).arrAt 1 cfg1.N = W6 m c (Proc.devRef .tc (Pipeline.arrRef spec1 1)) :=
  ((((dat1 (E5 m) c).arrAt_in 1 rfl _).trans (A_eq1 (E5 m) c 1)).trans (W6_of_ne' m c (Pipeline.arrRef spec1 1) (by decide)).symm)
theorem hF1_2 (c : Dev nD) : (dat1 (E5 m) c).arrAt 2 cfg1.N = W6 m c (Proc.devRef .tc (Pipeline.arrRef spec1 2)) :=
  ((((dat1 (E5 m) c).arrAt_in 2 rfl _).trans (A_eq1 (E5 m) c 2)).trans (W6_of_ne' m c (Pipeline.arrRef spec1 2) (by decide)).symm)
theorem hF1_3 (c : Dev nD) : (dat1 (E5 m) c).arrAt 3 cfg1.N = W6 m c (Proc.devRef .tc (Pipeline.arrRef spec1 3)) :=
  ((((dat1 (E5 m) c).arrAt_in 3 rfl _).trans (A_eq1 (E5 m) c 3)).trans (W6_of_ne' m c (Pipeline.arrRef spec1 3) (by decide)).symm)
theorem hF1_4 (c : Dev nD) : (dat1 (E5 m) c).arrAt 4 cfg1.N = W6 m c (Proc.devRef .tc (Pipeline.arrRef spec1 4)) :=
  ((((dat1 (E5 m) c).arrAt_in 4 rfl _).trans (A_eq1 (E5 m) c 4)).trans (W6_of_ne' m c (Pipeline.arrRef spec1 4) (by decide)).symm)
theorem hF1_5 (c : Dev nD) : (dat1 (E5 m) c).arrAt 5 cfg1.N = W6 m c (Proc.devRef .tc (Pipeline.arrRef spec1 5)) :=
  ((((dat1 (E5 m) c).arrAt_in 5 rfl _).trans (A_eq1 (E5 m) c 5)).trans (W6_of_ne' m c (Pipeline.arrRef spec1 5) (by decide)).symm)
theorem hF1_6 (c : Dev nD) : (dat1 (E5 m) c).arrAt 6 cfg1.N = W6 m c (Proc.devRef .tc (Pipeline.arrRef spec1 6)) :=
  ((((dat1 (E5 m) c).arrAt_in 6 rfl _).trans (A_eq1 (E5 m) c 6)).trans (W6_of_ne' m c (Pipeline.arrRef spec1 6) (by decide)).symm)
theorem hF1 (c : Dev nD) : ∀ w : Fin cfg1.W, (dat1 (E5 m) c).arrAt w cfg1.N = W6 m c (Proc.devRef .tc (Pipeline.arrRef spec1 w))
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
  | ⟨6, _⟩ => hF1_6 m c
  | ⟨7, _⟩ => (W6_v35 m c).symm
/-- and every other buffer what it held at entry. -/
theorem hrest1 (c : Dev nD) (b : Ref sig .tc) (hb : b ∉ Finset.univ.image (Pipeline.arrRef spec1)) :
    W6 m c (Proc.devRef .tc b) = W5' m c (Proc.devRef .tc b) :=
  W6_of_ne' m c b fun hmem => by
    rcases List.mem_cons.mp hmem with rfl | hmem
    · exact hb (Finset.mem_image.mpr ⟨7, Finset.mem_univ _, rfl⟩)
    exact absurd hmem (List.not_mem_nil)

set_option backward.isDefEq.respectTransparency.types false in
/-- Region 1 over the thread state: entered from every unscoped buffer at W5, left at W6. Its arrays split out of the
    unscoped buffers and put back at the exit contents; the generator register into the invariant and out; nothing owed;
    no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (W5' m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (fun b => W6 m c (Proc.devRef .tc b)) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters, every weakly fair execution of @main on the TensorCores terminates, nothing
    faulting, and every final memory holds the result buffer at the last boundary's contents and each argument as
    launched: no host operation writes an argument's buffer, and no region's output array is an argument, so the
    contents of an argument's buffer are the same at every boundary. -/
theorem run_main (ρ : Dev nD → PrngReg) :
    θ_run defs (onTc (τ := τ) (main (F := F))) ⟨m, fun _ => 0, ρ⟩ (fun r => ∀ c : Dev nD,
      r.2.mem ((c.tc : Thread nD τ).loc main_v59) = W9 m c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm (pdats m) () cellOf_inj emb₁ defs₀ 𝒱₀ L lv m ρ main
    (Gen.segs m (outs m) 𝒱₀ L lv (fun _ => R) () (pdats m) (reg0 m) (reg1 m))
    (fun c Q => by
      rewrite [main_chain c, Seg.run_eq_chain,
        show (Gen.segs m (outs m) 𝒱₀ L lv (fun _ => R) () (pdats m) (reg0 m) (reg1 m) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W9 m c) ∗ ∃ r, prngReg c r))
    (hch := fun c => ⟨.rfl, .rfl, .rfl, .rfl, .rfl, hlink5 m c, .rfl, .rfl, .rfl, hlast m c⟩)
    (hinit := ?_)
    (QY := fun c s => s.mem ((c.tc : Thread nD τ).loc main_v59) = W9 m c (Proc.devRef .tc main_v59)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8))
    (hfin := fun c s' => ?_) (hQ := fun _ h => h)
  · -- the launch: every unscoped buffer at the launch memory, the register, nothing owed
    refine Pipeline.initEach L lv fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hh, -, HO, -, Hp, -⟩, -⟩
    imodintro
    isplitl [Hh]; · iexact Hh
    isplitl [Hp]; · iexists _; iexact Hp
    iexists ∅; iexact HO
  · -- the end: the result's and each argument's buffer read off the last contents
    unfold StableHlo.held
    iintro ⟨⟨Hh, -⟩, HSI⟩
    ihave Hr := (pointsTo_read_all (Pipeline.ucRefs τ sig) (fun b => ((c : Thread nD τ).1, b)) (W9 m c) s') $$ [Hh HSI]
    · isplitl [Hh] <;> iassumption
    icases Hr with ⟨%h, HSI⟩
    imodintro
    isplitr
    · ipureintro
      exact ⟨h (Proc.devRef .tc main_v59) (Finset.mem_filter.mpr ⟨StableHlo.devRef_mem_tcRefs main_v59, by decide⟩),
        (h (Proc.devRef .tc main_arg0) (Finset.mem_filter.mpr ⟨StableHlo.devRef_mem_tcRefs main_arg0, by decide⟩)).trans (Gen.V9_main_arg0 m (outs m) c),
        (h (Proc.devRef .tc main_arg1) (Finset.mem_filter.mpr ⟨StableHlo.devRef_mem_tcRefs main_arg1, by decide⟩)).trans (Gen.V9_main_arg1 m (outs m) c),
        (h (Proc.devRef .tc main_arg2) (Finset.mem_filter.mpr ⟨StableHlo.devRef_mem_tcRefs main_arg2, by decide⟩)).trans (Gen.V9_main_arg2 m (outs m) c),
        (h (Proc.devRef .tc main_arg3) (Finset.mem_filter.mpr ⟨StableHlo.devRef_mem_tcRefs main_arg3, by decide⟩)).trans (Gen.V9_main_arg3 m (outs m) c),
        (h (Proc.devRef .tc main_arg4) (Finset.mem_filter.mpr ⟨StableHlo.devRef_mem_tcRefs main_arg4, by decide⟩)).trans (Gen.V9_main_arg4 m (outs m) c),
        (h (Proc.devRef .tc main_arg5) (Finset.mem_filter.mpr ⟨StableHlo.devRef_mem_tcRefs main_arg5, by decide⟩)).trans (Gen.V9_main_arg5 m (outs m) c),
        (h (Proc.devRef .tc main_arg6) (Finset.mem_filter.mpr ⟨StableHlo.devRef_mem_tcRefs main_arg6, by decide⟩)).trans (Gen.V9_main_arg6 m (outs m) c),
        (h (Proc.devRef .tc main_arg7) (Finset.mem_filter.mpr ⟨StableHlo.devRef_mem_tcRefs main_arg7, by decide⟩)).trans (Gen.V9_main_arg7 m (outs m) c),
        (h (Proc.devRef .tc main_arg8) (Finset.mem_filter.mpr ⟨StableHlo.devRef_mem_tcRefs main_arg8, by decide⟩)).trans (Gen.V9_main_arg8 m (outs m) c)⟩
    · iexact HSI

/-- The frame: from any memory with zero counters every weakly fair execution of @main terminates, nothing faulting, and
    every final memory holds each argument as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_main m ρ)

end Cert.KernelIdeal.Fr

end
-- ==== Proof.LibNary3.lean ====
/-
  The result of an operation over a LITERAL family of three references (a concatenate of three operands), with each
  operand's contents at its own reference: the operation's function applied to the three contents, in order.
  Stated twice: once for rewriting, once with the result reference un-indexed so that a simplifier pass can use it.
-/
import Idealize.ShloMosaic.Lib.StableHlo.Run

noncomputable section

namespace Cert.LibNary3

open Idealize.ShloMosaic Idealize.ShloMosaic.StableHlo

variable {τ : Topo} {sig : RefSig} {Val : EltTy → Type}
variable {x a b y : Ref sig .tc}

/-- The three operands' contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, keyed for a simplifier pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3

end
-- ==== Proof.LibFoldNormal.lean ====
/-
  Reading a fold of host operations down to its arguments: two rewriting facts that complete the library's one-pass
  normal form (`StableHlo.after_results_simp`).

  1. A `concatenate` of two pieces carries, after its list of pieces, a proof about the list's shapes; a rewriting pass
     therefore does not enter the list, and whatever the two pieces are stays unread. `cat2` is the same operation as a
     plain function of its two pieces (the proof now speaks of the two shapes only), and `concatenate_pair` presents a
     two-piece `concatenate` as `cat2`, whose operands a rewriting pass does reach.
  2. An operation inlined from a called function reads and writes its buffers through a transport along the buffer's
     type equation; a value written by one such operation and read by the next meets the two transports back to back,
     which cancel by Mathlib's `cast_cast` and `cast_eq`. (Nothing to state here: cite those two lemmas.)
-/
import Idealize.ShloMosaic.PureOps.ShapeOps

namespace Cert.FoldNormal

open Idealize.ShloMosaic

/-- The concatenation of two pieces along axis `a`, as a function of the two pieces. -/
def cat2 {α : Type} (t : Shape) (a : Fin t.rank) (s₁ s₂ : Shape) (h : Shape.Concatenates [s₁, s₂] t a)
    (u : s₁.Idx → α) (v : s₂.Idx → α) : t.Idx → α :=
  concatenate t a [⟨s₁, u⟩, ⟨s₂, v⟩] h

/-- A two-piece `concatenate` is `cat2` of its pieces. -/
theorem concatenate_pair {α : Type} (t : Shape) (a : Fin t.rank) (s₁ s₂ : Shape) (h : Shape.Concatenates [s₁, s₂] t a)
    (u : s₁.Idx → α) (v : s₂.Idx → α) :
    concatenate t a [⟨s₁, u⟩, ⟨s₂, v⟩] h = cat2 t a s₁ s₂ h u v := rfl

end Cert.FoldNormal
-- ==== Proof.LibCat3.lean ====
/-
  A concatenate of three pieces as a plain function of its pieces.
  A `concatenate` carries, after its list of pieces, a proof about the list's shapes, so a rewriting pass does not enter the
  list and whatever the pieces are stays unread. `cat3` is the same operation with the three pieces as separate operands,
  which a rewriting pass does reach; `concatenate_triple` presents a three-piece `concatenate` that way.
-/
import Idealize.ShloMosaic.PureOps.ShapeOps

namespace Cert.LibCat3

open Idealize.ShloMosaic

/-- The concatenation of three pieces along axis `a`, as a function of the three pieces. -/
def cat3 {α : Type} (t : Shape) (a : Fin t.rank) (s₁ s₂ s₃ : Shape) (h : Shape.Concatenates [s₁, s₂, s₃] t a)
    (u : s₁.Idx → α) (v : s₂.Idx → α) (w : s₃.Idx → α) : t.Idx → α :=
  concatenate t a [⟨s₁, u⟩, ⟨s₂, v⟩, ⟨s₃, w⟩] h

/-- A three-piece `concatenate` is `cat3` of its pieces. -/
theorem concatenate_triple {α : Type} (t : Shape) (a : Fin t.rank) (s₁ s₂ s₃ : Shape) (h : Shape.Concatenates [s₁, s₂, s₃] t a)
    (u : s₁.Idx → α) (v : s₂.Idx → α) (w : s₃.Idx → α) :
    concatenate t a [⟨s₁, u⟩, ⟨s₂, v⟩, ⟨s₃, w⟩] h = cat3 t a s₁ s₂ s₃ h u v w := rfl

end Cert.LibCat3
-- ==== Proof.RefRes.lean ====
/-
  The term the reference's run names for its result is the program's last stage (the three-piece concatenate of the ego
  branch, the two edge sums and the peer sum) applied to the nine arguments' launch contents: both are the same composed
  term, one spelt out, one through the named stages.
-/
import proofs.«128638_j40037685133334_2_alg».proof.Proof.RefRun
import proofs.«128638_j40037685133334_2_alg».proof.Proof.RefRead

noncomputable section

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo

set_option maxRecDepth 8192 in
/-- The run's named term is the last stage of the nine arguments. -/
theorem res_eq (m : (ℓ : Loc nD τ sig) → Buf (Elt Ideal) ℓ) (c : Dev nD) :
    Cert.ReferenceIdeal.ValueP.res_main_v79 (F := Ideal) m c
      = val_main_v79 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  unfold Cert.ReferenceIdeal.ValueP.res_main_v79; rfl

end Cert.ReferenceIdeal.RefValue

end
-- ==== Proof.KHost.lean ====
/-
  What the host operations around the two regions compute, as functions of the buffers they read.
  After the second region the program slices the packed [800000,128] array into the peer messages (columns 0..95) and the
  edge features (columns 96..127), scatter-adds the edge features over `row` (h_e_agg), gathers h_e_agg at `col`, scales by
  norm_val and scatter-adds again (h_e_mm), scatter-adds the peer messages and clamps at zero (h_peer), and joins
  [h_ego | h_e_agg | h_e_mm | h_peer] along the columns. Between the regions it counts each node's in-degree by a
  scatter-add of ones, takes rsqrt(max(deg,1)) where deg > 0 and 0 elsewhere, and gathers that and the hoisted product at
  `row` (negative indices wrapped by the array's length first, as jnp indexing does).
-/
import proofs.«128638_j40037685133334_2_alg».proof.Proof.Gen.KernelIdeal.Launch
import proofs.«128638_j40037685133334_2_alg».proof.Proof.LibNary3
import Idealize.ShloMosaic.Lib.StableHlo.Run

noncomputable section

namespace Cert.KernelIdeal.KHost

open Idealize.ShloMosaic Idealize.ShloMosaic.TcCoe Idealize.ShloMosaic.StableHlo Cert.KernelIdeal Cert.KernelIdeal.Gen

variable {F : FTy → Type} [FloatOps F]

/-- Row numbers with negative entries wrapped by the number of nodes, as a column of start indices. -/
def nidx (r : (⟨S800000, .i32⟩ : BufTy).Contents (Elt F)) : (⟨S800000x1, .i32⟩ : BufTy).Contents (Elt F) :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)

/-- The scatter-add of `u` over the rows `r` names, into zeros: a segment sum of 32 columns. -/
def seg32 (r : (⟨S800000, .i32⟩ : BufTy).Contents (Elt F)) (u : (⟨S800000x32, .f32⟩ : BufTy).Contents (Elt F)) :
    (⟨S50000x32, .f32⟩ : BufTy).Contents (Elt F) :=
  Host.scatterAdd scatter_S50000x32_S800000x1_S800000x32_1_0_0_1
    (broadcastInDim S50000x32 ![] bcast_S_S50000x32 (constant (F := F) S_ .f32 0x00000000#32))
    (broadcastInDim S800000x1 ![0] bcast_S800000_S800000x1_0 r) u

/-- The same for 96 columns. -/
def seg96 (r : (⟨S800000, .i32⟩ : BufTy).Contents (Elt F)) (u : (⟨S800000x96, .f32⟩ : BufTy).Contents (Elt F)) :
    (⟨S50000x96, .f32⟩ : BufTy).Contents (Elt F) :=
  Host.scatterAdd scatter_S50000x96_S800000x1_S800000x96_1_0_0_1
    (broadcastInDim S50000x96 ![] bcast_S_S50000x96 (constant (F := F) S_ .f32 0x00000000#32))
    (broadcastInDim S800000x1 ![0] bcast_S800000_S800000x1_0 r) u

/-- Everything after the edge features, the peer messages, norm_val and h_ego are known: the two aggregations of the edge
    features, the clamped aggregation of the peer messages, and the join. -/
def finish (hego : (⟨S50000x64, .f32⟩ : BufTy).Contents (Elt F)) (peer : (⟨S800000x96, .f32⟩ : BufTy).Contents (Elt F))
    (he : (⟨S800000x32, .f32⟩ : BufTy).Contents (Elt F)) (nv : (⟨S800000, .f32⟩ : BufTy).Contents (Elt F))
    (row col : (⟨S800000, .i32⟩ : BufTy).Contents (Elt F)) : (⟨S50000x224, .f32⟩ : BufTy).Contents (Elt F) :=
  concatenate S50000x224 1
    [⟨S50000x64, hego⟩,
     ⟨S50000x64, concatenate S50000x64 1
        [⟨S50000x32, seg32 row he⟩,
         ⟨S50000x32, seg32 row
            (mulf (broadcastInDim S800000x32 ![0, 1] bcast_S800000x1_S800000x32_0_1 (broadcastInDim S800000x1 ![0] bcast_S800000_S800000x1_0 nv))
              (Host.gather gather_S50000x32_S800000x1_S800000x32_1_0_n_n_0_1_132 (seg32 row he) (nidx col)))⟩]
        concatenates_S50000x32_S50000x32_S50000x64_d1⟩,
     ⟨S50000x96, maximumf (seg96 row peer) (broadcastInDim S50000x96 ![] bcast_S_S50000x96 (constant (F := F) S_ .f32 0x00000000#32))⟩]
    concatenates_S50000x64_S50000x64_S50000x96_S50000x224_d1

set_option maxHeartbeats 8000000 in
/-- The result buffer after the last three stretches of host operations, from any contents `V`. -/
theorem tail_result (V : Valuation τ sig (Elt F)) :
    StableHlo.after hostOps2_2 (StableHlo.after hostOps2_1 (StableHlo.after hostOps2 V)) (Proc.devRef .tc main_v59)
      = finish (V (Proc.devRef .tc main_v7_0))
          (extractStridedSlice S800000x96 ![0, 0] (V (Proc.devRef .tc main_v35)) slices_S800000x128_S800000x96_0_0)
          (extractStridedSlice S800000x32 ![0, 96] (V (Proc.devRef .tc main_v35)) slices_S800000x128_S800000x32_0_96)
          (V (Proc.devRef .tc main_v24)) (V (Proc.devRef .tc main_v1)) (V (Proc.devRef .tc main_v3)) := by
  simp (disch := decide) only [after_cons, after_nil, Cert.LibNary3.nary3_result',
      nullary_result', unary_result', binary_result', ternary_result', quaternary_result', reshape_result', nary_result',
      nullary_result_ne', unary_result_ne', binary_result_ne', ternary_result_ne', quaternary_result_ne', reshape_result_ne',
      nary_result_ne']
  unfold finish seg32 seg96 nidx
  rfl

/-! ## The first stretch: the index rows, the two halves of the peer weights, the ego bias as a row -/

/-- Row `r` of the [2, 800000] index array, flattened. -/
def idxRow (r : Nat) (h : S2x800000.Slices ![r, 0] S1x800000) (x8 : (⟨S2x800000, .i32⟩ : BufTy).Contents (Elt F)) :
    (⟨S800000, .i32⟩ : BufTy).Contents (Elt F) :=
  shapeCast S800000 (extractStridedSlice S1x800000 ![r, 0] x8 h) shapeCasts_S1x800000_S800000

set_option maxHeartbeats 8000000 in
/-- `row` is line 1 of the index array. -/
theorem first_row (V : Valuation τ sig (Elt F)) :
    StableHlo.after hostOps0 V (Proc.devRef .tc main_v1) = idxRow 1 slices_S2x800000_S1x800000_1_0 (V (Proc.devRef .tc main_arg8)) := by
  after_results_simp
  rfl

set_option maxHeartbeats 8000000 in
/-- `col` is line 0 of the index array. -/
theorem first_col (V : Valuation τ sig (Elt F)) :
    StableHlo.after hostOps0 V (Proc.devRef .tc main_v3) = idxRow 0 slices_S2x800000_S1x800000_0_0 (V (Proc.devRef .tc main_arg8)) := by
  after_results_simp
  rfl

set_option maxHeartbeats 8000000 in
/-- The peer weights' first 128 columns (those that meet the node features). -/
theorem first_w1 (V : Valuation τ sig (Elt F)) :
    StableHlo.after hostOps0 V (Proc.devRef .tc main_v4)
      = extractStridedSlice S96x128 ![0, 0] (V (Proc.devRef .tc main_arg2)) slices_S96x160_S96x128_0_0 := by
  after_results_simp

set_option maxHeartbeats 8000000 in
/-- The peer weights' last 32 columns (those that meet the edge attributes). -/
theorem first_w2 (V : Valuation τ sig (Elt F)) :
    StableHlo.after hostOps0 V (Proc.devRef .tc main_v5)
      = extractStridedSlice S96x32 ![0, 128] (V (Proc.devRef .tc main_arg2)) slices_S96x160_S96x32_0_128 := by
  after_results_simp

set_option maxHeartbeats 8000000 in
/-- The ego bias as a one-row matrix. -/
theorem first_bego (V : Valuation τ sig (Elt F)) :
    StableHlo.after hostOps0 V (Proc.devRef .tc main_v6)
      = shapeCast S1x64 (V (Proc.devRef .tc main_arg5)) shapeCasts_S64_S1x64 := by
  after_results_simp
  rfl

/-! ## The middle stretches: the degree normalisation and the two gathers at `row` -/

/-- Each node's in-degree: ones scatter-added over `row` into zeros. -/
def deg (row : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant (F := F) S_ .f32 0x00000000#32))
    (broadcastInDim S800000x1 ![0] bcast_S800000_S800000x1_0 row)
    (broadcastInDim S800000 ![] bcast_S_S800000 (constant (F := F) S_ .f32 0x3F800000#32))

/-- rsqrt(max(deg, 1)) where deg > 0, zero elsewhere. -/
def dinv (row : (⟨S800000, .i32⟩ : BufTy).Contents (Elt F)) : (⟨S50000, .f32⟩ : BufTy).Contents (Elt F) :=
  select (cmpf .ogt (deg row) (broadcastInDim S50000 ![] bcast_S_S50000 (constant (F := F) S_ .f32 0x00000000#32)))
    (Host.rsqrt (maximumf (deg row) (broadcastInDim S50000 ![] bcast_S_S50000 (constant (F := F) S_ .f32 0x3F800000#32))))
    (broadcastInDim S50000 ![] bcast_S_S50000 (id (constant (F := F) S_ .f32 0x00000000#32)))

/-- norm_val: the normalisation gathered at `row`. -/
def nv (row : (⟨S800000, .i32⟩ : BufTy).Contents (Elt F)) : (⟨S800000, .f32⟩ : BufTy).Contents (Elt F) :=
  Host.gather gather_S50000_S800000x1_S800000_n_0_n_n_0_1_1 (dinv row) (nidx row)

/-- The three middle stretches, from contents `V`. -/
abbrev mid (V : Valuation τ sig (Elt F)) : Valuation τ sig (Elt F) :=
  StableHlo.after hostOps1_2 (StableHlo.after hostOps1_1 (StableHlo.after hostOps1 V))

set_option maxHeartbeats 16000000 in
/-- norm_val after the middle stretches. -/
theorem mid_nv (V : Valuation τ sig (Elt F)) :
    mid V (Proc.devRef .tc main_v24) = nv (V (Proc.devRef .tc main_v1)) := by
  after_results_simp
  rfl

set_option maxHeartbeats 16000000 in
/-- norm_val as a column, as the second region's window takes it. -/
theorem mid_nvcol (V : Valuation τ sig (Elt F)) :
    mid V (Proc.devRef .tc main_v32) = shapeCast S800000x1 (nv (V (Proc.devRef .tc main_v1))) shapeCasts_S800000_S800000x1 := by
  after_results_simp
  rfl

set_option maxHeartbeats 16000000 in
/-- The hoisted product's rows gathered at `row`. -/
theorem mid_xwrow (V : Valuation τ sig (Elt F)) :
    mid V (Proc.devRef .tc main_v31)
      = Host.gather gather_S50000x96_S800000x1_S800000x96_1_0_n_n_0_1_196 (V (Proc.devRef .tc main_v7_1)) (nidx (V (Proc.devRef .tc main_v1))) := by
  after_results_simp
  rfl

set_option maxHeartbeats 16000000 in
/-- The peer bias as a one-row matrix. -/
theorem mid_bpeer (V : Valuation τ sig (Elt F)) :
    mid V (Proc.devRef .tc main_v33) = shapeCast S1x96 (V (Proc.devRef .tc main_arg3)) shapeCasts_S96_S1x96 := by
  after_results_simp
  rfl

set_option maxHeartbeats 16000000 in
/-- The edge bias as a one-row matrix. -/
theorem mid_bedge (V : Valuation τ sig (Elt F)) :
    mid V (Proc.devRef .tc main_v34) = shapeCast S1x32 (V (Proc.devRef .tc main_arg7)) shapeCasts_S32_S1x32 := by
  after_results_simp
  rfl

end Cert.KernelIdeal.KHost

end
-- ==== Proof.DegNorm.lean ====
/-
  The degree normalisation, two ways.
  The in-degree is a scatter-add of ones into zeros, so at each node it is the NUMBER of edges whose row index lands on the
  node: a natural number d. One program takes rsqrt(max(d, 1)) where d > 0, the other d^(-1/2) where d > 0; both take 0
  elsewhere. For a natural d > 0 we have d ≥ 1, so max(d, 1) = d, and (√d)⁻¹ = d^(-1/2) on the positive reals.
-/
import Idealize.ShloMosaic.PureOps.Ideal
import Idealize.ShloMosaic.PureOps.Ideal.Laws

noncomputable section

namespace Cert.DegNorm

open Idealize.ShloMosaic

/-- The word of +0.0 denotes 0. -/
theorem ofBits_zero : Ideal.ofBits .f32 0x00000000#32 = 0 := by
  simp [Ideal.ofBits, Ideal.ieee]

/-- The word of 1.0 denotes 1. -/
theorem ofBits_one : Ideal.ofBits .f32 0x3F800000#32 = 1 := by
  simp [Ideal.ofBits, Ideal.ieee, -EReal.coe_mul]; norm_num

/-- The word of -0.5 denotes -1/2. -/
theorem ofBits_neg_half : Ideal.ofBits .f32 0xBF000000#32 = ((-(1 / 2) : ℝ) : EReal) := by
  simp [Ideal.ofBits, Ideal.ieee, -EReal.coe_mul]; norm_num

/-- For a positive natural d: rsqrt (max d 1) = d ^ (-1/2). -/
theorem branch_eq (n : ℕ) (hn : 0 < n) :
    Ideal.rsqrt (max (((n : ℝ) : EReal)) (Ideal.ofBits .f32 0x3F800000#32))
      = Ideal.pow ((n : ℝ) : EReal) (Ideal.ofBits .f32 0xBF000000#32) := by
  have h1 : (1 : ℝ) ≤ (n : ℝ) := by exact_mod_cast hn
  have hpos : (0 : ℝ) < (n : ℝ) := by linarith
  rw [ofBits_one, ofBits_neg_half]
  have hmax : max (((n : ℝ) : EReal)) 1 = ((n : ℝ) : EReal) := by
    apply max_eq_left
    exact_mod_cast h1
  rw [hmax, Ideal.rsqrt_coe, Ideal.pow_coe_coe, if_neg (by linarith), if_neg (by linarith)]
  congr 1
  show (Real.sqrt (n : ℝ))⁻¹ = (n : ℝ) ^ (-(1 / 2) : ℝ)
  rw [Real.rpow_neg hpos.le, Real.sqrt_eq_rpow]

/-- The two selects agree at a natural number. -/
theorem norm_eq (n : ℕ) :
    Scalar.select (Ideal.cmp .ogt ((n : ℝ) : EReal) (Ideal.ofBits .f32 0x00000000#32))
        (Ideal.rsqrt (max (((n : ℝ) : EReal)) (Ideal.ofBits .f32 0x3F800000#32))) (Ideal.ofBits .f32 0x00000000#32)
      = Scalar.select (Ideal.cmp .ogt ((n : ℝ) : EReal) (Ideal.ofBits .f32 0x00000000#32))
        (Ideal.pow ((n : ℝ) : EReal) (Ideal.ofBits .f32 0xBF000000#32)) (Ideal.ofBits .f32 0x00000000#32) := by
  rcases Nat.eq_zero_or_pos n with h0 | hp
  · subst h0
    have : Ideal.cmp .ogt (((0 : ℕ) : ℝ) : EReal) (Ideal.ofBits .f32 0x00000000#32) = 0#1 := by
      rw [ofBits_zero]; simp [Ideal.cmp]
    rw [this]; rfl
  · rw [branch_eq n hp]

/-- n copies of 1 add up to n. -/
theorem nsmul_one (n : ℕ) : n • (1 : EReal) = ((n : ℝ) : EReal) := by
  induction n with
  | zero => simp
  | succ k ih => rw [succ_nsmul, ih, Nat.cast_succ, EReal.coe_add, EReal.coe_one]

/-- A sum of ones over a finite set is its cardinality. -/
theorem sum_ones {ι : Type} (S : Finset ι) : (∑ _j ∈ S, (1 : EReal)) = ((S.card : ℝ) : EReal) := by
  rw [Finset.sum_const, nsmul_one]

end Cert.DegNorm

end
-- ==== Proof.KDinv.lean ====
/- The degree normalisation of the kernel program, written with a power.
   The in-degree of a node is a scatter-add of ones into zeros: the NUMBER of edges whose row index lands on the node, a
   natural number d. The program takes rsqrt(max(d, 1)) where d > 0 and 0 elsewhere; for a natural d > 0 that is
   d^(-1/2), so the normalisation is the same array as the one taking d^(-1/2) where d > 0 and 0 elsewhere. -/
import proofs.«128638_j40037685133334_2_alg».proof.Proof.KHost
import proofs.«128638_j40037685133334_2_alg».proof.Proof.DegNorm
import Idealize.ShloMosaic.Lib.ValueIdx

noncomputable section

namespace Cert.KernelIdeal.KDinv

open Idealize.ShloMosaic Idealize.ShloMosaic.TcCoe Cert.KernelIdeal Cert.KernelIdeal.Gen Cert.KernelIdeal.KHost

/-- Ones scatter-added into zeros: at each index, the number of updates landing there. -/
theorem scatter_ones_nat {s si su : Shape} (d : ScatterDims s si su) {w : Nat} (idx : IVec si w)
    (x : s.Idx → EReal) (upd : su.Idx → EReal) (hx : ∀ i, x i = Ideal.ofBits .f32 0x00000000#32)
    (hu : ∀ j, upd j = Ideal.ofBits .f32 0x3F800000#32) (i : s.Idx) :
    ∃ n : ℕ, Ideal.hostScatterAdd d x idx upd i = ((n : ℝ) : EReal) :=
  ⟨_, by
    unfold Ideal.hostScatterAdd
    rw [hx, Finset.sum_congr rfl (fun j _ => hu j), DegNorm.ofBits_zero, DegNorm.ofBits_one, zero_add, DegNorm.sum_ones]⟩

/-- A scalar constant broadcast to a vector reads the constant's value at every index. -/
theorem bcast0_apply (b : BitVec 32) (i : S50000.Idx) :
    (broadcastInDim S50000 ![] bcast_S_S50000 (constant (F := Ideal) S_ .f32 b)) i = Ideal.ofBits .f32 b := rfl
theorem bcast1_apply (b : BitVec 32) (j : S800000.Idx) :
    (broadcastInDim S800000 ![] bcast_S_S800000 (constant (F := Ideal) S_ .f32 b)) j = Ideal.ofBits .f32 b := rfl

/-- The in-degree, as the scatter-add it is. -/
theorem deg_eq (row : (⟨S800000, .i32⟩ : BufTy).Contents (Elt Ideal)) :
    KHost.deg (F := Ideal) row = Ideal.hostScatterAdd scatter_S50000_S800000x1_S800000_n_0_0_1
      (broadcastInDim S50000 ![] bcast_S_S50000 (constant (F := Ideal) S_ .f32 0x00000000#32))
      (broadcastInDim S800000x1 ![0] bcast_S800000_S800000x1_0 row)
      (broadcastInDim S800000 ![] bcast_S_S800000 (constant (F := Ideal) S_ .f32 0x3F800000#32)) := rfl

/-- The in-degree of a node is a natural number. -/
theorem deg_nat (row : (⟨S800000, .i32⟩ : BufTy).Contents (Elt Ideal)) (i : S50000.Idx) :
    ∃ n : ℕ, KHost.deg (F := Ideal) row i = ((n : ℝ) : EReal) := by
  obtain ⟨n, hn⟩ := scatter_ones_nat scatter_S50000_S800000x1_S800000_n_0_0_1
      (broadcastInDim S800000x1 ![0] bcast_S800000_S800000x1_0 row)
      (broadcastInDim S50000 ![] bcast_S_S50000 (constant (F := Ideal) S_ .f32 0x00000000#32))
      (broadcastInDim S800000 ![] bcast_S_S800000 (constant (F := Ideal) S_ .f32 0x3F800000#32))
      (bcast0_apply _) (bcast1_apply _) i
  exact ⟨n, (congrFun (deg_eq row) i).trans hn⟩

/-- The normalisation with the power: d^(-1/2) where d > 0, zero elsewhere. -/
def dinvPow (row : (⟨S800000, .i32⟩ : BufTy).Contents (Elt Ideal)) : (⟨S50000, .f32⟩ : BufTy).Contents (Elt Ideal) :=
  select (cmpf .ogt (KHost.deg row) (broadcastInDim S50000 ![] bcast_S_S50000 (constant (F := Ideal) S_ .f32 0x00000000#32)))
    (Host.powf (KHost.deg row) (broadcastInDim S50000 ![] bcast_S_S50000 (constant (F := Ideal) S_ .f32 0xBF000000#32)))
    (broadcastInDim S50000 ![] bcast_S_S50000 (id (constant (F := Ideal) S_ .f32 0x00000000#32)))

/-- The two selects at a node, for any degree array: the comparison, the branch and the zero at that node. -/
theorem sel_rsqrt_apply (D : (⟨S50000, .f32⟩ : BufTy).Contents (Elt Ideal)) (i : S50000.Idx) :
    (select (cmpf .ogt D (broadcastInDim S50000 ![] bcast_S_S50000 (constant (F := Ideal) S_ .f32 0x00000000#32)))
      (Host.rsqrt (maximumf D (broadcastInDim S50000 ![] bcast_S_S50000 (constant (F := Ideal) S_ .f32 0x3F800000#32))))
      (broadcastInDim S50000 ![] bcast_S_S50000 (id (constant (F := Ideal) S_ .f32 0x00000000#32)))) i
    = Scalar.select (Ideal.cmp .ogt (D i) (Ideal.ofBits .f32 0x00000000#32))
        (Ideal.rsqrt (max (D i) (Ideal.ofBits .f32 0x3F800000#32))) (Ideal.ofBits .f32 0x00000000#32) := rfl
theorem sel_pow_apply (D : (⟨S50000, .f32⟩ : BufTy).Contents (Elt Ideal)) (i : S50000.Idx) :
    (select (cmpf .ogt D (broadcastInDim S50000 ![] bcast_S_S50000 (constant (F := Ideal) S_ .f32 0x00000000#32)))
      (Host.powf D (broadcastInDim S50000 ![] bcast_S_S50000 (constant (F := Ideal) S_ .f32 0xBF000000#32)))
      (broadcastInDim S50000 ![] bcast_S_S50000 (id (constant (F := Ideal) S_ .f32 0x00000000#32)))) i
    = Scalar.select (Ideal.cmp .ogt (D i) (Ideal.ofBits .f32 0x00000000#32))
        (Ideal.pow (D i) (Ideal.ofBits .f32 0xBF000000#32)) (Ideal.ofBits .f32 0x00000000#32) := rfl

/-- The two selects agree at a degree that is a natural number. -/
theorem core (D : EReal) (n : ℕ) (h : D = ((n : ℝ) : EReal)) :
    Scalar.select (Ideal.cmp .ogt D (Ideal.ofBits .f32 0x00000000#32))
        (Ideal.rsqrt (max D (Ideal.ofBits .f32 0x3F800000#32))) (Ideal.ofBits .f32 0x00000000#32)
      = Scalar.select (Ideal.cmp .ogt D (Ideal.ofBits .f32 0x00000000#32))
        (Ideal.pow D (Ideal.ofBits .f32 0xBF000000#32)) (Ideal.ofBits .f32 0x00000000#32) := by
  subst h; exact DegNorm.norm_eq n

/-- The program's normalisation, spelt out. -/
theorem dinv_eq (row : (⟨S800000, .i32⟩ : BufTy).Contents (Elt Ideal)) :
    KHost.dinv (F := Ideal) row
      = select (cmpf .ogt (KHost.deg row) (broadcastInDim S50000 ![] bcast_S_S50000 (constant (F := Ideal) S_ .f32 0x00000000#32)))
          (Host.rsqrt (maximumf (KHost.deg row) (broadcastInDim S50000 ![] bcast_S_S50000 (constant (F := Ideal) S_ .f32 0x3F800000#32))))
          (broadcastInDim S50000 ![] bcast_S_S50000 (id (constant (F := Ideal) S_ .f32 0x00000000#32))) := rfl

/-- The two normalisations are the same array: at each node the degree is a natural number. -/
theorem dinv_eq_pow (row : (⟨S800000, .i32⟩ : BufTy).Contents (Elt Ideal)) : KHost.dinv (F := Ideal) row = dinvPow row := by
  funext i
  obtain ⟨n, hn⟩ := deg_nat row i
  exact ((congrFun (dinv_eq row) i).trans (sel_rsqrt_apply (KHost.deg row) i)).trans
    ((core (KHost.deg (F := Ideal) row i) n hn).trans (sel_pow_apply (KHost.deg row) i).symm)

/-- norm_val, spelt out. -/
theorem nv_eq (row : (⟨S800000, .i32⟩ : BufTy).Contents (Elt Ideal)) :
    KHost.nv (F := Ideal) row = Host.gather gather_S50000_S800000x1_S800000_n_0_n_n_0_1_1 (KHost.dinv row) (KHost.nidx row) := rfl

/-- norm_val, with the power. -/
theorem nv_eq_pow (row : (⟨S800000, .i32⟩ : BufTy).Contents (Elt Ideal)) :
    KHost.nv (F := Ideal) row = Host.gather gather_S50000_S800000x1_S800000_n_0_n_n_0_1_1 (dinvPow row) (KHost.nidx row) :=
  (nv_eq row).trans (congrArg (fun z => Host.gather gather_S50000_S800000x1_S800000_n_0_n_n_0_1_1 z (KHost.nidx row)) (dinv_eq_pow row))

end Cert.KernelIdeal.KDinv

end
-- ==== Proof.RefShape.lean ====
/-
  The reference program's result has the same outer shape as the kernel program's.
  After its four arrays — h_ego, the peer messages, the edge features and norm_val — the reference applies exactly the
  operations the kernel program applies after its own: two aggregations of the edge features over `row` (the second through
  a gather at `col` scaled by norm_val), the clamped aggregation of the peer messages, and the join along the columns. Its
  norm_val is the gather at `row` of deg^(-1/2) where deg > 0 and 0 elsewhere, deg the scatter-add of ones over `row`.
  So each statement here is an unfolding of definitions on both sides.
-/
import proofs.«128638_j40037685133334_2_alg».proof.Proof.RefRead
import proofs.«128638_j40037685133334_2_alg».proof.Proof.KHost
import proofs.«128638_j40037685133334_2_alg».proof.Proof.KDinv

noncomputable section

namespace Cert.RefShape

open Idealize.ShloMosaic Cert.ReferenceIdeal.ReadP

variable (x0 : (⟨Cert.ReferenceIdeal.S50000x128, .f32⟩ : BufTy).Contents (Elt Ideal)) (x1 : (⟨Cert.ReferenceIdeal.S800000x32, .f32⟩ : BufTy).Contents (Elt Ideal))
  (x2 : (⟨Cert.ReferenceIdeal.S96x160, .f32⟩ : BufTy).Contents (Elt Ideal)) (x3 : (⟨Cert.ReferenceIdeal.S96, .f32⟩ : BufTy).Contents (Elt Ideal))
  (x4 : (⟨Cert.ReferenceIdeal.S64x128, .f32⟩ : BufTy).Contents (Elt Ideal)) (x5 : (⟨Cert.ReferenceIdeal.S64, .f32⟩ : BufTy).Contents (Elt Ideal))
  (x6 : (⟨Cert.ReferenceIdeal.S32x32, .f32⟩ : BufTy).Contents (Elt Ideal)) (x7 : (⟨Cert.ReferenceIdeal.S32, .f32⟩ : BufTy).Contents (Elt Ideal))
  (x8 : (⟨Cert.ReferenceIdeal.S2x800000, .i32⟩ : BufTy).Contents (Elt Ideal))

set_option maxHeartbeats 16000000 in
/-- The reference's result is the common finishing function of its own four arrays and index rows. -/
theorem ref_finish :
    val_main_v79 (F := Ideal) x0 x1 x2 x3 x4 x5 x6 x7 x8
      = Cert.KernelIdeal.KHost.finish (F := Ideal) (val_main_v9 (F := Ideal) x0 x4 x5) (val_main_v51 (F := Ideal) x0 x1 x2 x3 x8)
          (val_main_v61 (F := Ideal) x1 x6 x7) (val_main_v35 (F := Ideal) x8) (val_main_v1 (F := Ideal) x8) (val_main_v3 (F := Ideal) x8) := by
  unfold val_main_v79 val_main_v78 val_main_v77 val_main_v76 val_main_v75 val_main_cst_15 val_main_v74 val_main_v73 val_main_v65
    val_main_v72 val_main_v71 val_main_v70 val_main_v69 val_main_v68 val_main_c_14 val_main_v67 val_main_v66 val_main_c_13
    val_main_v64 val_main_v63 val_main_v62 val_main_cst_12 val_main_v55 val_main_call3_v0 val_main_call3_cst val_main_v54
    val_main_v53 val_main_v52 val_main_cst_11
  unfold Cert.KernelIdeal.KHost.finish Cert.KernelIdeal.KHost.seg32 Cert.KernelIdeal.KHost.seg96 Cert.KernelIdeal.KHost.nidx
  rfl

set_option maxHeartbeats 16000000 in
/-- The reference's norm_val is the gather at `row` of the power form of the degree normalisation. -/
theorem ref_nv :
    val_main_v35 (F := Ideal) x8
      = Host.gather Cert.KernelIdeal.gather_S50000_S800000x1_S800000_n_0_n_n_0_1_1
          (Cert.KernelIdeal.KDinv.dinvPow (val_main_v1 (F := Ideal) x8)) (Cert.KernelIdeal.KHost.nidx (F := Ideal) (val_main_v1 (F := Ideal) x8)) := by
  unfold val_main_v35 val_main_v34 val_main_v33 val_main_v32 val_main_v31 val_main_c_8 val_main_v30 val_main_v29 val_main_c
    val_main_v28 val_main_call2_v1 val_main_call2_v0 val_main_cst_7 val_main_v27 val_main_v26 val_main_cst_6 val_main_v25
    val_main_v24 val_main_cst_5 val_main_v13 val_main_v12 val_main_v11 val_main_cst_0 val_main_v10 val_main_cst
  unfold Cert.KernelIdeal.KDinv.dinvPow Cert.KernelIdeal.KHost.deg Cert.KernelIdeal.KHost.nidx
  rfl

/-- The reference's `row` is line 1 of the index array, flattened. -/
theorem ref_row :
    val_main_v1 (F := Ideal) x8 = Cert.KernelIdeal.KHost.idxRow (F := Ideal) 1 Cert.KernelIdeal.Gen.slices_S2x800000_S1x800000_1_0 x8 := by
  unfold val_main_v1 val_main_v0 Cert.KernelIdeal.KHost.idxRow
  rfl

/-- The reference's `col` is line 0 of the index array, flattened. -/
theorem ref_col :
    val_main_v3 (F := Ideal) x8 = Cert.KernelIdeal.KHost.idxRow (F := Ideal) 0 Cert.KernelIdeal.Gen.slices_S2x800000_S1x800000_0_0 x8 := by
  unfold val_main_v3 val_main_v2 Cert.KernelIdeal.KHost.idxRow
  rfl

/-- The reference's norm_val is the kernel program's. -/
theorem ref_nv_eq :
    val_main_v35 (F := Ideal) x8 = Cert.KernelIdeal.KHost.nv (F := Ideal) (val_main_v1 (F := Ideal) x8) :=
  (ref_nv x8).trans (Cert.KernelIdeal.KDinv.nv_eq_pow (val_main_v1 (F := Ideal) x8)).symm

end Cert.RefShape

end
-- ==== Proof.RefArrays.lean ====
/-
  The reference program's peer branch, read at one index at the ideal values (extended reals: no rounding, no order of
  summation). With x the node features [50000,128], ea the edge attributes [800000,32], row the edges' first endpoints,
  the branch before its sum over the edges is   norm[row] · ([x[row], ea]·W_peerᵀ + b_peer)   [800000,96].
  The gathered normalisation norm[row] and the gathered rows x[row] stay as named arrays; the joined array [x[row], ea]
  is read at an index separately: its first 128 columns are the gathered rows, its last 32 are ea.
-/
import proofs.«128638_j40037685133334_2_alg».proof.Proof.RefRead
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-- The peer branch at edge e, column j, before the sum over the edges: the gathered normalisation at e times
    (∑ₖ [x[row], ea][e,k]·W_peer[j,k] + b_peer[j]). -/
theorem peer_apply (x0 : (⟨S50000x128, .f32⟩ : BufTy).Contents (Elt Ideal)) (x1 : (⟨S800000x32, .f32⟩ : BufTy).Contents (Elt Ideal)) (x2 : (⟨S96x160, .f32⟩ : BufTy).Contents (Elt Ideal))
    (x3 : (⟨S96, .f32⟩ : BufTy).Contents (Elt Ideal)) (x8 : (⟨S2x800000, .i32⟩ : BufTy).Contents (Elt Ideal)) (e : Fin 800000) (j : Fin 96) :
    val_main_v51 (F := Ideal) x0 x1 x2 x3 x8 (ix2 e j)
      = val_main_v35 (F := Ideal) x8 (ix1 e)
        * ((∑ k : Fin 160, val_main_v43 (F := Ideal) x0 x1 x8 (ix2 e k) * x2 (ix2 j k)) + x3 (ix1 j)) := by
  have e1 : ∀ k : Fin 160, lidx_main_v46 (ix2 e j) k = ix2 e k := fun k => funext fun a => Fin.ext (by match a with | ⟨0, _⟩ => rfl | ⟨1, _⟩ => rfl)
  have e2 : ∀ k : Fin 160, idx_main_v45 (ridx_main_v46 (ix2 e j) k) = ix2 j k := fun k => funext fun a => Fin.ext (by match a with | ⟨0, _⟩ => rfl | ⟨1, _⟩ => rfl)
  have e3 : idx_main_v47 (idx_main_v48 (ix2 e j)) = ix1 j := funext fun a => Fin.ext (by match a with | ⟨0, _⟩ => rfl)
  have e4 : idx_main_v44 (idx_main_v50 (ix2 e j)) = ix1 e := funext fun a => Fin.ext (by match a with | ⟨0, _⟩ => rfl)
  rw [val_main_v51_apply, val_main_v50_apply, val_main_v44_apply, val_main_v49_apply, val_main_v46_apply,
    val_main_v48_apply, val_main_v47_apply]
  simp only [val_main_v45_apply, e1, e2, e3, e4, Ideal.mulf_def, Ideal.addf_def]

/-- The joined array [x[row], ea] in its first 128 columns: the gathered rows of x. -/
theorem cat_apply_left (x0 : (⟨S50000x128, .f32⟩ : BufTy).Contents (Elt Ideal)) (x1 : (⟨S800000x32, .f32⟩ : BufTy).Contents (Elt Ideal)) (x8 : (⟨S2x800000, .i32⟩ : BufTy).Contents (Elt Ideal))
    (e : Fin 800000) (k : Fin 128) :
    val_main_v43 (F := Ideal) x0 x1 x8 (ix2 e (⟨k.val, by have := k.isLt; omega⟩ : Fin 160))
      = val_main_v42 (F := Ideal) x0 x8 (ix2 e k) := by
  unfold val_main_v43
  exact concatenate_pair_apply_left 1 _ x1 concatenates_S800000x128_S800000x32_S800000x160_d1 _ rfl (ix2 e k)
    (fun b => match b with | ⟨0, _⟩ => rfl | ⟨1, _⟩ => rfl)

/-- The joined array [x[row], ea] in its last 32 columns: the edge attributes, 128 columns back. -/
theorem cat_apply_right (x0 : (⟨S50000x128, .f32⟩ : BufTy).Contents (Elt Ideal)) (x1 : (⟨S800000x32, .f32⟩ : BufTy).Contents (Elt Ideal)) (x8 : (⟨S2x800000, .i32⟩ : BufTy).Contents (Elt Ideal))
    (e : Fin 800000) (k : Fin 32) :
    val_main_v43 (F := Ideal) x0 x1 x8 (ix2 e (⟨128 + k.val, by have := k.isLt; omega⟩ : Fin 160))
      = x1 (ix2 e k) := by
  unfold val_main_v43
  exact concatenate_pair_apply_right 1 _ x1 concatenates_S800000x128_S800000x32_S800000x160_d1 _ rfl rfl (ix2 e k)
    (fun b hb => match b, hb with | ⟨0, _⟩, _ => rfl | ⟨1, _⟩, hb => (hb (Fin.ext rfl)).elim)
    (by show k.val + 128 = 128 + k.val; omega)

end Cert.ReferenceIdeal.RefValue

end
-- ==== Proof.RefEgoEdge.lean ====
/- Two stages of the reference read at an index: the ego branch at (node, feature) and the edge branch at (edge, feature),
   each the relu of a row against a row of the weights plus the bias. -/
import proofs.«128638_j40037685133334_2_alg».proof.Proof.RefRead

noncomputable section

namespace Cert.ReferenceIdeal.RefEgoEdge

open Cert.ReferenceIdeal Cert.ReferenceIdeal.Gen Cert.ReferenceIdeal.ReadP Idealize.ShloMosaic Idealize.ShloMosaic.ValueIdx

/-- The ego branch of the reference at node n, feature j: relu of the row of x0 against row j of the weights, plus the bias. -/
theorem ego_apply (x0 : (⟨S50000x128, .f32⟩ : BufTy).Contents (Elt Ideal)) (x4 : (⟨S64x128, .f32⟩ : BufTy).Contents (Elt Ideal))
    (x5 : (⟨S64, .f32⟩ : BufTy).Contents (Elt Ideal)) (n : Fin 50000) (j : Fin 64) :
    val_main_v9 (F := Ideal) x0 x4 x5 (ix2 n j)
      = max ((∑ k : Fin 128, x0 (ix2 n k) * x4 (ix2 j k)) + x5 (ix1 j)) (Ideal.ofBits .f32 0x00000000#32) := by
  have e1 : ∀ k : Fin 128, lidx_main_v5 (ix2 n j) k = ix2 n k := fun k => funext fun a => Fin.ext (by
    match a with
    | ⟨0, _⟩ => rfl
    | ⟨1, _⟩ => rfl)
  have e2 : ∀ k : Fin 128, idx_main_v4 (ridx_main_v5 (ix2 n j) k) = ix2 j k := fun k => funext fun a => Fin.ext (by
    match a with
    | ⟨0, _⟩ => rfl
    | ⟨1, _⟩ => rfl)
  have e3 : idx_main_v6 (idx_main_v7 (ix2 n j)) = ix1 j := funext fun a => Fin.ext (by
    match a with
    | ⟨0, _⟩ => rfl)
  rw [val_main_v9_apply, val_main_v8_apply, val_main_v5_apply, val_main_v7_apply, val_main_v6_apply, val_main_call0_v0_apply,
    val_main_call0_cst_apply, e3, Finset.sum_congr rfl (fun k _ => by rw [val_main_v4_apply, e1 k, e2 k])]
  rfl

/-- The edge branch of the reference at edge e, feature j: relu of the row of x1 against row j of the weights, plus the bias. -/
theorem edge_apply (x1 : (⟨S800000x32, .f32⟩ : BufTy).Contents (Elt Ideal)) (x6 : (⟨S32x32, .f32⟩ : BufTy).Contents (Elt Ideal))
    (x7 : (⟨S32, .f32⟩ : BufTy).Contents (Elt Ideal)) (e : Fin 800000) (j : Fin 32) :
    val_main_v61 (F := Ideal) x1 x6 x7 (ix2 e j)
      = max ((∑ k : Fin 32, x1 (ix2 e k) * x6 (ix2 j k)) + x7 (ix1 j)) (Ideal.ofBits .f32 0x00000000#32) := by
  have e1 : ∀ k : Fin 32, lidx_main_v57 (ix2 e j) k = ix2 e k := fun k => funext fun a => Fin.ext (by
    match a with
    | ⟨0, _⟩ => rfl
    | ⟨1, _⟩ => rfl)
  have e2 : ∀ k : Fin 32, idx_main_v56 (ridx_main_v57 (ix2 e j) k) = ix2 j k := fun k => funext fun a => Fin.ext (by
    match a with
    | ⟨0, _⟩ => rfl
    | ⟨1, _⟩ => rfl)
  have e3 : idx_main_v58 (idx_main_v59 (ix2 e j)) = ix1 j := funext fun a => Fin.ext (by
    match a with
    | ⟨0, _⟩ => rfl)
  rw [val_main_v61_apply, val_main_v60_apply, val_main_v57_apply, val_main_v59_apply, val_main_v58_apply, val_main_call4_v0_apply,
    val_main_call4_cst_apply, e3, Finset.sum_congr rfl (fun k _ => by rw [val_main_v56_apply, e1 k, e2 k])]
  rfl

end Cert.ReferenceIdeal.RefEgoEdge

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.Payloads.lean ====
/-
  What each region's body stores, read at a row and a column, on the extended reals.
  A change of float format is the identity there, so the bf16 casts disappear; a product into a zero accumulator is the
  plain sum over the contracted axis; the weight matrices enter transposed, so entry (k, q) of the right operand is the
  weight's entry (q, k). Hence, for a row p of the block and a column q:
    ego   : max (Σ_k x(p,k) · Wego(q,k) + bego(0,q)) 0            (k < 128)
    xW    : Σ_k x(p,k) · Wp1(q,k)                                 (k < 128)
    peer  : nv(p,0) · ((Σ_k ea(p,k) · Wp2(q,k) + xw(p,q)) + bp(0,q))   (k < 32)
    edge  : max (Σ_k ea(p,k) · Wedge(q,k) + bedge(0,q)) 0         (k < 32)
-/
import proofs.«128638_j40037685133334_2_alg».proof.Proof.Gen.KernelIdeal.Skeleton
import proofs.«128638_j40037685133334_2_alg».proof.Proof.LibPlainDot
import proofs.«128638_j40037685133334_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-- The zero word as the kernel bodies spell it. -/
abbrev Z : EReal := Ideal.ofBits .f32 0x00000000#32

/-- A product of a block with a transposed weight, into zero, at (p, q): the sum over k of block(p,k) · weight(q,k). -/
theorem dotT_apply (M K N : Nat) (l : FVec Ideal ⟨2, ![M, K]⟩ .bf16) (w : FVec Ideal ⟨2, ![N, K]⟩ .bf16)
    (h : (⟨2, ![N, K]⟩ : Shape).Transposes [1, 0] ⟨2, ![K, N]⟩) (p : Fin M) (q : Fin N) :
    matmul (F := Ideal) (DotDims.plain M K N) none l (transpose ⟨2, ![K, N]⟩ [1, 0] w h) (constant ⟨2, ![M, N]⟩ .f32 0x00000000#32) (ix2 p q)
      = ∑ k : Fin K, l (ix2 p k) * w (ix2 q k) := by
  refine (Cert.LibPlainDot.matmul_plain M K N none l _ (ix2 p q)).trans ?_
  refine Finset.sum_congr rfl fun k _ => ?_
  exact congrArg (l (ix2 p k) * ·) (transpose_ix2_apply w h k q)

/-- The ego branch's stored value at (p, q). -/
theorem ego_apply (v0 : Vec Ideal S5000x128 .f32) (v2 : Vec Ideal S64x128 .f32) (v6 : Vec Ideal S1x64 .f32) (p : Fin 5000) (q : Fin 64) :
    k0_pay2 (F := Ideal) v0 v2 v6 (ix2 p q)
      = max ((∑ k : Fin 128, v0 (ix2 p k) * v2 (ix2 q k)) + v6 (ix2 (0 : Fin 1) q)) Z := by
  unfold k0_pay2 k0_pay1
  refine congrArg₂ max (congrArg₂ (· + ·) ?_ ?_) rfl
  · exact dotT_apply 5000 128 64 _ _ _ p q
  · refine (broadcastTo_1b_ab_apply _ _ p q).trans ?_
    exact congrFun (shapeCast_self v6 _) _

/-- The hoisted peer product's stored value at (p, q). -/
theorem xw_apply (v0 : Vec Ideal S5000x128 .f32) (v13 : Vec Ideal S96x128 .f32) (p : Fin 5000) (q : Fin 96) :
    k0_pay3 (F := Ideal) v0 v13 (ix2 p q) = ∑ k : Fin 128, v0 (ix2 p k) * v13 (ix2 q k) := by
  unfold k0_pay3 k0_pay1
  refine (dotT_apply 5000 128 96 _ _ _ p q).trans ?_
  refine Finset.sum_congr rfl fun k _ => ?_
  exact congrArg (v0 (ix2 p k) * ·) (congrFun (shapeCast_self v13 _) _)

/-- The normalised peer message's stored value at (p, q). -/
theorem peer_apply (v0 : Vec Ideal S4000x32 .f32) (v2 : Vec Ideal S96x32 .f32) (v7 : Vec Ideal S4000x96 .f32) (v10 : Vec Ideal S1x96 .f32)
    (v14 : Vec Ideal S4000x1 .f32) (p : Fin 4000) (q : Fin 96) :
    k1_pay2 (F := Ideal) v0 v2 v7 v10 v14 (ix2 p q)
      = v14 (ix2 p (0 : Fin 1)) * (((∑ k : Fin 32, v0 (ix2 p k) * v2 (ix2 q k)) + v7 (ix2 p q)) + v10 (ix2 (0 : Fin 1) q)) := by
  unfold k1_pay2 k1_pay1
  refine congrArg₂ (· * ·) ?_ (congrArg₂ (· + ·) (congrArg₂ (· + ·) ?_ ?_) ?_)
  · refine (Cert.LibColumn.broadcastTo_a1_ab_apply _ _ p q).trans ?_
    exact congrFun (shapeCast_self v14 _) _
  · refine (dotT_apply 4000 32 96 _ _ _ p q).trans ?_
    refine Finset.sum_congr rfl fun k _ => ?_
    exact congrArg (v0 (ix2 p k) * ·) (congrFun (shapeCast_self v2 _) _)
  · exact congrFun (shapeCast_self v7 _) _
  · refine (broadcastTo_1b_ab_apply _ _ p q).trans ?_
    exact congrFun (shapeCast_self v10 _) _

/-- The edge branch's stored value at (p, q). -/
theorem edge_apply (v0 : Vec Ideal S4000x32 .f32) (v18 : Vec Ideal S32x32 .f32) (v22 : Vec Ideal S1x32 .f32) (p : Fin 4000) (q : Fin 32) :
    k1_pay3 (F := Ideal) v0 v18 v22 (ix2 p q)
      = max ((∑ k : Fin 32, v0 (ix2 p k) * v18 (ix2 q k)) + v22 (ix2 (0 : Fin 1) q)) Z := by
  unfold k1_pay3 k1_pay1
  refine congrArg₂ max (congrArg₂ (· + ·) ?_ ?_) rfl
  · exact dotT_apply 4000 32 32 _ _ _ p q
  · refine (broadcastTo_1b_ab_apply _ _ p q).trans ?_
    exact congrFun (shapeCast_self v22 _) _

end Cert.KernelIdeal.Pay

end
-- ==== Proof.KBlocks0.lean ====
/-
  The first region's two output arrays, whole.
  Point t of the grid (t < 10) handles rows 5000·t … 5000·t + 4999 of the node features; the weights and the bias are the
  same block at every point. So what point t writes back is rows 5000·t … of ONE function of the whole arrays:
    h_ego(n, j) = max (Σ_k x(n,k) · Wego(j,k) + bego(0,j)) 0,      xW(n, j) = Σ_k x(n,k) · Wp1(j,k)      (k < 128),
  and the ten blocks tile the 50000 rows, so the arrays end holding exactly these functions.
-/
import proofs.«128638_j40037685133334_2_alg».proof.Proof.KIFrameDefs
import proofs.«128638_j40037685133334_2_alg».proof.Proof.Payloads
import proofs.«128638_j40037685133334_2_alg».proof.Proof.Gen.KernelIdeal.Points
import Idealize.ShloMosaic.Lib.Pipeline.Value

set_option maxRecDepth 16384

noncomputable section

namespace Cert.KernelIdeal.KBlocks

open Idealize.ShloMosaic Idealize.ShloMosaic.TcCoe Idealize.ShloMosaic.ValueIdx Idealize.ShloMosaic.Pipeline
open Cert.KernelIdeal Cert.KernelIdeal.Gen Cert.KernelIdeal.Fr Cert.KernelIdeal.Pay

/-- The ego branch over whole arrays. -/
def Gego (x : S50000x128.Idx → EReal) (W : S64x128.Idx → EReal) (b : S1x64.Idx → EReal) : S50000x64.Idx → EReal :=
  fun i => max ((∑ k : Fin 128, x (ix2 (i 0) k) * W (ix2 (i 1) k)) + b (ix2 (0 : Fin 1) (i 1))) Z

/-- The hoisted peer product over whole arrays. -/
def Gxw (x : S50000x128.Idx → EReal) (W : S96x128.Idx → EReal) : S50000x96.Idx → EReal :=
  fun i => ∑ k : Fin 128, x (ix2 (i 0) k) * W (ix2 (i 1) k)

theorem hz : (![0, 0] : Fin 2 → Nat) = fun _ => 0 := funext fun a => by fin_cases a <;> rfl

/-- The printed index maps over the grid: the row block is the point, every other block index is zero. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- The arrays the first region reads, as it finds them, typed as plain index functions. -/
abbrev aX (c : Dev nD) : S50000x128.Idx → EReal := V c main_arg0
abbrev aWego (c : Dev nD) : S64x128.Idx → EReal := V c main_arg4
abbrev aBego (c : Dev nD) : S1x64.Idx → EReal := V c main_v6
abbrev aWp1 (c : Dev nD) : S96x128.Idx → EReal := V c main_v4

set_option maxHeartbeats 4000000 in
/-- WHAT POINT t WRITES BACK into h_ego is block t of `Gego` of the arrays as the region finds them. -/
theorem flushed4_eq (c : Dev nD) (t : Fin cfg0.N) :
    (dat0 V c).flushed 4 t = ((cfg0.win 4).blk t).view.read (Elt Ideal) (Gego (aX V c) (aWego V c) (aBego V c)) := by
  show (cfg0.win 4).cut (grid0.coords t) ((dat0 V c).after 4 t) = _
  rw [after0_4]
  unfold out0_4
  rw [View.canon_unit_zero hz]
  simp only [View.ld_unit_zero (S := S5000x128) hz, View.ld_unit_zero (S := S64x128) hz, View.ld_unit_zero (S := S1x64) hz]
  obtain ⟨e00, e01, e10, e11, e20, e21, e30, e31, e40, e41, e50, e51⟩ := idx_facts0 t
  funext j
  obtain ⟨p, q, rfl⟩ : ∃ (p : Fin 5000) (q : Fin 64), j = ix2 p q := ⟨j 0, j 1, eq_ix2 j⟩
  refine (ego_apply (iblk0 V c 0 t) (iblk0 V c 1 t) (iblk0 V c 2 t) p q).trans ?_
  show max ((∑ k : Fin 128, aX V c (((cfg0.win 0).blk t).view.emb (ix2 p k)) * aWego V c (((cfg0.win 1).blk t).view.emb (ix2 q k)))
      + aBego V c (((cfg0.win 2).blk t).view.emb (ix2 (0 : Fin 1) q))) Z
    = Gego (aX V c) (aWego V c) (aBego V c) (((cfg0.win 4).blk t).view.emb (ix2 p q))
  unfold Gego
  have hp : p.val < 5000 := p.isLt
  have hq : q.val < 64 := q.isLt
  have h0 : ∀ k : Fin 128, ((cfg0.win 0).blk t).view.emb (ix2 p k) = ix2 ((((cfg0.win 4).blk t).view.emb (ix2 p q)) 0) k := by
    intro k; funext a; apply Fin.ext
    match a with
    | ⟨0, _⟩ => show win0_0.index t (0 : Fin 2) * 5000 + 1 * p.val = win0_4.index t (0 : Fin 2) * 5000 + 1 * p.val; omega
    | ⟨1, _⟩ => show win0_0.index t (1 : Fin 2) * 128 + 1 * k.val = k.val; omega
  have h1 : ∀ k : Fin 128, ((cfg0.win 1).blk t).view.emb (ix2 q k) = ix2 ((((cfg0.win 4).blk t).view.emb (ix2 p q)) 1) k := by
    intro k; funext a; apply Fin.ext
    match a with
    | ⟨0, _⟩ => show win0_1.index t (0 : Fin 2) * 64 + 1 * q.val = win0_4.index t (1 : Fin 2) * 64 + 1 * q.val; omega
    | ⟨1, _⟩ => show win0_1.index t (1 : Fin 2) * 128 + 1 * k.val = k.val; omega
  have h2 : ((cfg0.win 2).blk t).view.emb (ix2 (0 : Fin 1) q) = ix2 (0 : Fin 1) ((((cfg0.win 4).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 64 + 1 * q.val = win0_4.index t (1 : Fin 2) * 64 + 1 * q.val; omega
  simp only [h0, h1, h2]
  rfl

/-- An index is in point t's block of h_ego iff each coordinate is in the block's range. -/
theorem mem_blk4 (t : Fin cfg0.N) (i : S50000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v7_0).slice (win0_4.rect t)).set ↔ _
  rw [View.set_slice_whole, Rect.mem_set_unit]
  exact Iff.rfl

/-- Every row is in the block of the point its number divided by 5000 names. -/
theorem cover4 (i : S50000x64.Idx) : ∃ t : Fin cfg0.N, (cfg0.win 4).flush t = true ∧ i ∈ ((cfg0.win 4).blk t).view.set := by
  have hi0 : (i 0).val < 50000 := (i 0).isLt
  have hi1 : (i 1).val < 64 := (i 1).isLt
  let t : Fin cfg0.N := ⟨(i 0).val / 5000, by show _ < grid0.N; rw [N_0]; omega⟩
  obtain ⟨e00, e01, e10, e11, e20, e21, e30, e31, e40, e41, e50, e51⟩ := idx_facts0 t
  have ht : t.val = (i 0).val / 5000 := rfl
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- h_ego after the first region, whole. -/
theorem final4 (c : Dev nD) : (dat0 V c).arrAt 4 cfg0.N = Gego (aX V c) (aWego V c) (aBego V c) :=
  (dat0 V c).arrAt_eq_of_cover 4 _ (fun t _ => flushed4_eq V c t) cover4

set_option maxHeartbeats 4000000 in
/-- WHAT POINT t WRITES BACK into xW is block t of `Gxw` of the arrays as the region finds them. -/
theorem flushed5_eq (c : Dev nD) (t : Fin cfg0.N) :
    (dat0 V c).flushed 5 t = ((cfg0.win 5).blk t).view.read (Elt Ideal) (Gxw (aX V c) (aWp1 V c)) := by
  show (cfg0.win 5).cut (grid0.coords t) ((dat0 V c).after 5 t) = _
  rw [after0_5]
  unfold out0_5
  rw [View.canon_unit_zero hz]
  simp only [View.ld_unit_zero (S := S5000x128) hz, View.ld_unit_zero (S := S96x128) hz]
  obtain ⟨e00, e01, e10, e11, e20, e21, e30, e31, e40, e41, e50, e51⟩ := idx_facts0 t
  funext j
  obtain ⟨p, q, rfl⟩ : ∃ (p : Fin 5000) (q : Fin 96), j = ix2 p q := ⟨j 0, j 1, eq_ix2 j⟩
  refine (xw_apply (iblk0 V c 0 t) (iblk0 V c 3 t) p q).trans ?_
  show (∑ k : Fin 128, aX V c (((cfg0.win 0).blk t).view.emb (ix2 p k)) * aWp1 V c (((cfg0.win 3).blk t).view.emb (ix2 q k)))
    = Gxw (aX V c) (aWp1 V c) (((cfg0.win 5).blk t).view.emb (ix2 p q))
  unfold Gxw
  have hp : p.val < 5000 := p.isLt
  have hq : q.val < 96 := q.isLt
  have h0 : ∀ k : Fin 128, ((cfg0.win 0).blk t).view.emb (ix2 p k) = ix2 ((((cfg0.win 5).blk t).view.emb (ix2 p q)) 0) k := by
    intro k; funext a; apply Fin.ext
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  have h3 : ∀ k : Fin 128, ((cfg0.win 3).blk t).view.emb (ix2 q k) = ix2 ((((cfg0.win 5).blk t).view.emb (ix2 p q)) 1) k := by
    intro k; funext a; apply Fin.ext
    match a with
    | ⟨0, _⟩ => show win0_3.index t (0 : Fin 2) * 96 + 1 * q.val = win0_5.index t (1 : Fin 2) * 96 + 1 * q.val; omega
    | ⟨1, _⟩ => show win0_3.index t (1 : Fin 2) * 128 + 1 * k.val = k.val; omega
  simp only [h0, h3]
  rfl

/-- An index is in point t's block of xW iff each coordinate is in the block's range. -/
theorem mem_blk5 (t : Fin cfg0.N) (i : S50000x96.Idx) :
    i ∈ ((cfg0.win 5).blk t).view.set ↔ ∀ a : Fin 2, win0_5.index t a * S5000x96.size a ≤ (i a).val ∧ (i a).val < win0_5.index t a * S5000x96.size a + S5000x96.size a := by
  show i ∈ ((View.whole main_v7_1).slice (win0_5.rect t)).set ↔ _
  rw [View.set_slice_whole, Rect.mem_set_unit]
  exact Iff.rfl

/-- Every row of xW is in the block of the point its number divided by 5000 names. -/
theorem cover5 (i : S50000x96.Idx) : ∃ t : Fin cfg0.N, (cfg0.win 5).flush t = true ∧ i ∈ ((cfg0.win 5).blk t).view.set := by
  have hi0 : (i 0).val < 50000 := (i 0).isLt
  have hi1 : (i 1).val < 96 := (i 1).isLt
  let t : Fin cfg0.N := ⟨(i 0).val / 5000, by show _ < grid0.N; rw [N_0]; omega⟩
  obtain ⟨e00, e01, e10, e11, e20, e21, e30, e31, e40, e41, e50, e51⟩ := idx_facts0 t
  have ht : t.val = (i 0).val / 5000 := rfl
  refine ⟨t, flush0_5 t, ?_⟩
  rw [mem_blk5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 96 ≤ (i 1).val ∧ (i 1).val < win0_5.index t (1 : Fin 2) * 96 + 96; omega

/-- xW after the first region, whole. -/
theorem final5 (c : Dev nD) : (dat0 V c).arrAt 5 cfg0.N = Gxw (aX V c) (aWp1 V c) :=
  (dat0 V c).arrAt_eq_of_cover 5 _ (fun t _ => flushed5_eq V c t) cover5

end Cert.KernelIdeal.KBlocks

end
-- ==== Proof.KBlocks1.lean ====
/-
  The second region's output array, whole.
  Point t of the grid (t < 200) handles edges 4000·t … 4000·t + 3999; the weights and biases are the same block at every
  point. The body stores the normalised peer message into columns 0..95 of its block and the edge feature into columns
  96..127; the two stores tile the block. So what point t writes back is rows 4000·t … of ONE function of the whole arrays:
    comb(e, j) = nv(e,0) · ((Σ_k ea(e,k) · Wp2(j,k) + xwr(e,j)) + bp(0,j))           for j < 96      (k < 32)
    comb(e, j) = max (Σ_k ea(e,k) · Wedge(j−96,k) + bedge(0,j−96)) 0                 for 96 ≤ j < 128,
  and the two hundred blocks tile the 800000 rows.
-/
import proofs.«128638_j40037685133334_2_alg».proof.Proof.KIFrameDefs
import proofs.«128638_j40037685133334_2_alg».proof.Proof.Payloads
import proofs.«128638_j40037685133334_2_alg».proof.Proof.Gen.KernelIdeal.Points
import Idealize.ShloMosaic.Lib.Pipeline.Value
import Idealize.ShloMosaic.Lib.Pipeline.FrameBody

set_option maxRecDepth 16384

noncomputable section

namespace Cert.KernelIdeal.KBlocks

open Idealize.ShloMosaic Idealize.ShloMosaic.TcCoe Idealize.ShloMosaic.ValueIdx Idealize.ShloMosaic.Pipeline
open Cert.KernelIdeal Cert.KernelIdeal.Gen Cert.KernelIdeal.Fr Cert.KernelIdeal.Pay

/-- The normalised peer message over whole arrays, at edge e and column j < 96. -/
def peerAt (xwr : S800000x96.Idx → EReal) (ea : S800000x32.Idx → EReal) (nvc : S800000x1.Idx → EReal) (W2 : S96x32.Idx → EReal)
    (bp : S1x96.Idx → EReal) (e : Fin 800000) (j : Fin 96) : EReal :=
  nvc (ix2 e (0 : Fin 1)) * (((∑ k : Fin 32, ea (ix2 e k) * W2 (ix2 j k)) + xwr (ix2 e j)) + bp (ix2 (0 : Fin 1) j))

/-- The edge feature over whole arrays, at edge e and column j < 32. -/
def edgeAt (ea : S800000x32.Idx → EReal) (We : S32x32.Idx → EReal) (be : S1x32.Idx → EReal) (e : Fin 800000) (j : Fin 32) : EReal :=
  max ((∑ k : Fin 32, ea (ix2 e k) * We (ix2 j k)) + be (ix2 (0 : Fin 1) j)) Z

/-- The packed output over whole arrays. -/
def Gcomb (xwr : S800000x96.Idx → EReal) (ea : S800000x32.Idx → EReal) (nvc : S800000x1.Idx → EReal) (W2 : S96x32.Idx → EReal)
    (bp : S1x96.Idx → EReal) (We : S32x32.Idx → EReal) (be : S1x32.Idx → EReal) : S800000x128.Idx → EReal :=
  fun i => if (i 1).val < 96 then peerAt xwr ea nvc W2 bp (i 0) ⟨(i 1).val % 96, Nat.mod_lt _ (by decide)⟩
    else edgeAt ea We be (i 0) ⟨((i 1).val - 96) % 32, Nat.mod_lt _ (by decide)⟩

theorem hz1 : (![0, 0] : Fin 2 → Nat) = fun _ => 0 := funext fun a => by fin_cases a <;> rfl

/-- Two stores that tile a [4000,128] block by columns: a column below 96 reads the first store's payload. -/
theorem canon_left (wa : Vec Ideal S4000x96 .f32) (wb : Vec Ideal S4000x32 .f32) (p : Fin 4000) (q : Fin 96) :
    (View.canon [⟨r1_7b, wb⟩, ⟨r1_7a, wa⟩] : Vec Ideal S4000x128 .f32) (ix2 p ⟨q.val, by have := q.isLt; omega⟩) = wa (ix2 p q) := by
  have hq : q.val < 96 := q.isLt
  have hnm : (ix2 p (⟨q.val, by omega⟩ : Fin 128) : S4000x128.Idx) ∉ r1_7b.set := by
    rw [Rect.mem_set_unit]
    intro h
    have h1 := (h (1 : Fin 2)).1
    have : (96 : Nat) ≤ q.val := h1
    omega
  refine (View.canon_cons_of_not_mem ⟨r1_7b, wb⟩ [⟨r1_7a, wa⟩] hnm).trans ?_
  have he : (ix2 p (⟨q.val, by omega⟩ : Fin 128) : S4000x128.Idx) = r1_7a.emb (ix2 p q) := by
    funext a; apply Fin.ext
    match a with
    | ⟨0, _⟩ => show p.val = 0 + 1 * p.val; omega
    | ⟨1, _⟩ => show q.val = 0 + 1 * q.val; omega
  rw [he]
  exact View.canon_cons_emb r1_7a wa [] (ix2 p q)

/-- A column from 96 on reads the second store's payload. -/
theorem canon_right (wa : Vec Ideal S4000x96 .f32) (wb : Vec Ideal S4000x32 .f32) (p : Fin 4000) (q : Fin 32) :
    (View.canon [⟨r1_7b, wb⟩, ⟨r1_7a, wa⟩] : Vec Ideal S4000x128 .f32) (ix2 p ⟨96 + q.val, by have := q.isLt; omega⟩) = wb (ix2 p q) := by
  have hq : q.val < 32 := q.isLt
  have he : (ix2 p (⟨96 + q.val, by omega⟩ : Fin 128) : S4000x128.Idx) = r1_7b.emb (ix2 p q) := by
    funext a; apply Fin.ext
    match a with
    | ⟨0, _⟩ => show p.val = 0 + 1 * p.val; omega
    | ⟨1, _⟩ => show 96 + q.val = 96 + 1 * q.val; omega
  rw [he]
  exact View.canon_cons_emb r1_7b wb _ (ix2 p q)

/-- The printed index maps over the grid: the row block is the point, every other block index is zero. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

variable (V : (c : Dev nD) → (b : Ref sig .tc) → Buf (Elt Ideal) ((c : Thread nD τ).loc b))

/-- The arrays the second region reads, as it finds them, typed as plain index functions. -/
abbrev bXwr (c : Dev nD) : S800000x96.Idx → EReal := V c main_v31
abbrev bEa (c : Dev nD) : S800000x32.Idx → EReal := V c main_arg1
abbrev bNv (c : Dev nD) : S800000x1.Idx → EReal := V c main_v32
abbrev bW2 (c : Dev nD) : S96x32.Idx → EReal := V c main_v5
abbrev bBp (c : Dev nD) : S1x96.Idx → EReal := V c main_v33
abbrev bWe (c : Dev nD) : S32x32.Idx → EReal := V c main_arg6
abbrev bBe (c : Dev nD) : S1x32.Idx → EReal := V c main_v34

set_option maxHeartbeats 16000000 in
/-- WHAT POINT t WRITES BACK is block t of `Gcomb` of the arrays as the region finds them. -/
theorem flushed7_eq (c : Dev nD) (t : Fin cfg1.N) :
    (dat1 V c).flushed 7 t = ((cfg1.win 7).blk t).view.read (Elt Ideal)
      (Gcomb (bXwr V c) (bEa V c) (bNv V c) (bW2 V c) (bBp V c) (bWe V c) (bBe V c)) := by
  show (cfg1.win 7).cut (grid1.coords t) ((dat1 V c).after 7 t) = _
  rw [after1_7]
  unfold out1_7
  simp only [View.ld_unit_zero (S := S4000x96) hz1, View.ld_unit_zero (S := S4000x32) hz1, View.ld_unit_zero (S := S4000x1) hz1,
    View.ld_unit_zero (S := S96x32) hz1, View.ld_unit_zero (S := S1x96) hz1, View.ld_unit_zero (S := S32x32) hz1,
    View.ld_unit_zero (S := S1x32) hz1]
  obtain ⟨e00, e01, e10, e11, e20, e21, e30, e31, e40, e41, e50, e51, e60, e61, e70, e71⟩ := idx_facts1 t
  funext j
  obtain ⟨p, q, rfl⟩ : ∃ (p : Fin 4000) (q : Fin 128), j = ix2 p q := ⟨j 0, j 1, eq_ix2 j⟩
  have hp : p.val < 4000 := p.isLt
  have hq128 : q.val < 128 := q.isLt
  show _ = Gcomb (bXwr V c) (bEa V c) (bNv V c) (bW2 V c) (bBp V c) (bWe V c) (bBe V c) (((cfg1.win 7).blk t).view.emb (ix2 p q))
  have c1 : ((((cfg1.win 7).blk t).view.emb (ix2 p q)) 1).val = q.val := by
    show win1_7.index t (1 : Fin 2) * 128 + 1 * q.val = q.val; omega
  unfold Gcomb
  by_cases hq : q.val < 96
  · rw [if_pos (by rw [c1]; exact hq)]
    refine (canon_left _ _ p ⟨q.val, hq⟩).trans ?_
    refine (peer_apply (iblk1 V c 1 t) (iblk1 V c 3 t) (iblk1 V c 0 t) (iblk1 V c 4 t) (iblk1 V c 2 t) p ⟨q.val, hq⟩).trans ?_
    show bNv V c (((cfg1.win 2).blk t).view.emb (ix2 p (0 : Fin 1)))
        * (((∑ k : Fin 32, bEa V c (((cfg1.win 1).blk t).view.emb (ix2 p k)) * bW2 V c (((cfg1.win 3).blk t).view.emb (ix2 (⟨q.val, hq⟩ : Fin 96) k)))
            + bXwr V c (((cfg1.win 0).blk t).view.emb (ix2 p (⟨q.val, hq⟩ : Fin 96))))
          + bBp V c (((cfg1.win 4).blk t).view.emb (ix2 (0 : Fin 1) (⟨q.val, hq⟩ : Fin 96))))
      = _
    unfold peerAt
    have h2 : ((cfg1.win 2).blk t).view.emb (ix2 p (0 : Fin 1)) = ix2 ((((cfg1.win 7).blk t).view.emb (ix2 p q)) 0) (0 : Fin 1) := by
      funext a; apply Fin.ext
      match a with
      | ⟨0, _⟩ => show win1_2.index t (0 : Fin 2) * 4000 + 1 * p.val = win1_7.index t (0 : Fin 2) * 4000 + 1 * p.val; omega
      | ⟨1, _⟩ => show win1_2.index t (1 : Fin 2) * 1 + 1 * 0 = 0; omega
    have h1 : ∀ k : Fin 32, ((cfg1.win 1).blk t).view.emb (ix2 p k) = ix2 ((((cfg1.win 7).blk t).view.emb (ix2 p q)) 0) k := by
      intro k; funext a; apply Fin.ext
      match a with
      | ⟨0, _⟩ => show win1_1.index t (0 : Fin 2) * 4000 + 1 * p.val = win1_7.index t (0 : Fin 2) * 4000 + 1 * p.val; omega
      | ⟨1, _⟩ => show win1_1.index t (1 : Fin 2) * 32 + 1 * k.val = k.val; omega
    have h3 : ∀ k : Fin 32, ((cfg1.win 3).blk t).view.emb (ix2 (⟨q.val, hq⟩ : Fin 96) k)
        = ix2 (⟨((((cfg1.win 7).blk t).view.emb (ix2 p q)) 1).val % 96, Nat.mod_lt _ (by decide)⟩ : Fin 96) k := by
      intro k; funext a; apply Fin.ext
      match a with
      | ⟨0, _⟩ => show win1_3.index t (0 : Fin 2) * 96 + 1 * q.val = (win1_7.index t (1 : Fin 2) * 128 + 1 * q.val) % 96; omega
      | ⟨1, _⟩ => show win1_3.index t (1 : Fin 2) * 32 + 1 * k.val = k.val; omega
    have h0 : ((cfg1.win 0).blk t).view.emb (ix2 p (⟨q.val, hq⟩ : Fin 96))
        = ix2 ((((cfg1.win 7).blk t).view.emb (ix2 p q)) 0) (⟨((((cfg1.win 7).blk t).view.emb (ix2 p q)) 1).val % 96, Nat.mod_lt _ (by decide)⟩ : Fin 96) := by
      funext a; apply Fin.ext
      match a with
      | ⟨0, _⟩ => show win1_0.index t (0 : Fin 2) * 4000 + 1 * p.val = win1_7.index t (0 : Fin 2) * 4000 + 1 * p.val; omega
      | ⟨1, _⟩ => show win1_0.index t (1 : Fin 2) * 96 + 1 * q.val = (win1_7.index t (1 : Fin 2) * 128 + 1 * q.val) % 96; omega
    have h4 : ((cfg1.win 4).blk t).view.emb (ix2 (0 : Fin 1) (⟨q.val, hq⟩ : Fin 96))
        = ix2 (0 : Fin 1) (⟨((((cfg1.win 7).blk t).view.emb (ix2 p q)) 1).val % 96, Nat.mod_lt _ (by decide)⟩ : Fin 96) := by
      funext a; apply Fin.ext
      match a with
      | ⟨0, _⟩ => show win1_4.index t (0 : Fin 2) * 1 + 1 * 0 = 0; omega
      | ⟨1, _⟩ => show win1_4.index t (1 : Fin 2) * 96 + 1 * q.val = (win1_7.index t (1 : Fin 2) * 128 + 1 * q.val) % 96; omega
    simp only [h0, h1, h2, h3, h4]
    rfl
  · rw [if_neg (by rw [c1]; exact hq)]
    have hq32 : q.val - 96 < 32 := by omega
    have hqe : (ix2 p q : S4000x128.Idx) = ix2 p (⟨96 + (⟨q.val - 96, hq32⟩ : Fin 32).val, by show 96 + (q.val - 96) < 128; omega⟩ : Fin 128) := by
      funext a; apply Fin.ext
      match a with
      | ⟨0, _⟩ => rfl
      | ⟨1, _⟩ => show q.val = 96 + (q.val - 96); omega
    rw [hqe]
    refine (canon_right _ _ p ⟨q.val - 96, hq32⟩).trans ?_
    refine (edge_apply (iblk1 V c 1 t) (iblk1 V c 5 t) (iblk1 V c 6 t) p ⟨q.val - 96, hq32⟩).trans ?_
    rw [← hqe]
    show max ((∑ k : Fin 32, bEa V c (((cfg1.win 1).blk t).view.emb (ix2 p k)) * bWe V c (((cfg1.win 5).blk t).view.emb (ix2 (⟨q.val - 96, hq32⟩ : Fin 32) k)))
          + bBe V c (((cfg1.win 6).blk t).view.emb (ix2 (0 : Fin 1) (⟨q.val - 96, hq32⟩ : Fin 32)))) Z
      = _
    unfold edgeAt
    have h1 : ∀ k : Fin 32, ((cfg1.win 1).blk t).view.emb (ix2 p k) = ix2 ((((cfg1.win 7).blk t).view.emb (ix2 p q)) 0) k := by
      intro k; funext a; apply Fin.ext
      match a with
      | ⟨0, _⟩ => show win1_1.index t (0 : Fin 2) * 4000 + 1 * p.val = win1_7.index t (0 : Fin 2) * 4000 + 1 * p.val; omega
      | ⟨1, _⟩ => show win1_1.index t (1 : Fin 2) * 32 + 1 * k.val = k.val; omega
    have h5 : ∀ k : Fin 32, ((cfg1.win 5).blk t).view.emb (ix2 (⟨q.val - 96, hq32⟩ : Fin 32) k)
        = ix2 (⟨(((((cfg1.win 7).blk t).view.emb (ix2 p q)) 1).val - 96) % 32, Nat.mod_lt _ (by decide)⟩ : Fin 32) k := by
      intro k; funext a; apply Fin.ext
      match a with
      | ⟨0, _⟩ => show win1_5.index t (0 : Fin 2) * 32 + 1 * (q.val - 96) = ((win1_7.index t (1 : Fin 2) * 128 + 1 * q.val) - 96) % 32; omega
      | ⟨1, _⟩ => show win1_5.index t (1 : Fin 2) * 32 + 1 * k.val = k.val; omega
    have h6 : ((cfg1.win 6).blk t).view.emb (ix2 (0 : Fin 1) (⟨q.val - 96, hq32⟩ : Fin 32))
        = ix2 (0 : Fin 1) (⟨(((((cfg1.win 7).blk t).view.emb (ix2 p q)) 1).val - 96) % 32, Nat.mod_lt _ (by decide)⟩ : Fin 32) := by
      funext a; apply Fin.ext
      match a with
      | ⟨0, _⟩ => show win1_6.index t (0 : Fin 2) * 1 + 1 * 0 = 0; omega
      | ⟨1, _⟩ => show win1_6.index t (1 : Fin 2) * 32 + 1 * (q.val - 96) = ((win1_7.index t (1 : Fin 2) * 128 + 1 * q.val) - 96) % 32; omega
    simp only [h1, h5, h6]
    rfl

/-- An index is in point t's block iff each coordinate is in the block's range. -/
theorem mem_blk7 (t : Fin cfg1.N) (i : S800000x128.Idx) :
    i ∈ ((cfg1.win 7).blk t).view.set ↔ ∀ a : Fin 2, win1_7.index t a * S4000x128.size a ≤ (i a).val ∧ (i a).val < win1_7.index t a * S4000x128.size a + S4000x128.size a := by
  show i ∈ ((View.whole main_v35).slice (win1_7.rect t)).set ↔ _
  rw [View.set_slice_whole, Rect.mem_set_unit]
  exact Iff.rfl

/-- Every edge's row is in the block of the point its number divided by 4000 names. -/
theorem cover7 (i : S800000x128.Idx) : ∃ t : Fin cfg1.N, (cfg1.win 7).flush t = true ∧ i ∈ ((cfg1.win 7).blk t).view.set := by
  have hi0 : (i 0).val < 800000 := (i 0).isLt
  have hi1 : (i 1).val < 128 := (i 1).isLt
  let t : Fin cfg1.N := ⟨(i 0).val / 4000, by show _ < grid1.N; rw [N_1]; omega⟩
  obtain ⟨e00, e01, e10, e11, e20, e21, e30, e31, e40, e41, e50, e51, e60, e61, e70, e71⟩ := idx_facts1 t
  have ht : t.val = (i 0).val / 4000 := rfl
  refine ⟨t, flush1_7 t, ?_⟩
  rw [mem_blk7]
  intro a
  match a with
  | ⟨0, _⟩ => show win1_7.index t (0 : Fin 2) * 4000 ≤ (i 0).val ∧ (i 0).val < win1_7.index t (0 : Fin 2) * 4000 + 4000; omega
  | ⟨1, _⟩ => show win1_7.index t (1 : Fin 2) * 128 ≤ (i 1).val ∧ (i 1).val < win1_7.index t (1 : Fin 2) * 128 + 128; omega

/-- The packed output after the second region, whole. -/
theorem final7 (c : Dev nD) : (dat1 V c).arrAt 7 cfg1.N = Gcomb (bXwr V c) (bEa V c) (bNv V c) (bW2 V c) (bBp V c) (bWe V c) (bBe V c) :=
  (dat1 V c).arrAt_eq_of_cover 7 _ (fun t _ => flushed7_eq V c t) cover7

end Cert.KernelIdeal.KBlocks

end
-- ==== Proof.KChain.lean ====
/- The result buffer of the kernel program after the whole run, as one term of the nine argument arrays: the contents of
   each buffer the result depends on, boundary by boundary, from the launch memory to the last host operation. -/
import proofs.«128638_j40037685133334_2_alg».proof.Proof.KIFrameDefs
import proofs.«128638_j40037685133334_2_alg».proof.Proof.KHost
import proofs.«128638_j40037685133334_2_alg».proof.Proof.KBlocks0
import proofs.«128638_j40037685133334_2_alg».proof.Proof.KBlocks1

set_option maxRecDepth 16384

noncomputable section

namespace Cert.KernelIdeal.KChain

open Idealize.ShloMosaic Idealize.ShloMosaic.TcCoe Idealize.ShloMosaic.StableHlo
open Cert.KernelIdeal Cert.KernelIdeal.Gen Cert.KernelIdeal.Fr Cert.KernelIdeal.KHost Cert.KernelIdeal.KBlocks

variable (m : (ℓ : Loc nD τ sig) → Buf (Elt Ideal) ℓ) (c : Dev nD)

/-! ## The arguments as launched, as plain index functions -/

abbrev x0 : S50000x128.Idx → EReal := m ((c : Thread nD τ).loc main_arg0)
abbrev x1 : S800000x32.Idx → EReal := m ((c : Thread nD τ).loc main_arg1)
abbrev x2 : S96x160.Idx → EReal := m ((c : Thread nD τ).loc main_arg2)
abbrev x3 : S96.Idx → EReal := m ((c : Thread nD τ).loc main_arg3)
abbrev x4 : S64x128.Idx → EReal := m ((c : Thread nD τ).loc main_arg4)
abbrev x5 : S64.Idx → EReal := m ((c : Thread nD τ).loc main_arg5)
abbrev x6 : S32x32.Idx → EReal := m ((c : Thread nD τ).loc main_arg6)
abbrev x7 : S32.Idx → EReal := m ((c : Thread nD τ).loc main_arg7)
abbrev x8 : (⟨S2x800000, .i32⟩ : BufTy).Contents (Elt Ideal) := m ((c : Thread nD τ).loc main_arg8)

/-! ## The values the result is built from -/

/-- The two lines of the index array. -/
def row : (⟨S800000, .i32⟩ : BufTy).Contents (Elt Ideal) := idxRow 1 slices_S2x800000_S1x800000_1_0 (x8 m c)
def col : (⟨S800000, .i32⟩ : BufTy).Contents (Elt Ideal) := idxRow 0 slices_S2x800000_S1x800000_0_0 (x8 m c)
/-- The first region's two outputs, whole. -/
def HEGO : S50000x64.Idx → EReal := Gego (x0 m c) (x4 m c) (shapeCast S1x64 (x5 m c) shapeCasts_S64_S1x64)
def XW : S50000x96.Idx → EReal := Gxw (x0 m c) (extractStridedSlice S96x128 ![0, 0] (x2 m c) slices_S96x160_S96x128_0_0)
/-- The second region's output, whole. -/
def COMB : S800000x128.Idx → EReal :=
  Gcomb (Host.gather gather_S50000x96_S800000x1_S800000x96_1_0_n_n_0_1_196 (XW m c) (nidx (row m c))) (x1 m c)
    (shapeCast S800000x1 (nv (row m c)) shapeCasts_S800000_S800000x1)
    (extractStridedSlice S96x32 ![0, 128] (x2 m c) slices_S96x160_S96x32_0_128)
    (shapeCast S1x96 (x3 m c) shapeCasts_S96_S1x96) (x6 m c) (shapeCast S1x32 (x7 m c) shapeCasts_S32_S1x32)

/-! ## After the first host stretch -/

theorem w1_v1 : W1 m c (Proc.devRef .tc main_v1) = row m c := first_row (W0 m c)
theorem w1_v3 : W1 m c (Proc.devRef .tc main_v3) = col m c := first_col (W0 m c)
theorem w1_v4 : W1 m c (Proc.devRef .tc main_v4) = extractStridedSlice S96x128 ![0, 0] (x2 m c) slices_S96x160_S96x128_0_0 := first_w1 (W0 m c)
theorem w1_v5 : W1 m c (Proc.devRef .tc main_v5) = extractStridedSlice S96x32 ![0, 128] (x2 m c) slices_S96x160_S96x32_0_128 := first_w2 (W0 m c)
theorem w1_v6 : W1 m c (Proc.devRef .tc main_v6) = shapeCast S1x64 (x5 m c) shapeCasts_S64_S1x64 := first_bego (W0 m c)
theorem w1_arg0 : W1 m c (Proc.devRef .tc main_arg0) = x0 m c := (Gen.V1_of m c main_arg0 (by decide)).trans rfl
theorem w1_arg1 : W1 m c (Proc.devRef .tc main_arg1) = x1 m c := (Gen.V1_of m c main_arg1 (by decide)).trans rfl
theorem w1_arg3 : W1 m c (Proc.devRef .tc main_arg3) = x3 m c := (Gen.V1_of m c main_arg3 (by decide)).trans rfl
theorem w1_arg4 : W1 m c (Proc.devRef .tc main_arg4) = x4 m c := (Gen.V1_of m c main_arg4 (by decide)).trans rfl
theorem w1_arg6 : W1 m c (Proc.devRef .tc main_arg6) = x6 m c := (Gen.V1_of m c main_arg6 (by decide)).trans rfl
theorem w1_arg7 : W1 m c (Proc.devRef .tc main_arg7) = x7 m c := (Gen.V1_of m c main_arg7 (by decide)).trans rfl

/-! ## After the first region -/

theorem w2_v7_0 : W2 m c (Proc.devRef .tc main_v7_0) = HEGO m c :=
  (W2_v7_0 m c).trans ((final4 (E1 m) c).trans (by
    show Gego (W1 m c (Proc.devRef .tc main_arg0)) (W1 m c (Proc.devRef .tc main_arg4)) (W1 m c (Proc.devRef .tc main_v6)) = _
    rw [w1_arg0 m c, w1_arg4 m c, w1_v6 m c]; rfl))
theorem w2_v7_1 : W2 m c (Proc.devRef .tc main_v7_1) = XW m c :=
  (W2_v7_1 m c).trans ((final5 (E1 m) c).trans (by
    show Gxw (W1 m c (Proc.devRef .tc main_arg0)) (W1 m c (Proc.devRef .tc main_v4)) = _
    rw [w1_arg0 m c, w1_v4 m c]; rfl))
theorem w2_v1 : W2 m c (Proc.devRef .tc main_v1) = row m c := (W2_of_ne m c main_v1 (by decide)).trans (w1_v1 m c)
theorem w2_v3 : W2 m c (Proc.devRef .tc main_v3) = col m c := (W2_of_ne m c main_v3 (by decide)).trans (w1_v3 m c)
theorem w2_v5 : W2 m c (Proc.devRef .tc main_v5) = extractStridedSlice S96x32 ![0, 128] (x2 m c) slices_S96x160_S96x32_0_128 := (W2_of_ne m c main_v5 (by decide)).trans (w1_v5 m c)
theorem w2_arg1 : W2 m c (Proc.devRef .tc main_arg1) = x1 m c := (W2_of_ne m c main_arg1 (by decide)).trans (w1_arg1 m c)
theorem w2_arg3 : W2 m c (Proc.devRef .tc main_arg3) = x3 m c := (W2_of_ne m c main_arg3 (by decide)).trans (w1_arg3 m c)
theorem w2_arg6 : W2 m c (Proc.devRef .tc main_arg6) = x6 m c := (W2_of_ne m c main_arg6 (by decide)).trans (w1_arg6 m c)
theorem w2_arg7 : W2 m c (Proc.devRef .tc main_arg7) = x7 m c := (W2_of_ne m c main_arg7 (by decide)).trans (w1_arg7 m c)

/-! ## After the middle host stretches (the second region's entry) -/

theorem w5_v24 : W5 m c (Proc.devRef .tc main_v24) = nv (row m c) := by
  have h := mid_nv (F := Ideal) (W2 m c); rw [w2_v1 m c] at h; exact h
theorem w5_v32 : W5 m c (Proc.devRef .tc main_v32) = shapeCast S800000x1 (nv (row m c)) shapeCasts_S800000_S800000x1 := by
  have h := mid_nvcol (F := Ideal) (W2 m c); rw [w2_v1 m c] at h; exact h
theorem w5_v31 : W5 m c (Proc.devRef .tc main_v31)
    = Host.gather gather_S50000x96_S800000x1_S800000x96_1_0_n_n_0_1_196 (XW m c) (nidx (row m c)) := by
  have h := mid_xwrow (F := Ideal) (W2 m c); rw [w2_v7_1 m c, w2_v1 m c] at h; exact h
theorem w5_v33 : W5 m c (Proc.devRef .tc main_v33) = shapeCast S1x96 (x3 m c) shapeCasts_S96_S1x96 := by
  have h := mid_bpeer (F := Ideal) (W2 m c); rw [w2_arg3 m c] at h; exact h
theorem w5_v34 : W5 m c (Proc.devRef .tc main_v34) = shapeCast S1x32 (x7 m c) shapeCasts_S32_S1x32 := by
  have h := mid_bedge (F := Ideal) (W2 m c); rw [w2_arg7 m c] at h; exact h
theorem w5_v7_0 : W5 m c (Proc.devRef .tc main_v7_0) = HEGO m c :=
  (Gen.V5_of m (outs m) c main_v7_0 (by decide)).trans ((Gen.V4_of m (outs m) c main_v7_0 (by decide)).trans ((Gen.V3_of m (outs m) c main_v7_0 (by decide)).trans (w2_v7_0 m c)))
theorem w5_v1 : W5 m c (Proc.devRef .tc main_v1) = row m c :=
  (Gen.V5_of m (outs m) c main_v1 (by decide)).trans ((Gen.V4_of m (outs m) c main_v1 (by decide)).trans ((Gen.V3_of m (outs m) c main_v1 (by decide)).trans (w2_v1 m c)))
theorem w5_v3 : W5 m c (Proc.devRef .tc main_v3) = col m c :=
  (Gen.V5_of m (outs m) c main_v3 (by decide)).trans ((Gen.V4_of m (outs m) c main_v3 (by decide)).trans ((Gen.V3_of m (outs m) c main_v3 (by decide)).trans (w2_v3 m c)))
theorem w5_v5 : W5 m c (Proc.devRef .tc main_v5) = extractStridedSlice S96x32 ![0, 128] (x2 m c) slices_S96x160_S96x32_0_128 :=
  (Gen.V5_of m (outs m) c main_v5 (by decide)).trans ((Gen.V4_of m (outs m) c main_v5 (by decide)).trans ((Gen.V3_of m (outs m) c main_v5 (by decide)).trans (w2_v5 m c)))
theorem w5_arg1 : W5 m c (Proc.devRef .tc main_arg1) = x1 m c :=
  (Gen.V5_of m (outs m) c main_arg1 (by decide)).trans ((Gen.V4_of m (outs m) c main_arg1 (by decide)).trans ((Gen.V3_of m (outs m) c main_arg1 (by decide)).trans (w2_arg1 m c)))
theorem w5_arg6 : W5 m c (Proc.devRef .tc main_arg6) = x6 m c :=
  (Gen.V5_of m (outs m) c main_arg6 (by decide)).trans ((Gen.V4_of m (outs m) c main_arg6 (by decide)).trans ((Gen.V3_of m (outs m) c main_arg6 (by decide)).trans (w2_arg6 m c)))

/-! ## After the second region -/

theorem w6_v35 : W6 m c (Proc.devRef .tc main_v35) = COMB m c :=
  (W6_v35 m c).trans ((final7 (E5 m) c).trans (by
    show Gcomb (Gen.V5 m (outsA m) c (Proc.devRef .tc main_v31)) (Gen.V5 m (outsA m) c (Proc.devRef .tc main_arg1))
      (Gen.V5 m (outsA m) c (Proc.devRef .tc main_v32)) (Gen.V5 m (outsA m) c (Proc.devRef .tc main_v5))
      (Gen.V5 m (outsA m) c (Proc.devRef .tc main_v33)) (Gen.V5 m (outsA m) c (Proc.devRef .tc main_arg6))
      (Gen.V5 m (outsA m) c (Proc.devRef .tc main_v34)) = _
    rw [← W5_eq m c, w5_v31 m c, w5_arg1 m c, w5_v32 m c, w5_v5 m c, w5_v33 m c, w5_arg6 m c, w5_v34 m c]; rfl))
theorem w6_v7_0 : W6 m c (Proc.devRef .tc main_v7_0) = HEGO m c := (W6_of_ne m c main_v7_0 (by decide)).trans (w5_v7_0 m c)
theorem w6_v24 : W6 m c (Proc.devRef .tc main_v24) = nv (row m c) := (W6_of_ne m c main_v24 (by decide)).trans (w5_v24 m c)
theorem w6_v1 : W6 m c (Proc.devRef .tc main_v1) = row m c := (W6_of_ne m c main_v1 (by decide)).trans (w5_v1 m c)
theorem w6_v3 : W6 m c (Proc.devRef .tc main_v3) = col m c := (W6_of_ne m c main_v3 (by decide)).trans (w5_v3 m c)

/-! ## The result -/

/-- The result buffer after the whole run, from the nine arguments as launched. -/
theorem kernel_value : W9 m c (Proc.devRef .tc main_v59)
    = finish (HEGO m c) (extractStridedSlice S800000x96 ![0, 0] (COMB m c) slices_S800000x128_S800000x96_0_0)
        (extractStridedSlice S800000x32 ![0, 96] (COMB m c) slices_S800000x128_S800000x32_0_96) (nv (row m c)) (row m c) (col m c) := by
  have h := tail_result (F := Ideal) (W6 m c)
  rw [w6_v7_0 m c, w6_v35 m c, w6_v24 m c, w6_v1 m c, w6_v3 m c] at h
  exact h

end Cert.KernelIdeal.KChain

end
-- ==== Proof.LibRowGather.lean ====
/-
  A row gather read at an index.
  For an operand [N, K] and start indices [R, 1] (one row number per result row; what `x[idx]` of a matrix at a vector of
  row numbers lowers to: offset axis 1, collapsed axis 0, the start index naming axis 0, slices of one whole row), result
  element (e, k) is the operand at (r, k), where r is the e-th start index read as a signed integer and clamped into
  [0, N − 1]. The row r does not depend on K: two operands with the same number of rows gathered at the same indices read
  the same rows.
-/
import Idealize.ShloMosaic.PureOps.ShapeOps
import Idealize.ShloMosaic.Lib.ValueIdx

noncomputable section

namespace Cert.LibRowGather

open Idealize.ShloMosaic Idealize.ShloMosaic.ValueIdx

variable {α : Type}

/-- The dimension numbers of a row gather; their conditions are decided on a program's literal shapes. -/
abbrev rowDims (N K R : Nat) (wf : GatherDims.WF ⟨2, ![N, K]⟩ ⟨2, ![R, 1]⟩ ⟨2, ![R, K]⟩ [1] [0] [] [0] [] 1 ![1, K]) :
    GatherDims ⟨2, ![N, K]⟩ ⟨2, ![R, 1]⟩ ⟨2, ![R, K]⟩ where
  offsetDims := [1]
  collapsedSliceDims := [0]
  operandBatchingDims := []
  startIndicesBatchingDims := []
  startIndexMap := [0]
  indexVectorDim := 1
  sliceSizes := ![1, K]
  wf := wf

/-- The row the e-th result row reads: the e-th start index, signed, clamped into [0, N − 1]. -/
def rowOf {R w : Nat} (N : Nat) (hN : 0 < N) (idx : IVec ⟨2, ![R, 1]⟩ w) (e : Fin R) : Fin N :=
  ⟨min (idx (ix2 e (0 : Fin 1))).toInt.toNat (N - 1), by omega⟩

/-- THE ROW GATHER READ AT (e, k): the operand at (rowOf e, k). -/
theorem gather_row_apply {N K R w : Nat} (hN : 0 < N)
    (wf : GatherDims.WF ⟨2, ![N, K]⟩ ⟨2, ![R, 1]⟩ ⟨2, ![R, K]⟩ [1] [0] [] [0] [] 1 ![1, K])
    (x : (⟨2, ![N, K]⟩ : Shape).Idx → α) (idx : IVec ⟨2, ![R, 1]⟩ w) (e : Fin R) (k : Fin K) :
    Host.gather (rowDims N K R wf) x idx (ix2 e k) = x (ix2 (rowOf N hN idx e) k) := by
  unfold Host.gather
  congr 1
  funext a
  refine Fin.ext ?_
  show (rowDims N K R wf).start (ix2 e k) idx a + (rowDims N K R wf).batchCoord (ix2 e k) a + (rowDims N K R wf).offCoord (ix2 e k) a = _
  rw [GatherDims.batchCoord_eq_zero _ _ _ List.not_mem_nil, Nat.add_zero]
  match a with
  | ⟨0, _⟩ =>
    show (rowDims N K R wf).start (ix2 e k) idx (0 : Fin 2) + (rowDims N K R wf).offCoord (ix2 e k) (0 : Fin 2)
      = (rowOf N hN idx e).val
    rw [GatherDims.offCoord_eq_zero _ _ _ (fun h => ((GatherDims.mem_sKept _ _).mp h).1 (List.mem_singleton.mpr rfl)), Nat.add_zero]
    unfold GatherDims.start
    rw [dif_pos (show (0 : Fin 2) ∈ (rowDims N K R wf).startIndexMap from List.mem_singleton.mpr rfl)]
    have hsi : (rowDims N K R wf).siIdx (ix2 e k) ⟨List.idxOf (0 : Fin 2) (rowDims N K R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N K R wf).start (ix2 e k) idx (1 : Fin 2) + (rowDims N K R wf).offCoord (ix2 e k) (1 : Fin 2) = k.val
    have h1 : ¬ (1 : Fin 2) ∈ ([0] : List (Fin 2)) := by decide
    have hs : (rowDims N K R wf).start (ix2 e k) idx (1 : Fin 2) = 0 := by
      unfold GatherDims.start
      rw [dif_neg (show ¬ (1 : Fin 2) ∈ (rowDims N K R wf).startIndexMap from h1)]
    have hk : (1 : Fin 2) ∈ (rowDims N K R wf).sKept :=
      (GatherDims.mem_sKept _ _).mpr ⟨h1, List.not_mem_nil⟩
    have ho : (rowDims N K R wf).offCoord (ix2 e k) (1 : Fin 2) = k.val := by
      unfold GatherDims.offCoord
      rw [dif_pos hk]
      rfl
    rw [hs, ho, Nat.zero_add]

end Cert.LibRowGather

end
-- ==== Proof.KPieces.lean ====
/-
  The kernel program's four intermediate arrays, read at an index, as plain formulas of the nine arguments.
  With rowOf e the node that edge e's row index names (negative indices wrapped, then clamped into range):
    h_ego(n, j)  = max (Σ_{k<128} x(n,k) · Wego(j,k) + bego(j)) 0
    h_e(e, j)    = max (Σ_{k<32} ea(e,k) · Wedge(j,k) + bedge(j)) 0
    peer(e, j)   = nv(e) · ((Σ_{k<32} ea(e,k) · Wpeer(j,128+k) + Σ_{k<128} x(rowOf e,k) · Wpeer(j,k)) + bpeer(j))
  The last line is where the hoist shows: the kernel multiplies x by the first 128 columns of Wpeer once per NODE and
  gathers the product's rows, so the gathered entry (e, j) is the product's entry (rowOf e, j).
-/
import proofs.«128638_j40037685133334_2_alg».proof.Proof.KHost
import proofs.«128638_j40037685133334_2_alg».proof.Proof.KBlocks0
import proofs.«128638_j40037685133334_2_alg».proof.Proof.KBlocks1
import proofs.«128638_j40037685133334_2_alg».proof.Proof.LibRowGather
import proofs.«128638_j40037685133334_2_alg».proof.Proof.LibColumn
import Idealize.ShloMosaic.Lib.ValueLayout

noncomputable section

namespace Cert.KernelIdeal.KPieces

open Idealize.ShloMosaic Idealize.ShloMosaic.ValueIdx
open Cert.KernelIdeal Cert.KernelIdeal.Gen Cert.KernelIdeal.Pay Cert.KernelIdeal.KBlocks Cert.LibRowGather

variable (x0 : S50000x128.Idx → EReal) (x1 : S800000x32.Idx → EReal) (x2 : S96x160.Idx → EReal) (x3 : S96.Idx → EReal)
  (x4 : S64x128.Idx → EReal) (x5 : S64.Idx → EReal) (x6 : S32x32.Idx → EReal) (x7 : S32.Idx → EReal)
  (row : (⟨S800000, .i32⟩ : BufTy).Contents (Elt Ideal))

/-- h_ego, whole, from the arguments. -/
def kHego : S50000x64.Idx → EReal := Gego x0 x4 (shapeCast S1x64 x5 shapeCasts_S64_S1x64)

/-- The hoisted product x · Wpeer[:, :128]ᵀ, whole. -/
def kXW : S50000x96.Idx → EReal := Gxw x0 (extractStridedSlice S96x128 ![0, 0] x2 slices_S96x160_S96x128_0_0)

/-- The second region's packed output, whole. -/
def kComb : S800000x128.Idx → EReal :=
  Gcomb (Host.gather gather_S50000x96_S800000x1_S800000x96_1_0_n_n_0_1_196 (kXW x0 x2) (KHost.nidx (F := Ideal) row)) x1
    (shapeCast S800000x1 (KHost.nv (F := Ideal) row) shapeCasts_S800000_S800000x1)
    (extractStridedSlice S96x32 ![0, 128] x2 slices_S96x160_S96x32_0_128)
    (shapeCast S1x96 x3 shapeCasts_S96_S1x96) x6 (shapeCast S1x32 x7 shapeCasts_S32_S1x32)

/-- The peer messages: the packed output's first 96 columns. -/
def kPeer : S800000x96.Idx → EReal :=
  extractStridedSlice S800000x96 ![0, 0] (kComb x0 x1 x2 x3 x6 x7 row) slices_S800000x128_S800000x96_0_0

/-- The edge features: the packed output's last 32 columns. -/
def kHe : S800000x32.Idx → EReal :=
  extractStridedSlice S800000x32 ![0, 96] (kComb x0 x1 x2 x3 x6 x7 row) slices_S800000x128_S800000x32_0_96

/-- The node edge e's row index names. -/
def rowAt (e : Fin 800000) : Fin 50000 := rowOf 50000 (by decide) (KHost.nidx (F := Ideal) row) e

/-- h_ego at (n, j). -/
theorem hego_apply (n : Fin 50000) (j : Fin 64) :
    kHego x0 x4 x5 (ix2 n j) = max ((∑ k : Fin 128, x0 (ix2 n k) * x4 (ix2 j k)) + x5 (ix1 j)) Z := by
  unfold kHego Gego
  refine congrArg₂ max (congrArg₂ (· + ·) rfl ?_) rfl
  exact shapeCast_a_1a_apply x5 _ (0 : Fin 1) j

/-- h_e at (e, j). -/
theorem he_apply (e : Fin 800000) (j : Fin 32) :
    kHe x0 x1 x2 x3 x6 x7 row (ix2 e j) = max ((∑ k : Fin 32, x1 (ix2 e k) * x6 (ix2 j k)) + x7 (ix1 j)) Z := by
  have hj : j.val < 32 := j.isLt
  unfold kHe
  refine (slice2_axis1_apply 96 _ _ e j ⟨96 + j.val, by omega⟩ rfl).trans ?_
  unfold kComb Gcomb
  rw [if_neg (by show ¬ (96 + j.val < 96); omega)]
  unfold edgeAt
  have hc : (⟨((96 + j.val) - 96) % 32, Nat.mod_lt _ (by decide)⟩ : Fin 32) = j := Fin.ext (by show (96 + j.val - 96) % 32 = j.val; omega)
  show max ((∑ k : Fin 32, x1 (ix2 e k) * x6 (ix2 (⟨((96 + j.val) - 96) % 32, Nat.mod_lt _ (by decide)⟩ : Fin 32) k))
      + shapeCast S1x32 x7 shapeCasts_S32_S1x32 (ix2 (0 : Fin 1) (⟨((96 + j.val) - 96) % 32, Nat.mod_lt _ (by decide)⟩ : Fin 32))) Z = _
  rw [hc]
  refine congrArg₂ max (congrArg₂ (· + ·) rfl ?_) rfl
  exact shapeCast_a_1a_apply x7 _ (0 : Fin 1) j

/-- The hoisted product at (n, j). -/
theorem xw_apply' (n : Fin 50000) (j : Fin 96) :
    kXW x0 x2 (ix2 n j) = ∑ k : Fin 128, x0 (ix2 n k) * x2 (ix2 j ⟨k.val, by have := k.isLt; omega⟩) := by
  unfold kXW Gxw
  refine Finset.sum_congr rfl fun k _ => ?_
  refine congrArg (x0 (ix2 n k) * ·) ?_
  exact slice2_axis1_apply 0 x2 _ j k ⟨k.val, by have := k.isLt; omega⟩ (by show k.val = 0 + k.val; omega)

/-- The peer messages at (e, j). -/
theorem peer_apply' (e : Fin 800000) (j : Fin 96) :
    kPeer x0 x1 x2 x3 x6 x7 row (ix2 e j)
      = KHost.nv (F := Ideal) row (ix1 e)
        * (((∑ k : Fin 32, x1 (ix2 e k) * x2 (ix2 j ⟨128 + k.val, by have := k.isLt; omega⟩))
            + ∑ k : Fin 128, x0 (ix2 (rowAt row e) k) * x2 (ix2 j ⟨k.val, by have := k.isLt; omega⟩))
          + x3 (ix1 j)) := by
  have hj : j.val < 96 := j.isLt
  unfold kPeer
  refine (slice2_axis1_apply 0 _ _ e j ⟨j.val, by omega⟩ (by show j.val = 0 + j.val; omega)).trans ?_
  unfold kComb Gcomb
  rw [if_pos (by show j.val < 96; exact hj)]
  unfold peerAt
  have hc : (⟨j.val % 96, Nat.mod_lt _ (by decide)⟩ : Fin 96) = j := Fin.ext (by show j.val % 96 = j.val; omega)
  show shapeCast S800000x1 (KHost.nv (F := Ideal) row) shapeCasts_S800000_S800000x1 (ix2 e (0 : Fin 1))
      * (((∑ k : Fin 32, x1 (ix2 e k) * extractStridedSlice S96x32 ![0, 128] x2 slices_S96x160_S96x32_0_128 (ix2 (⟨j.val % 96, Nat.mod_lt _ (by decide)⟩ : Fin 96) k))
          + Host.gather gather_S50000x96_S800000x1_S800000x96_1_0_n_n_0_1_196 (kXW x0 x2) (KHost.nidx (F := Ideal) row) (ix2 e (⟨j.val % 96, Nat.mod_lt _ (by decide)⟩ : Fin 96)))
        + shapeCast S1x96 x3 shapeCasts_S96_S1x96 (ix2 (0 : Fin 1) (⟨j.val % 96, Nat.mod_lt _ (by decide)⟩ : Fin 96))) = _
  rw [hc]
  refine congrArg₂ (· * ·) ?_ (congrArg₂ (· + ·) (congrArg₂ (· + ·) ?_ ?_) ?_)
  · exact Cert.LibColumn.shapeCast_a_a1_apply _ _ e (0 : Fin 1)
  · refine Finset.sum_congr rfl fun k _ => ?_
    refine congrArg (x1 (ix2 e k) * ·) ?_
    exact slice2_axis1_apply 128 x2 _ j k ⟨128 + k.val, by have := k.isLt; omega⟩ rfl
  · refine (gather_row_apply (N := 50000) (K := 96) (R := 800000) (by decide)
      gather_S50000x96_S800000x1_S800000x96_1_0_n_n_0_1_196.wf (kXW x0 x2) (KHost.nidx (F := Ideal) row) e j).trans ?_
    exact xw_apply' x0 x2 (rowAt row e) j
  · exact shapeCast_a_1a_apply x3 _ (0 : Fin 1) j

end Cert.KernelIdeal.KPieces

end
-- ==== Proof.PeerAlgebra.lean ====
/-
  The law that joins the two peer branches.
  The reference contracts the 160 columns of [x[row] | edge_attrs] against Wpeer in one sum; the kernel program adds the
  contraction of the 32 edge columns to the (hoisted, gathered) contraction of the 128 node columns. A sum over 160 indices
  is the sum over the first 128 plus the sum over the last 32, and addition of extended reals is commutative, so the two
  agree term for term. No finiteness is needed: nothing is distributed or cancelled.
-/
import Idealize.ShloMosaic.PureOps.Ideal
import Idealize.ShloMosaic.Lib.ValueIdx

noncomputable section

namespace Cert.PeerAlgebra

open Idealize.ShloMosaic Idealize.ShloMosaic.ValueIdx

/-- A sum over 160 indices, split at 128. -/
theorem sum_split (f : Fin 160 → EReal) :
    ∑ k : Fin 160, f k = (∑ k : Fin 128, f ⟨k.val, by have := k.isLt; omega⟩) + ∑ k : Fin 32, f ⟨128 + k.val, by have := k.isLt; omega⟩ := by
  have h := Fin.sum_univ_add (a := 128) (b := 32) (f : Fin (128 + 32) → EReal)
  exact h.trans (congrArg₂ (· + ·) (Finset.sum_congr rfl fun k _ => rfl) (Finset.sum_congr rfl fun k _ => rfl))

/-- The reference's peer message equals the kernel program's, entry by entry, given how the reference's pieces read. -/
theorem peer_eq
    (x0 : (⟨2, ![50000, 128]⟩ : Shape).Idx → EReal) (x1 : (⟨2, ![800000, 32]⟩ : Shape).Idx → EReal)
    (x2 : (⟨2, ![96, 160]⟩ : Shape).Idx → EReal) (x3 : (⟨1, ![96]⟩ : Shape).Idx → EReal)
    (peer : (⟨2, ![800000, 96]⟩ : Shape).Idx → EReal) (cat : (⟨2, ![800000, 160]⟩ : Shape).Idx → EReal)
    (gx : (⟨2, ![800000, 128]⟩ : Shape).Idx → EReal) (nv : (⟨1, ![800000]⟩ : Shape).Idx → EReal) (ρ : Fin 800000 → Fin 50000)
    (hd : ∀ (e : Fin 800000) (j : Fin 96), peer (ix2 e j) = nv (ix1 e) * ((∑ k : Fin 160, cat (ix2 e k) * x2 (ix2 j k)) + x3 (ix1 j)))
    (hl : ∀ (e : Fin 800000) (k : Fin 128), cat (ix2 e ⟨k.val, by have := k.isLt; omega⟩) = gx (ix2 e k))
    (hr : ∀ (e : Fin 800000) (k : Fin 32), cat (ix2 e ⟨128 + k.val, by have := k.isLt; omega⟩) = x1 (ix2 e k))
    (hg : ∀ (e : Fin 800000) (k : Fin 128), gx (ix2 e k) = x0 (ix2 (ρ e) k))
    (e : Fin 800000) (j : Fin 96) :
    peer (ix2 e j)
      = nv (ix1 e) * (((∑ k : Fin 32, x1 (ix2 e k) * x2 (ix2 j ⟨128 + k.val, by have := k.isLt; omega⟩))
          + ∑ k : Fin 128, x0 (ix2 (ρ e) k) * x2 (ix2 j ⟨k.val, by have := k.isLt; omega⟩)) + x3 (ix1 j)) := by
  rw [hd e j, sum_split (fun k => cat (ix2 e k) * x2 (ix2 j k))]
  refine congrArg (nv (ix1 e) * ·) (congrArg (· + x3 (ix1 j)) ?_)
  rw [add_comm]
  refine congrArg₂ (· + ·) (Finset.sum_congr rfl fun k _ => ?_) (Finset.sum_congr rfl fun k _ => ?_)
  · show cat (ix2 e ⟨128 + k.val, _⟩) * x2 (ix2 j ⟨128 + k.val, _⟩) = _
    rw [hr e k]
  · show cat (ix2 e ⟨k.val, _⟩) * x2 (ix2 j ⟨k.val, _⟩) = _
    rw [hl e k, hg e k]

end Cert.PeerAlgebra

end
-- ==== Proof.Bridge.lean ====
/-
  The two programs' results are one function of the arguments.
  Both results are the common finishing function (two aggregations of the edge features, the clamped aggregation of the
  peer messages, the join) of four arrays and the two index rows. The index rows are the same slices of the same
  argument. The four arrays agree:
    h_ego and the edge features entry by entry (the same sums, bias and clamp on both sides);
    norm_val because rsqrt(max(d,1)) = d^(-1/2) for the positive natural numbers a degree can be;
    the peer messages by splitting the 160-term contraction at 128 and reading the gathered rows of x through the same
    row numbers as the gathered rows of the hoisted product.
-/
import proofs.«128638_j40037685133334_2_alg».proof.Proof.RefShape
import proofs.«128638_j40037685133334_2_alg».proof.Proof.RefArrays
import proofs.«128638_j40037685133334_2_alg».proof.Proof.RefEgoEdge
import proofs.«128638_j40037685133334_2_alg».proof.Proof.KChain
import proofs.«128638_j40037685133334_2_alg».proof.Proof.KPieces
import proofs.«128638_j40037685133334_2_alg».proof.Proof.PeerAlgebra
import proofs.«128638_j40037685133334_2_alg».proof.Proof.LibRowGather

noncomputable section

namespace Cert.Bridge

open Idealize.ShloMosaic Idealize.ShloMosaic.ValueIdx Cert.ReferenceIdeal.ReadP Cert.LibRowGather
open Cert.KernelIdeal.KPieces

variable (x0 : (⟨2, ![50000, 128]⟩ : Shape).Idx → EReal) (x1 : (⟨2, ![800000, 32]⟩ : Shape).Idx → EReal)
  (x2 : (⟨2, ![96, 160]⟩ : Shape).Idx → EReal) (x3 : (⟨1, ![96]⟩ : Shape).Idx → EReal)
  (x4 : (⟨2, ![64, 128]⟩ : Shape).Idx → EReal) (x5 : (⟨1, ![64]⟩ : Shape).Idx → EReal)
  (x6 : (⟨2, ![32, 32]⟩ : Shape).Idx → EReal) (x7 : (⟨1, ![32]⟩ : Shape).Idx → EReal)
  (x8 : (⟨Cert.ReferenceIdeal.S2x800000, .i32⟩ : BufTy).Contents (Elt Ideal))

/-- h_ego: the same array in both programs. -/
theorem ego_eq : val_main_v9 (F := Ideal) x0 x4 x5 = kHego x0 x4 x5 := by
  funext i
  obtain ⟨n, j, rfl⟩ : ∃ (n : Fin 50000) (j : Fin 64), i = ix2 n j := ⟨i 0, i 1, eq_ix2 i⟩
  exact (Cert.ReferenceIdeal.RefEgoEdge.ego_apply x0 x4 x5 n j).trans (hego_apply x0 x4 x5 n j).symm

/-- The edge features: the same array in both programs. -/
theorem edge_eq (row : (⟨Cert.KernelIdeal.S800000, .i32⟩ : BufTy).Contents (Elt Ideal)) :
    val_main_v61 (F := Ideal) x1 x6 x7 = kHe x0 x1 x2 x3 x6 x7 row := by
  funext i
  obtain ⟨e, j, rfl⟩ : ∃ (e : Fin 800000) (j : Fin 32), i = ix2 e j := ⟨i 0, i 1, eq_ix2 i⟩
  exact (Cert.ReferenceIdeal.RefEgoEdge.edge_apply x1 x6 x7 e j).trans (he_apply x0 x1 x2 x3 x6 x7 row e j).symm

/-- The reference's start indices for its gather of x are the wrapped row numbers. -/
theorem gx_idx : val_main_v41 (F := Ideal) x8 = Cert.KernelIdeal.KHost.nidx (F := Ideal) (val_main_v1 (F := Ideal) x8) := by
  unfold val_main_v41 val_main_v40 val_main_v39 val_main_v38 val_main_c_10 val_main_v37 val_main_v36 val_main_c_9 Cert.KernelIdeal.KHost.nidx
  rfl

/-- The reference's gathered rows of x, at (e, k): x at the node edge e's row index names. -/
theorem gx_apply (e : Fin 800000) (k : Fin 128) :
    val_main_v42 (F := Ideal) x0 x8 (ix2 e k) = x0 (ix2 (rowAt (val_main_v1 (F := Ideal) x8) e) k) := by
  unfold val_main_v42
  rw [gx_idx]
  exact gather_row_apply (N := 50000) (K := 128) (R := 800000) (by decide)
    Cert.ReferenceIdeal.gather_S50000x128_S800000x1_S800000x128_1_0_n_n_0_1_1128.wf x0 _ e k

/-- The peer messages: the same array in both programs. -/
theorem peer_eq : val_main_v51 (F := Ideal) x0 x1 x2 x3 x8 = kPeer x0 x1 x2 x3 x6 x7 (val_main_v1 (F := Ideal) x8) := by
  funext i
  obtain ⟨e, j, rfl⟩ : ∃ (e : Fin 800000) (j : Fin 96), i = ix2 e j := ⟨i 0, i 1, eq_ix2 i⟩
  refine (Cert.PeerAlgebra.peer_eq x0 x1 x2 x3 (val_main_v51 (F := Ideal) x0 x1 x2 x3 x8) (val_main_v43 (F := Ideal) x0 x1 x8)
    (val_main_v42 (F := Ideal) x0 x8) (val_main_v35 (F := Ideal) x8) (rowAt (val_main_v1 (F := Ideal) x8))
    (Cert.ReferenceIdeal.RefValue.peer_apply x0 x1 x2 x3 x8) (Cert.ReferenceIdeal.RefValue.cat_apply_left x0 x1 x8)
    (Cert.ReferenceIdeal.RefValue.cat_apply_right x0 x1 x8) (gx_apply x0 x8) e j).trans ?_
  rw [Cert.RefShape.ref_nv_eq]
  exact (peer_apply' x0 x1 x2 x3 x6 x7 (val_main_v1 (F := Ideal) x8) e j).symm

/-- THE REFERENCE'S RESULT as the common finishing function of the kernel program's four arrays. -/
theorem ref_value :
    val_main_v79 (F := Ideal) x0 x1 x2 x3 x4 x5 x6 x7 x8
      = Cert.KernelIdeal.KHost.finish (F := Ideal) (kHego x0 x4 x5)
          (kPeer x0 x1 x2 x3 x6 x7 (Cert.KernelIdeal.KHost.idxRow (F := Ideal) 1 Cert.KernelIdeal.Gen.slices_S2x800000_S1x800000_1_0 x8))
          (kHe x0 x1 x2 x3 x6 x7 (Cert.KernelIdeal.KHost.idxRow (F := Ideal) 1 Cert.KernelIdeal.Gen.slices_S2x800000_S1x800000_1_0 x8))
          (Cert.KernelIdeal.KHost.nv (F := Ideal) (Cert.KernelIdeal.KHost.idxRow (F := Ideal) 1 Cert.KernelIdeal.Gen.slices_S2x800000_S1x800000_1_0 x8))
          (Cert.KernelIdeal.KHost.idxRow (F := Ideal) 1 Cert.KernelIdeal.Gen.slices_S2x800000_S1x800000_1_0 x8)
          (Cert.KernelIdeal.KHost.idxRow (F := Ideal) 0 Cert.KernelIdeal.Gen.slices_S2x800000_S1x800000_0_0 x8) := by
  rw [Cert.RefShape.ref_finish, ego_eq, peer_eq x0 x1 x2 x3 x6 x7 x8, edge_eq x0 x1 x2 x3 x6 x7 (val_main_v1 (F := Ideal) x8),
    Cert.RefShape.ref_nv_eq, Cert.RefShape.ref_row, Cert.RefShape.ref_col]

end Cert.Bridge

end
-- ==== Proof.lean ====
/-
  A graph feature-embedding layer (ego branch, degree-normalised peer branch, edge branch) as two tiled TPU kernels with
  host gathers and scatter-adds around them, against its plain jnp reference.

  The kernel program hoists the node half of the peer contraction: it multiplies x by the first 128 columns of Wpeer once
  per node and gathers the product's rows at `row`, where the reference gathers x's rows and contracts all 160 columns per
  edge; it packs the peer messages and the edge features into one 128-column array; and it writes the degree
  normalisation as rsqrt(max(deg, 1)) under deg > 0 where the reference writes deg^(-1/2) under deg > 0. On the extended
  reals (a change of float format the identity) these are the same functions of the nine arguments: a sum over 160 terms
  splits at 128, a gathered row of a product is the product of the gathered row, a degree is a natural number, and
  rsqrt(d) = d^(-1/2) for d ≥ 1. Everything after the four arrays h_ego, peer messages, edge features and norm_val is the
  same sequence of host operations in both programs. The precondition (finite inputs) is never opened: no step
  distributes, cancels or moves a factor across a sum.

  Frames: each kernel program runs region by region; a region's body loads its input blocks, stores its output blocks
  whole, and faults nowhere; no host operation and no region writes an argument. The reference is host operations only.
  The ideal pass rewrote nothing, so the idealisation claim is trivial.
-/
import proofs.«128638_j40037685133334_2_alg».proof.Defs
import proofs.«128638_j40037685133334_2_alg».proof.Proof.Gen.Kernel
import proofs.«128638_j40037685133334_2_alg».proof.Proof.Gen.KernelIdeal
import proofs.«128638_j40037685133334_2_alg».proof.Proof.Gen.ReferenceIdeal
import proofs.«128638_j40037685133334_2_alg».proof.Proof.Gen.Pre_finite_inputs
import proofs.«128638_j40037685133334_2_alg».proof.Proof.KFrame
import proofs.«128638_j40037685133334_2_alg».proof.Proof.KIFrame
import proofs.«128638_j40037685133334_2_alg».proof.Proof.RefRun
import proofs.«128638_j40037685133334_2_alg».proof.Proof.RefRes
import proofs.«128638_j40037685133334_2_alg».proof.Proof.Bridge

noncomputable section

namespace Cert.Proof

open Idealize.ShloMosaic Idealize.SL.Sem

/-- The word-level kernel program runs to the end, faults nowhere, and leaves its arguments unchanged. -/
theorem frame_k : Cert.frame_Kernel (hKernel := Cert.Kernel.Gen.facts) (hPre_finite_inputs := Cert.Pre_finite_inputs.Gen.facts) :=
  fun m ρ _ => Cert.Kernel.Fr.frame (F := Bits) m ρ

/-- So does the idealised kernel program. -/
theorem frame_ki : Cert.frame_KernelIdeal (hKernelIdeal := Cert.KernelIdeal.Gen.facts) (hPre_finite_inputs := Cert.Pre_finite_inputs.Gen.facts) :=
  fun m ρ _ => Cert.KernelIdeal.Fr.frame (F := Ideal) m ρ

/-- So does the reference: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories that agree on the arguments both programs end with the same result: the common finishing function of
    h_ego, the peer messages, the edge features, norm_val and the two index rows, each one function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, (θ_run Cert.KernelIdeal.defs _ _).mono
      (fun _ h c => ⟨(h c).1.trans (Cert.KernelIdeal.KChain.kernel_value m c), (h c).2⟩)
      (Cert.KernelIdeal.Fr.run_main (F := Ideal) m ρ), ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8⟩ := hagree c
  rw [Cert.ReferenceIdeal.RefValue.res_eq m' c, a0, a1, a2, a3, a4, a5, a6, a7, a8]
  exact Cert.Bridge.ref_value _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
